-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S1x1 : Shape := ⟨2, ![1, 1]⟩
abbrev S1024x1 : Shape := ⟨2, ![1024, 1]⟩
abbrev S1 : Shape := ⟨1, ![1]⟩
abbrev S_ : Shape := ⟨0, ![]⟩

abbrev nBuf : Space → Nat
  | .hbm => 5
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1, .f32⟩
  | .hbm, ⟨4, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_16 : BitVec 32 := 0#32
  let v28 : BitVec 1 := Scalar.cmpi .ne v27 c0_i32_16
  v28

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  reduces_S512x1024_S1024 : S512x1024.Reduces [0] S1024
  shapeCasts_S1024_S1x1024 : S1024.ShapeCasts S1x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S512x1024_S512x1024_S1024x1024_0_0_1_1_n_n_wf : DotDims.WF S512x1024 S512x1024 S1024x1024 [0] [0] [1] [1] [] []
  dot_S1x1024_S1x1024_S1024x1024_0_0_1_1_n_n_wf : DotDims.WF S1x1024 S1x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1x1024_S1x1024_S1024x1024_0_0_1_1_n_n : DotDims S1x1024 S1x1024 S1024x1024 where
  lhsContracting := [0]
  rhsContracting := [0]
  lhsNonContracting := [1]
  rhsNonContracting := [1]
  lhsBatch := []
  rhsBatch := []
  wf := dot_S1x1024_S1x1024_S1024x1024_0_0_1_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S1024x8192 : Shape := ⟨2, ![1024, 8192]⟩
abbrev S1024x1024 : Shape := ⟨2, ![1024, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1024x8192, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .i32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S1024x8192, .f32⟩
  | .hbm, ⟨84, _⟩ => ⟨S1024x1024, .f32⟩
  | .hbm, ⟨85, _⟩ => ⟨S_, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S_, .f32⟩
  | .hbm, ⟨90, _⟩ => ⟨S1024x1024, .f32⟩
  | .hbm, ⟨91, _⟩ => ⟨S1024x1024, .i32⟩
  | .hbm, ⟨92, _⟩ => ⟨S_, .i32⟩
  | .hbm, ⟨93, _⟩ => ⟨S1024x1024, .i32⟩
  | .hbm, ⟨94, _⟩ => ⟨S1024x1024, .i32⟩
  | .hbm, ⟨95, _⟩ => ⟨S1024x1024, .i32⟩
  | .hbm, ⟨96, _⟩ => ⟨S1024x1024, .i1⟩
  | .hbm, ⟨97, _⟩ => ⟨S_, .f32⟩
  | .hbm, ⟨98, _⟩ => ⟨S1024x1024, .f32⟩
  | .hbm, ⟨99, _⟩ => ⟨S1024x1024, .f32⟩
  | .hbm, ⟨100, _⟩ => ⟨S1024x1024, .f32⟩
  | .hbm, ⟨101, _⟩ => ⟨S1024x1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_c_5 : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_cst_0 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_cst_1 : Ref sig .tc := ⟨.hbm, 62, rfl⟩
abbrev main_call1_call0_v8 : Ref sig .tc := ⟨.hbm, 63, rfl⟩
abbrev main_call1_call0_cst_2 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_call0_v12 : Ref sig .tc := ⟨.hbm, 68, rfl⟩
abbrev main_call1_call0_cst_3 : Ref sig .tc := ⟨.hbm, 69, rfl⟩
abbrev main_call1_call0_v13 : Ref sig .tc := ⟨.hbm, 70, rfl⟩
abbrev main_call1_call0_cst_4 : Ref sig .tc := ⟨.hbm, 71, rfl⟩
abbrev main_call1_call0_call0_v0 : Ref sig .tc := ⟨.hbm, 72, rfl⟩
abbrev main_call1_call0_call0_v1 : Ref sig .tc := ⟨.hbm, 73, rfl⟩
abbrev main_call1_v0 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_6 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_7 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_8 : Ref sig .tc := ⟨.hbm, 89, rfl⟩
abbrev main_v31 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_cst : Ref sig .tc := ⟨.hbm, 97, rfl⟩
abbrev main_call2_v5 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_cst_9 : Ref sig .tc := ⟨.hbm, 102, rfl⟩
abbrev main_v35 : Ref sig .tc := ⟨.hbm, 103, rfl⟩
abbrev main_cst_10 : Ref sig .tc := ⟨.hbm, 104, rfl⟩
abbrev main_v36 : Ref sig .tc := ⟨.hbm, 105, rfl⟩

abbrev nD : Nat := 1
abbrev τ : Topo := Topo.v7x

variable {F : FTy → Type} [FloatOps F]

class Facts₀ : Prop where
  reducesTo_S8192x1024_S1024_d0 : S8192x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S1024x1024 : S_.BroadcastsInDim S1024x1024 (![] : Fin 0 → Fin S1024x1024.rank)
  reducesTo_S1024x1024_S_d0_1 : S1024x1024.ReducesTo [0, 1] S_
  dot_S1024x8192_S8192x1024_S1024x1024_1_0_0_1_n_n_wf : DotDims.WF S1024x8192 S8192x1024 S1024x1024 [1] [0] [0] [1] [] []

variable [Facts₀]

def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf

class Facts : Prop extends Facts₀ where

variable [Facts]
-- ==== Proof.LibWholeStore.lean ====
/-
  A store of a whole-shape block, made last, is what the buffer reads.

  Kernel bodies that keep an accumulator in a scratch buffer store it whole, through the rectangle at offset zero of
  the buffer's own extents, possibly after earlier stores at the same point. Whatever those were and whatever the
  buffer held before, reading the buffer back gives the last payload: the last store's rectangle covers every index.
-/
import Idealize.ShloMosaic.Lib.Pipeline.FrameBody
import Idealize.ShloMosaic.Lib.Pipeline.Value

noncomputable section

namespace Cert.LibWholeStore

open Idealize.ShloMosaic

/-- Every index of a shape lies in the rectangle at offset zero (however the zeros are spelt) of the shape's own extents. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- For any view `v` of shape `S`, prior contents `f`, payload `w` and earlier stores `L` (last first): after the
    stores `L` and then a store of `w` through the whole-shape rectangle at offset zero, the view reads `w`. -/
theorem read_writes_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., mem_unit_zero h inb y⟩), View.canon_cons_unit_zero h]

end Cert.LibWholeStore

end
-- ==== Proof.LibCoveredLoad.lean ====
/-
  A load of a whole buffer after several stores, the last of which overwrote the whole buffer.

  The library reads a whole-buffer load after ONE whole-buffer store as that store's payload
  (`View.readCov_unit_zero`). An accumulator that is rewritten whole several times in one body and
  read back in between needs the same fact after a list of stores: only the last store matters,
  because it covers every index.
-/
import Idealize.ShloMosaic.Lib.Pipeline.Value

noncomputable section

namespace Cert.LibCoveredLoad

open Idealize.ShloMosaic Idealize.ShloMosaic.View

variable {Val : EltTy → Type} {S : Shape} {e : EltTy}

/-- A load through the whole-shape rectangle at zero offsets, after a list of stores (last first) whose
    last one went through that same rectangle, reads that last store's payload, whatever the earlier
    stores were: the last store covers every index. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons.mpr (Or.inl rfl), mem_set_unit_zero rfl inb y⟩),
    canon_cons_unit_zero rfl, ld_unit_zero rfl]

end Cert.LibCoveredLoad

end
-- ==== Proof.K.Body0.lean ====
import proofs.«176689_j65489661329953_2_alg».proof.Proof.Gen.Kernel.Launch
import proofs.«176689_j65489661329953_2_alg».proof.Proof.Gen.Kernel.Skeleton
import proofs.«176689_j65489661329953_2_alg».proof.Proof.Gen.Kernel.Points
import Idealize.ShloMosaic.Lib.Pipeline.FrameBody
import Idealize.ShloMosaic.Lib.Ring
import Idealize.ShloMosaic.Lib.Tactic
import proofs.«176689_j65489661329953_2_alg».proof.Proof.LibWholeStore
import proofs.«176689_j65489661329953_2_alg».proof.Proof.LibCoveredLoad

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first sweep's body resets its three running values exactly when the grid coordinate is 0 … -/
abbrev first0 (i : grid0.Coords) : Prop := (Scalar.cmpi .ne (Scalar.extui (Scalar.cmpi .eq (BitVec.ofNat 32 (i 0).val) 0#32)) 0#32) = 1#1
/-- … and turns them into the correlation matrix exactly when it is the last one. -/
abbrev last0 (i : grid0.Coords) : Prop := k0_cond2 i = 1#1

/-- The two zero offsets of a rank-two access, as the constant function. -/
theorem off00 : (![0, 0] : Fin 2 → ℕ) = fun _ => 0 := by
  funext a; match a with | ⟨0, _⟩ => rfl | ⟨1, _⟩ => rfl

set_option maxHeartbeats 4000000 in
/-- A middle block: the running Gram matrix, column sums and column sums of squares each take the block's
    contribution; the block and the output buffer are handed back as found. -/
theorem run0_mid (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)
    (hf : ¬first0 i) (hl : ¬last0 i)
    (x0 : Vec F S512x1024 .f32) (xo g : Vec F S1024x1024 .f32) (s q : Vec F S1x1024 .f32) (E : Set ℕ) (K : PUnit → sProp 𝕄) :
    iprop(owns (c : Thread nD τ) arg1 fullShare x0 ∗ owns (c : Thread nD τ) arg2 fullShare xo ∗ owns (c : Thread nD τ) arg3 fullShare g
        ∗ owns (c : Thread nD τ) arg4 fullShare s ∗ owns (c : Thread nD τ) arg5 fullShare q
        ∗ (iprop(owns (c : Thread nD τ) arg1 fullShare x0 ∗ owns (c : Thread nD τ) arg2 fullShare xo
            ∗ owns (c : Thread nD τ) arg3 fullShare (k0_pay4 x0 g) ∗ owns (c : Thread nD τ) arg4 fullShare (k0_pay5 x0 s)
            ∗ owns (c : Thread nD τ) arg5 fullShare (k0_pay6 x0 q)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [Cert.LibWholeStore.read_writes_whole _ _ off00]
    simp only [View.readAt_eq_ld, harg1.read_unread, harg3.read_unread, View.ld_unit_zero (S := S512x1024) off00, View.ld_unit_zero (S := S1024x1024) off00]
  isplitl [H4]
  · iexists _; isplitr
    swap; · iexact H4
    ipureintro
    rw [Cert.LibWholeStore.read_writes_whole _ _ off00]
    simp only [View.readAt_eq_ld, harg1.read_unread, harg4.read_unread, View.ld_unit_zero (S := S512x1024) off00, View.ld_unit_zero (S := S1x1024) off00]
  · iexists _; isplitr
    swap; · iexact H5
    ipureintro
    rw [Cert.LibWholeStore.read_writes_whole _ _ off00]
    simp only [View.readAt_eq_ld, harg1.read_unread, harg5.read_unread, View.ld_unit_zero (S := S512x1024) off00, View.ld_unit_zero (S := S1x1024) off00]

set_option maxHeartbeats 4000000 in
/-- The first block: the three running values start from the zero arrays, whatever the scratch held. -/
theorem run0_first (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)
    (hf : first0 i) (hl : ¬last0 i)
    (x0 : Vec F S512x1024 .f32) (xo g : Vec F S1024x1024 .f32) (s q : Vec F S1x1024 .f32) (E : Set ℕ) (K : PUnit → sProp 𝕄) :
    iprop(owns (c : Thread nD τ) arg1 fullShare x0 ∗ owns (c : Thread nD τ) arg2 fullShare xo ∗ owns (c : Thread nD τ) arg3 fullShare g
        ∗ owns (c : Thread nD τ) arg4 fullShare s ∗ owns (c : Thread nD τ) arg5 fullShare q
        ∗ (iprop(owns (c : Thread nD τ) arg1 fullShare x0 ∗ owns (c : Thread nD τ) arg2 fullShare xo
            ∗ owns (c : Thread nD τ) arg3 fullShare (k0_pay4 x0 k0_pay1) ∗ owns (c : Thread nD τ) arg4 fullShare (k0_pay5 x0 k0_pay2)
            ∗ owns (c : Thread nD τ) arg5 fullShare (k0_pay6 x0 k0_pay3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]

set_option maxHeartbeats 4000000 in
/-- The last block: the three running values take the block's contribution, and the output buffer receives the
    correlation matrix computed from the three totals. -/
theorem run0_last (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)
    (hf : ¬first0 i) (hl : last0 i)
    (x0 : Vec F S512x1024 .f32) (xo g : Vec F S1024x1024 .f32) (s q : Vec F S1x1024 .f32) (E : Set ℕ) (K : PUnit → sProp 𝕄) :
    iprop(owns (c : Thread nD τ) arg1 fullShare x0 ∗ owns (c : Thread nD τ) arg2 fullShare xo ∗ owns (c : Thread nD τ) arg3 fullShare g
        ∗ owns (c : Thread nD τ) arg4 fullShare s ∗ owns (c : Thread nD τ) arg5 fullShare q
        ∗ (iprop(owns (c : Thread nD τ) arg1 fullShare x0
            ∗ owns (c : Thread nD τ) arg2 fullShare (k0_pay7 (k0_pay5 x0 s) (k0_pay6 x0 q) (k0_pay4 x0 g))
            ∗ owns (c : Thread nD τ) arg3 fullShare (k0_pay4 x0 g) ∗ owns (c : Thread nD τ) arg4 fullShare (k0_pay5 x0 s)
            ∗ owns (c : Thread nD τ) arg5 fullShare (k0_pay6 x0 q)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  sl_unfold_run_names
  iapply Hk
  isplitl [H1]
  · iexists _; isplitr; · ipureintro; exact hf1
    iexact H1
  isplitl [H2]
  · iexists _; isplitr
    swap; · iexact H2
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  isplitl [H3]
  · iexists _; isplitr
    swap; · iexact H3
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]

end Cert.Kernel.Body

end
-- ==== Proof.K.Data0.lean ====
import proofs.«176689_j65489661329953_2_alg».proof.Proof.K.Body0

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first sweep, entered with the unscoped buffers at `V` -/

/-- Window `w`'s block at point `t`, read off its array as the sweep finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of rows when the body runs: it is fetched at every
    point, whole. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The running Gram matrix, column sums and column sums of squares after the body at point `n`: from the zero
    arrays at point 0, each later point adding its block's contribution to what the point before left. -/
def acc0 (c : Dev nD) : (n : ℕ) → n < cfg0.N → Vec F S1024x1024 .f32 × Vec F S1x1024 .f32 × Vec F S1x1024 .f32
  | 0, hn => (k0_pay4 (iblk0 V c 0 ⟨0, hn⟩) k0_pay1, k0_pay5 (iblk0 V c 0 ⟨0, hn⟩) k0_pay2, k0_pay6 (iblk0 V c 0 ⟨0, hn⟩) k0_pay3)
  | n + 1, hn => (k0_pay4 (iblk0 V c 0 ⟨n + 1, hn⟩) (acc0 c n (Nat.lt_of_succ_lt hn)).1,
      k0_pay5 (iblk0 V c 0 ⟨n + 1, hn⟩) (acc0 c n (Nat.lt_of_succ_lt hn)).2.1,
      k0_pay6 (iblk0 V c 0 ⟨n + 1, hn⟩) (acc0 c n (Nat.lt_of_succ_lt hn)).2.2)

theorem acc0_zero (c : Dev nD) (t : Fin cfg0.N) (h : t.val = 0) :
    acc0 V c t.val t.isLt = (k0_pay4 (iblk0 V c 0 t) k0_pay1, k0_pay5 (iblk0 V c 0 t) k0_pay2, k0_pay6 (iblk0 V c 0 t) k0_pay3) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = (k0_pay4 (iblk0 V c 0 t) (acc0 V c (t.val - 1) (Nat.lt_of_le_of_lt (Nat.sub_le _ _) t.isLt)).1,
      k0_pay5 (iblk0 V c 0 t) (acc0 V c (t.val - 1) (Nat.lt_of_le_of_lt (Nat.sub_le _ _) t.isLt)).2.1,
      k0_pay6 (iblk0 V c 0 t) (acc0 V c (t.val - 1) (Nat.lt_of_le_of_lt (Nat.sub_le _ _) t.isLt)).2.2) := by
  obtain ⟨n, hn⟩ := t
  cases n with
  | zero => exact absurd rfl h
  | succ n => rfl

theorem lt15_0 : 15 < cfg0.N := by rw [show cfg0.N = 16 from N_0]; decide

/-- The correlation matrix the last point stores into the output window: the closing formula of the three totals. -/
def out0 (c : Dev nD) : Vec F S1024x1024 .f32 :=
  k0_pay7 (acc0 V c 15 lt15_0).2.1 (acc0 V c 15 lt15_0).2.2 (acc0 V c 15 lt15_0).1

/-! ## The body's branches, decided over the grid, and where the output window is idle -/

theorem hfirst0 : ∀ t : Fin cfg0.N, first0 (grid0.coords t) ↔ t.val = 0 :=
  (by decide +kernel : ∀ t : Fin grid0.N, first0 (grid0.coords t) ↔ t.val = 0)
theorem hlast0 : ∀ t : Fin cfg0.N, last0 (grid0.coords t) ↔ t.val = 15 :=
  (by decide +kernel : ∀ t : Fin grid0.N, last0 (grid0.coords t) ↔ t.val = 15)
theorem liveAt0_0 : ∀ t : Fin cfg0.N, cfg0.idle 0 (grid0.coords t) = false := by decide +kernel
theorem idleAt0_1 : ∀ t : Fin cfg0.N, t.val ≠ 15 → cfg0.idle 1 (grid0.coords t) = true := by decide +kernel
theorem liveAt0_1 : ∀ t : Fin cfg0.N, t.val = 15 → cfg0.idle 1 (grid0.coords t) = false := by decide +kernel
theorem noFlush0_1 : ∀ t : Fin cfg0.N, t.val ≠ 15 → (cfg0.win 1).flush t = false := by decide +kernel

/-! ## The staging and scratch memrefs as the pipeline passes them -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev scM0_0 : Memref sig .tc .vmem S1024x1024 .f32 := Memref.whole cc0_scratch0
abbrev scM0_1 : Memref sig .tc .vmem S1x1024 .f32 := Memref.whole cc0_scratch1
abbrev scM0_2 : Memref sig .tc .vmem S1x1024 .f32 := Memref.whole cc0_scratch2

/-! ## The invariant: the three scratch buffers at the running values -/

/-- The scoped buffers this sweep never touches (the other sweep's staging buffers and scratch), each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant with the three scratch operands named: each owned at some contents, beside the buffers the
    sweep never touches and the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)
          ∗ (∃ d, owns (c : Thread nD τ) scM0_2 fullShare d) ∗ others0 c) ∗ (∃ r, prngReg c r)) := by
  unfold Pipeline.ΦA others0; rw [scopedRest0_eq]; simp only [scM0_0, scM0_1, scM0_2, owns_whole]; try rfl

/-- The invariant before position `n`: before the first point the class's (the scratch at anything); afterwards
    the three scratch buffers at the running values the point before left. -/
def PhiS0 (c : Dev nD) : (n : ℕ) → n ≤ cfg0.N → sProp 𝕄
  | 0, _ => Pipeline.ΦA spec0 c
  | n + 1, hn => iprop((owns (c : Thread nD τ) scM0_0 fullShare (acc0 V c n hn).1 ∗ owns (c : Thread nD τ) scM0_1 fullShare (acc0 V c n hn).2.1
      ∗ owns (c : Thread nD τ) scM0_2 fullShare (acc0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (acc0 V c n hn).1 ∗ owns (c : Thread nD τ) scM0_1 fullShare (acc0 V c n hn).2.1
      ∗ owns (c : Thread nD τ) scM0_2 fullShare (acc0 V c n hn).2.2 ∗ others0 c) ∗ (∃ r, prngReg c r)) := rfl

theorem PhiS0_pos (c : Dev nD) (n : ℕ) (h : n ≤ cfg0.N) (hz : n ≠ 0) :
    PhiS0 V c n h = iprop((owns (c : Thread nD τ) scM0_0 fullShare (acc0 V c (n - 1) (by omega)).1 ∗ owns (c : Thread nD τ) scM0_1 fullShare (acc0 V c (n - 1) (by omega)).2.1
      ∗ owns (c : Thread nD τ) scM0_2 fullShare (acc0 V c (n - 1) (by omega)).2.2 ∗ others0 c) ∗ (∃ r, prngReg c r)) := by
  cases n with
  | zero => exact absurd rfl hz
  | succ n => rfl

/-! ## The proof data -/

/-- The first sweep's proof data on core `c`: the arrays as the sweep finds them; after the body the input window at
    its block and the output window at the correlation matrix (stored at the last point only; idle before);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = out0 V c := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input window holds its block; the point is the first, a middle one or the last
    (the closed forms of the two branch conditions); the invariant hands the body the three scratch buffers at what the
    point before left (at anything before the first point, where the body resets them) and takes them back at this
    point's running values; the output window is handed back untouched except at the last point, where it receives
    the closing formula of the totals. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
      unfold Dat.leavesExact; rw [liveAt0_0 t], after0_0]
  by_cases h0 : t.val = 0
  · have h15 : t.val ≠ 15 := by omega
    rw [Dat.leavesExact_idle (dat0 V c) 1 t (idleAt0_1 t h15) (noFlush0_1 t h15)]
    rw [acc0_zero V c t h0]
    rw [PhiS0_castSucc V c t, PhiS0_zero V c _ _ h0, PhiA0_eq]
    iintro ⟨⟨⟨⟨%g, HS0⟩, ⟨%s, HS1⟩, ⟨%q, HS2⟩, Hoth⟩, Hg⟩, Ho, ⟨%d0, H0⟩, ⟨%d1, H1⟩⟩
    iapply (run0_first c (grid0.coords t) (ms0_0 t) (hs0_0 t) (ms0_1 t) (hs0_1 t) scM0_0 (Memref.isWhole_whole _) scM0_1 (Memref.isWhole_whole _) scM0_2 (Memref.isWhole_whole _)
      ((hfirst0 t).mpr h0) (fun h => h15 ((hlast0 t).mp h)) (iblk0 V c 0 t) _ g s q Set.univ _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2 Hoth Hg]
    · isplitl [HS0 HS1 HS2 Hoth]
      · isplitl [HS0]; · iexact HS0
        isplitl [HS1]; · iexact HS1
        isplitl [HS2]; · iexact HS2
        iexact Hoth
      iexact Hg
    isplitl [Ho]; · iexact Ho
    isplitl [H0]; · iexact H0
    iexists _; iexact H1
  · by_cases h15 : t.val = 15
    · rw [show (dat0 V c).leavesExact 1 t = owns (c : Thread nD τ) (ms0_1 t) fullShare ((dat0 V c).after 1 t) from by
        unfold Dat.leavesExact; rw [liveAt0_1 t h15], after0_1]
      have ht : t = ⟨15, lt15_0⟩ := Fin.ext h15
      rw [show out0 V c = k0_pay7 (acc0 V c t.val t.isLt).2.1 (acc0 V c t.val t.isLt).2.2 (acc0 V c t.val t.isLt).1 from by subst ht; rfl]
      rw [acc0_pos V c t h0]
      rw [PhiS0_castSucc V c t, PhiS0_pos V c _ _ h0]
      iintro ⟨⟨⟨HS0, HS1, HS2, Hoth⟩, Hg⟩, Ho, ⟨%d0, H0⟩, ⟨%d1, H1⟩⟩
      iapply (run0_last c (grid0.coords t) (ms0_0 t) (hs0_0 t) (ms0_1 t) (hs0_1 t) scM0_0 (Memref.isWhole_whole _) scM0_1 (Memref.isWhole_whole _) scM0_2 (Memref.isWhole_whole _)
        (fun h => h0 ((hfirst0 t).mp h)) ((hlast0 t).mpr h15) (iblk0 V c 0 t) _ _ _ _ Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      iexact H1
    · rw [Dat.leavesExact_idle (dat0 V c) 1 t (idleAt0_1 t h15) (noFlush0_1 t h15)]
      rw [acc0_pos V c t h0]
      rw [PhiS0_castSucc V c t, PhiS0_pos V c _ _ h0]
      iintro ⟨⟨⟨HS0, HS1, HS2, Hoth⟩, Hg⟩, Ho, ⟨%d0, H0⟩, ⟨%d1, H1⟩⟩
      iapply (run0_mid c (grid0.coords t) (ms0_0 t) (hs0_0 t) (ms0_1 t) (hs0_1 t) scM0_0 (Memref.isWhole_whole _) scM0_1 (Memref.isWhole_whole _) scM0_2 (Memref.isWhole_whole _)
        (fun h => h0 ((hfirst0 t).mp h)) (fun h => h15 ((hlast0 t).mp h)) (iblk0 V c 0 t) _ _ _ _ Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the sweep is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running values are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

end Cert.Kernel.Body

end
-- ==== Proof.K.Body1.lean ====
import proofs.«176689_j65489661329953_2_alg».proof.Proof.Gen.Kernel.Launch
import proofs.«176689_j65489661329953_2_alg».proof.Proof.Gen.Kernel.Skeleton
import proofs.«176689_j65489661329953_2_alg».proof.Proof.Gen.Kernel.Points
import Idealize.ShloMosaic.Lib.Pipeline.FrameBody
import Idealize.ShloMosaic.Lib.Ring
import Idealize.ShloMosaic.Lib.Tactic
import proofs.«176689_j65489661329953_2_alg».proof.Proof.LibWholeStore
import proofs.«176689_j65489661329953_2_alg».proof.Proof.LibCoveredLoad
import proofs.«176689_j65489661329953_2_alg».proof.Proof.K.Body0

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second sweep's body resets its three running values exactly when the grid coordinate is 0 … -/
abbrev first1 (i : grid1.Coords) : Prop := (Scalar.cmpi .ne (Scalar.extui (Scalar.cmpi .eq (BitVec.ofNat 32 (i 0).val) 0#32)) 0#32) = 1#1
/-- … and turns them into the loss exactly when it is the last one. -/
abbrev last1 (i : grid1.Coords) : Prop := k1_cond2 i = 1#1

set_option maxHeartbeats 8000000 in
/-- A middle block of the second sweep: the three running values each take the block's contribution; the block, the first sweep's matrix and the output buffer are handed back as found. -/
theorem run1_mid (c : Dev nD) (i : grid1.Coords) (arg1 : Memref sig .tc .vmem S512x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (hf : ¬first1 i) (hl : ¬last1 i)
    (x0 : Vec F S512x1024 .f32) (cx g : Vec F S1024x1024 .f32) (xo : Vec F S1x1 .f32) (s q : Vec F S1x1024 .f32) (E : Set ℕ) (K : PUnit → sProp 𝕄) :
    iprop(owns (c : Thread nD τ) arg1 fullShare x0 ∗ owns (c : Thread nD τ) arg2 fullShare cx ∗ owns (c : Thread nD τ) arg3 fullShare xo
        ∗ owns (c : Thread nD τ) arg4 fullShare g ∗ owns (c : Thread nD τ) arg5 fullShare s ∗ owns (c : Thread nD τ) arg6 fullShare q
        ∗ (iprop(owns (c : Thread nD τ) arg1 fullShare x0 ∗ owns (c : Thread nD τ) arg2 fullShare cx
            ∗ owns (c : Thread nD τ) arg3 fullShare xo
            ∗ owns (c : Thread nD τ) arg4 fullShare (k1_pay4 x0 g) ∗ owns (c : Thread nD τ) arg5 fullShare (k1_pay5 x0 s)
            ∗ owns (c : Thread nD τ) arg6 fullShare (k1_pay6 x0 q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton, k1_part1_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H5]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  · iexists _; isplitr
    swap; · iexact H6
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]

set_option maxHeartbeats 8000000 in
/-- The first block of the second sweep: the three running values start from the zero arrays, whatever the scratch held. -/
theorem run1_first (c : Dev nD) (i : grid1.Coords) (arg1 : Memref sig .tc .vmem S512x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (hf : first1 i) (hl : ¬last1 i)
    (x0 : Vec F S512x1024 .f32) (cx g : Vec F S1024x1024 .f32) (xo : Vec F S1x1 .f32) (s q : Vec F S1x1024 .f32) (E : Set ℕ) (K : PUnit → sProp 𝕄) :
    iprop(owns (c : Thread nD τ) arg1 fullShare x0 ∗ owns (c : Thread nD τ) arg2 fullShare cx ∗ owns (c : Thread nD τ) arg3 fullShare xo
        ∗ owns (c : Thread nD τ) arg4 fullShare g ∗ owns (c : Thread nD τ) arg5 fullShare s ∗ owns (c : Thread nD τ) arg6 fullShare q
        ∗ (iprop(owns (c : Thread nD τ) arg1 fullShare x0 ∗ owns (c : Thread nD τ) arg2 fullShare cx
            ∗ owns (c : Thread nD τ) arg3 fullShare xo
            ∗ owns (c : Thread nD τ) arg4 fullShare (k1_pay4 x0 k1_pay1) ∗ owns (c : Thread nD τ) arg5 fullShare (k1_pay5 x0 k1_pay2)
            ∗ owns (c : Thread nD τ) arg6 fullShare (k1_pay6 x0 k1_pay3)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton, k1_part1_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H5]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  · iexists _; isplitr
    swap; · iexact H6
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]

set_option maxHeartbeats 8000000 in
/-- The last block of the second sweep: the three running values take the block's contribution, and the one-entry output buffer receives the loss computed from the three totals and the first sweep's matrix. -/
theorem run1_last (c : Dev nD) (i : grid1.Coords) (arg1 : Memref sig .tc .vmem S512x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (hf : ¬first1 i) (hl : last1 i)
    (x0 : Vec F S512x1024 .f32) (cx g : Vec F S1024x1024 .f32) (xo : Vec F S1x1 .f32) (s q : Vec F S1x1024 .f32) (E : Set ℕ) (K : PUnit → sProp 𝕄) :
    iprop(owns (c : Thread nD τ) arg1 fullShare x0 ∗ owns (c : Thread nD τ) arg2 fullShare cx ∗ owns (c : Thread nD τ) arg3 fullShare xo
        ∗ owns (c : Thread nD τ) arg4 fullShare g ∗ owns (c : Thread nD τ) arg5 fullShare s ∗ owns (c : Thread nD τ) arg6 fullShare q
        ∗ (iprop(owns (c : Thread nD τ) arg1 fullShare x0 ∗ owns (c : Thread nD τ) arg2 fullShare cx
            ∗ owns (c : Thread nD τ) arg3 fullShare (k1_pay7 (k1_pay8 (k1_pay5 x0 s) (k1_pay6 x0 q) (k1_pay4 x0 g) cx))
            ∗ owns (c : Thread nD τ) arg4 fullShare (k1_pay4 x0 g) ∗ owns (c : Thread nD τ) arg5 fullShare (k1_pay5 x0 s)
            ∗ owns (c : Thread nD τ) arg6 fullShare (k1_pay6 x0 q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton, k1_part1_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H5]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  · iexists _; isplitr
    swap; · iexact H6
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]

end Cert.Kernel.Body

end
-- ==== Proof.K.Data1.lean ====
import proofs.«176689_j65489661329953_2_alg».proof.Proof.K.Body1

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second sweep, entered with the unscoped buffers at `V` -/

/-- Window `w`'s block at point `t`, read off its array as the sweep finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's staging buffer holds the point's block of rows when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input window — the first sweep's matrix, one block that is the whole array — is fetched at the first
    point only and left in place by the body, so its buffer holds that block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The running Gram matrix, column sums and column sums of squares after the body at point `n`. -/
def acc1 (c : Dev nD) : (n : ℕ) → n < cfg1.N → Vec F S1024x1024 .f32 × Vec F S1x1024 .f32 × Vec F S1x1024 .f32
  | 0, hn => (k1_pay4 (iblk1 V c 0 ⟨0, hn⟩) k1_pay1, k1_pay5 (iblk1 V c 0 ⟨0, hn⟩) k1_pay2, k1_pay6 (iblk1 V c 0 ⟨0, hn⟩) k1_pay3)
  | n + 1, hn => (k1_pay4 (iblk1 V c 0 ⟨n + 1, hn⟩) (acc1 c n (Nat.lt_of_succ_lt hn)).1,
      k1_pay5 (iblk1 V c 0 ⟨n + 1, hn⟩) (acc1 c n (Nat.lt_of_succ_lt hn)).2.1,
      k1_pay6 (iblk1 V c 0 ⟨n + 1, hn⟩) (acc1 c n (Nat.lt_of_succ_lt hn)).2.2)

theorem acc1_zero (c : Dev nD) (t : Fin cfg1.N) (h : t.val = 0) :
    acc1 V c t.val t.isLt = (k1_pay4 (iblk1 V c 0 t) k1_pay1, k1_pay5 (iblk1 V c 0 t) k1_pay2, k1_pay6 (iblk1 V c 0 t) k1_pay3) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2.1,
      k1_pay6 (iblk1 V c 0 t) (acc1 V c (t.val - 1) (Nat.lt_of_le_of_lt (Nat.sub_le _ _) t.isLt)).2.2) := by
  obtain ⟨n, hn⟩ := t
  cases n with
  | zero => exact absurd rfl h
  | succ n => rfl

theorem lt15_1 : 15 < cfg1.N := by rw [show cfg1.N = 16 from N_1]; decide

/-- The one-entry block the last point stores into the output window: the loss from the three totals and the first
    sweep's matrix as the window holds it. -/
def out1 (c : Dev nD) : Vec F S1x1 .f32 :=
  k1_pay7 (k1_pay8 (acc1 V c 15 lt15_1).2.1 (acc1 V c 15 lt15_1).2.2 (acc1 V c 15 lt15_1).1 (iblk1 V c 1 ⟨15, lt15_1⟩))

/-! ## The body's branches, decided over the grid, and where the output window is idle -/

theorem hfirst1 : ∀ t : Fin cfg1.N, first1 (grid1.coords t) ↔ t.val = 0 :=
  (by decide +kernel : ∀ t : Fin grid1.N, first1 (grid1.coords t) ↔ t.val = 0)
theorem hlast1 : ∀ t : Fin cfg1.N, last1 (grid1.coords t) ↔ t.val = 15 :=
  (by decide +kernel : ∀ t : Fin grid1.N, last1 (grid1.coords t) ↔ t.val = 15)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val ≠ 15 → cfg1.idle 2 (grid1.coords t) = true := by decide +kernel
theorem liveAt1_2 : ∀ t : Fin cfg1.N, t.val = 15 → cfg1.idle 2 (grid1.coords t) = false := by decide +kernel
theorem noFlush1_2 : ∀ t : Fin cfg1.N, t.val ≠ 15 → (cfg1.win 2).flush t = false := by decide +kernel

/-! ## The staging and scratch memrefs as the pipeline passes them -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1024x1024 .f32 := Memref.whole cc1_scratch0
abbrev scM1_1 : Memref sig .tc .vmem S1x1024 .f32 := Memref.whole cc1_scratch1
abbrev scM1_2 : Memref sig .tc .vmem S1x1024 .f32 := Memref.whole cc1_scratch2

/-! ## The invariant: the three scratch buffers at the running values -/

/-- The class invariant with the three scratch operands named: the six scoped buffers the sweep never touches (the
    first sweep's staging buffers and scratch) at anything, each scratch operand owned at some contents, and the
    generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
          ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point the class's; afterwards the three scratch buffers at
    the running values the point before left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ owns (c : Thread nD τ) scM1_0 fullShare (acc1 V c n hn).1 ∗ owns (c : Thread nD τ) scM1_1 fullShare (acc1 V c n hn).2.1
      ∗ owns (c : Thread nD τ) scM1_2 fullShare (acc1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ owns (c : Thread nD τ) scM1_0 fullShare (acc1 V c n hn).1 ∗ owns (c : Thread nD τ) scM1_1 fullShare (acc1 V c n hn).2.1
      ∗ owns (c : Thread nD τ) scM1_2 fullShare (acc1 V c n hn).2.2) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ owns (c : Thread nD τ) scM1_0 fullShare (acc1 V c (n - 1) (by omega)).1 ∗ owns (c : Thread nD τ) scM1_1 fullShare (acc1 V c (n - 1) (by omega)).2.1
      ∗ owns (c : Thread nD τ) scM1_2 fullShare (acc1 V c (n - 1) (by omega)).2.2) ∗ (∃ r, prngReg c r)) := by
  cases n with
  | zero => exact absurd rfl hz
  | succ n => rfl

/-! ## The proof data -/

/-- The second sweep's proof data on core `c`: the arrays as the sweep finds them; after the body each input window at
    its block and the output window at the loss (stored at the last point only; idle before); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: as in the first sweep, with the first sweep's matrix read through the second input window
    and the one-entry output window written at the last point only. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val = 0
  · have h15 : t.val ≠ 15 := by omega
    rw [Dat.leavesExact_idle (dat1 V c) 2 t (idleAt1_2 t h15) (noFlush1_2 t h15)]
    rw [acc1_zero V c t h0]
    rw [PhiS1_castSucc V c t, PhiS1_zero V c _ _ h0, PhiA1_eq]
    iintro ⟨⟨⟨O1, O2, O3, O4, O5, O6, ⟨%g, HS0⟩, ⟨%s, HS1⟩, ⟨%q, HS2⟩⟩, Hg⟩, Ho, ⟨%d0, H0⟩, ⟨%d1, H1⟩, ⟨%d2, H2⟩⟩
    iapply (run1_first c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        ((hfirst1 t).mpr h0) (fun h => h15 ((hlast1 t).mp h)) (iblk1 V c 0 t) (iblk1 V c 1 t) g _ s q Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [O1 O2 O3 O4 O5 O6 HS0 HS1 HS2 Hg]
    · isplitl [O1 O2 O3 O4 O5 O6 HS0 HS1 HS2]
      · isplitl [O1]; · iexact O1
        isplitl [O2]; · iexact O2
        isplitl [O3]; · iexact O3
        isplitl [O4]; · iexact O4
        isplitl [O5]; · iexact O5
        isplitl [O6]; · iexact O6
        isplitl [HS0]; · iexact HS0
        isplitl [HS1]; · iexact HS1
        iexact HS2
      iexact Hg
    isplitl [Ho]; · iexact Ho
    isplitl [H0]; · iexact H0
    isplitl [H1]; · iexact H1
    iexists _; iexact H2
  · by_cases h15 : t.val = 15
    · rw [show (dat1 V c).leavesExact 2 t = owns (c : Thread nD τ) (ms1_2 t) fullShare ((dat1 V c).after 2 t) from by
        unfold Dat.leavesExact; rw [liveAt1_2 t h15], after1_2]
      have ht : t = ⟨15, lt15_1⟩ := Fin.ext h15
      rw [show out1 V c = k1_pay7 (k1_pay8 (acc1 V c t.val t.isLt).2.1 (acc1 V c t.val t.isLt).2.2 (acc1 V c t.val t.isLt).1 (iblk1 V c 1 t)) from by subst ht; rfl]
      rw [acc1_pos V c t h0]
      rw [PhiS1_castSucc V c t, PhiS1_pos V c _ _ h0]
      iintro ⟨⟨⟨O1, O2, O3, O4, O5, O6, HS0, HS1, HS2⟩, Hg⟩, Ho, ⟨%d0, H0⟩, ⟨%d1, H1⟩, ⟨%d2, H2⟩⟩
      iapply (run1_last c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        (fun h => h0 ((hfirst1 t).mp h)) ((hlast1 t).mpr h15) (iblk1 V c 0 t) (iblk1 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [O1 O2 O3 O4 O5 O6 HS0 HS1 HS2 Hg]
      · isplitl [O1 O2 O3 O4 O5 O6 HS0 HS1 HS2]
        · isplitl [O1]; · iexact O1
          isplitl [O2]; · iexact O2
          isplitl [O3]; · iexact O3
          isplitl [O4]; · iexact O4
          isplitl [O5]; · iexact O5
          isplitl [O6]; · iexact O6
          isplitl [HS0]; · iexact HS0
          isplitl [HS1]; · iexact HS1
          iexact HS2
        iexact Hg
      isplitl [Ho]; · iexact Ho
      isplitl [H0]; · iexact H0
      isplitl [H1]; · iexact H1
      iexact H2
    · rw [Dat.leavesExact_idle (dat1 V c) 2 t (idleAt1_2 t h15) (noFlush1_2 t h15)]
      rw [acc1_pos V c t h0]
      rw [PhiS1_castSucc V c t, PhiS1_pos V c _ _ h0]
      iintro ⟨⟨⟨O1, O2, O3, O4, O5, O6, HS0, HS1, HS2⟩, Hg⟩, Ho, ⟨%d0, H0⟩, ⟨%d1, H1⟩, ⟨%d2, H2⟩⟩
      iapply (run1_mid c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        (fun h => h0 ((hfirst1 t).mp h)) (fun h => h15 ((hlast1 t).mp h)) (iblk1 V c 0 t) (iblk1 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [O1 O2 O3 O4 O5 O6 HS0 HS1 HS2 Hg]
      · isplitl [O1 O2 O3 O4 O5 O6 HS0 HS1 HS2]
        · isplitl [O1]; · iexact O1
          isplitl [O2]; · iexact O2
          isplitl [O3]; · iexact O3
          isplitl [O4]; · iexact O4
          isplitl [O5]; · iexact O5
          isplitl [O6]; · iexact O6
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the sweep is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running values are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨O1, O2, O3, O4, O5, O6, HS0, HS1, HS2⟩, Hg⟩
  isplitl [O1 O2 O3 O4 O5 O6 HS0 HS1 HS2]
  · isplitl [O1]; · iexact O1
    isplitl [O2]; · iexact O2
    isplitl [O3]; · iexact O3
    isplitl [O4]; · iexact O4
    isplitl [O5]; · iexact O5
    isplitl [O6]; · iexact O6
    isplitl [HS0]; · iexists _; iexact HS0
    isplitl [HS1]; · iexists _; iexact HS1
    iexists _; iexact HS2
  iexact Hg

end Cert.Kernel.Body

end
-- ==== Proof.K.Run.lean ====
import proofs.«176689_j65489661329953_2_alg».proof.Proof.K.Data0
import proofs.«176689_j65489661329953_2_alg».proof.Proof.K.Data1
import proofs.«176689_j65489661329953_2_alg».proof.Proof.Gen.Kernel.Regions

import Idealize.ShloMosaic.Lib.Pipeline.RegionsLoop
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: the first sweep, the second sweep, one reshape

## The buffer contents at each boundary: a fold from the launch memory -/

/-- Core `c`'s buffers at launch: what the first sweep is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first sweep: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second sweep. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape of the one-entry result into the rank-0 result. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Each sweep's proof data at its entry contents — a literal match on the sweep. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The sweeps as segments -/

-- unification of a library lemma stated over the pinned configuration may unfold plain definitions in a metavariable's type
set_option backward.isDefEq.respectTransparency.types false in
/-- Sweep 0 as a segment of @main: entered from every unscoped buffer at `W0`, left at `W1`. Its arrays are
    split out of the unscoped buffers and put back at what the write-backs leave; the generator register goes into the
    class invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    have hgive : (dat0 (V0 m ρ) c).Φ (Fin.last cfg0.N) ⊢ iprop(Pipeline.scopedRest (Ix := Unit) (Name := ℕ) (U := UR sig nD τ) (Lvl := ℕ) (Val := Elt F) spec0 c ∗ ∃ r, prngReg c r) :=
      hout0 (V0 m ρ) c
    iintro H
    ihave H' := hgive $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration may unfold plain definitions in a metavariable's type
set_option backward.isDefEq.respectTransparency.types false in
/-- Sweep 1 as a segment of @main: entered from every unscoped buffer at `W1`, left at `W2`. Its arrays are
    split out of the unscoped buffers and put back at what the write-backs leave; the generator register goes into the
    class invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    have hgive : (dat1 (V1 m ρ) c).Φ (Fin.last cfg1.N) ⊢ iprop(Pipeline.scopedRest (Ix := Unit) (Name := ℕ) (U := UR sig nD τ) (Lvl := ℕ) (Val := Elt F) spec1 c ∗ ∃ r, prngReg c r) :=
      hout1 (V1 m ρ) c
    iintro H
    ihave H' := hgive $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN. At the compiled mesh, for any reading of the floats, from any memory with zero counters: every weakly
    fair execution of @main on the TensorCores terminates, nothing faulting, and every final state holds every
    unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps2 (W2 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Body

end
-- ==== Proof.K.Kept.lean ====
import proofs.«176689_j65489661329953_2_alg».proof.Proof.K.Run

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The argument arrays end as launched

No host operation writes an argument, the first sweep only reads its argument through an input window and the second
sweep likewise; so the last boundary's contents at an argument walk back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide : main_arg0 ∉ hostOps2_W)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W1_main_arg1 (c : Dev nD) : W1 m ρ c (Proc.devRef .tc main_arg1) = m ((c : Thread nD τ).loc main_arg1) :=
  (W1_of_ne m ρ c main_arg1 (by decide)).trans rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide : main_arg1 ∉ hostOps2_W)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := W1_main_arg1 m ρ c

/-- THE FRAME, for any reading of the floats: every weakly fair execution of @main terminates, nothing faulting, and
    both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Body

end
-- ==== Proof.KI.Body0.lean ====
import proofs.«176689_j65489661329953_2_alg».proof.Proof.Gen.KernelIdeal.Launch
import proofs.«176689_j65489661329953_2_alg».proof.Proof.Gen.KernelIdeal.Skeleton
import proofs.«176689_j65489661329953_2_alg».proof.Proof.Gen.KernelIdeal.Points
import Idealize.ShloMosaic.Lib.Pipeline.FrameBody
import Idealize.ShloMosaic.Lib.Ring
import Idealize.ShloMosaic.Lib.Tactic
import proofs.«176689_j65489661329953_2_alg».proof.Proof.LibWholeStore
import proofs.«176689_j65489661329953_2_alg».proof.Proof.LibCoveredLoad

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first sweep's body resets its three running values exactly when the grid coordinate is 0 … -/
abbrev first0 (i : grid0.Coords) : Prop := (Scalar.cmpi .ne (Scalar.extui (Scalar.cmpi .eq (BitVec.ofNat 32 (i 0).val) 0#32)) 0#32) = 1#1
/-- … and turns them into the correlation matrix exactly when it is the last one. -/
abbrev last0 (i : grid0.Coords) : Prop := k0_cond2 i = 1#1

/-- The two zero offsets of a rank-two access, as the constant function. -/
theorem off00 : (![0, 0] : Fin 2 → ℕ) = fun _ => 0 := by
  funext a; match a with | ⟨0, _⟩ => rfl | ⟨1, _⟩ => rfl

set_option maxHeartbeats 4000000 in
/-- A middle block: the running Gram matrix, column sums and column sums of squares each take the block's
    contribution; the block and the output buffer are handed back as found. -/
theorem run0_mid (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)
    (hf : ¬first0 i) (hl : ¬last0 i)
    (x0 : Vec F S512x1024 .f32) (xo g : Vec F S1024x1024 .f32) (s q : Vec F S1x1024 .f32) (E : Set ℕ) (K : PUnit → sProp 𝕄) :
    iprop(owns (c : Thread nD τ) arg1 fullShare x0 ∗ owns (c : Thread nD τ) arg2 fullShare xo ∗ owns (c : Thread nD τ) arg3 fullShare g
        ∗ owns (c : Thread nD τ) arg4 fullShare s ∗ owns (c : Thread nD τ) arg5 fullShare q
        ∗ (iprop(owns (c : Thread nD τ) arg1 fullShare x0 ∗ owns (c : Thread nD τ) arg2 fullShare xo
            ∗ owns (c : Thread nD τ) arg3 fullShare (k0_pay4 x0 g) ∗ owns (c : Thread nD τ) arg4 fullShare (k0_pay5 x0 s)
            ∗ owns (c : Thread nD τ) arg5 fullShare (k0_pay6 x0 q)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [Cert.LibWholeStore.read_writes_whole _ _ off00]
    simp only [View.readAt_eq_ld, harg1.read_unread, harg3.read_unread, View.ld_unit_zero (S := S512x1024) off00, View.ld_unit_zero (S := S1024x1024) off00]
  isplitl [H4]
  · iexists _; isplitr
    swap; · iexact H4
    ipureintro
    rw [Cert.LibWholeStore.read_writes_whole _ _ off00]
    simp only [View.readAt_eq_ld, harg1.read_unread, harg4.read_unread, View.ld_unit_zero (S := S512x1024) off00, View.ld_unit_zero (S := S1x1024) off00]
  · iexists _; isplitr
    swap; · iexact H5
    ipureintro
    rw [Cert.LibWholeStore.read_writes_whole _ _ off00]
    simp only [View.readAt_eq_ld, harg1.read_unread, harg5.read_unread, View.ld_unit_zero (S := S512x1024) off00, View.ld_unit_zero (S := S1x1024) off00]

set_option maxHeartbeats 4000000 in
/-- The first block: the three running values start from the zero arrays, whatever the scratch held. -/
theorem run0_first (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)
    (hf : first0 i) (hl : ¬last0 i)
    (x0 : Vec F S512x1024 .f32) (xo g : Vec F S1024x1024 .f32) (s q : Vec F S1x1024 .f32) (E : Set ℕ) (K : PUnit → sProp 𝕄) :
    iprop(owns (c : Thread nD τ) arg1 fullShare x0 ∗ owns (c : Thread nD τ) arg2 fullShare xo ∗ owns (c : Thread nD τ) arg3 fullShare g
        ∗ owns (c : Thread nD τ) arg4 fullShare s ∗ owns (c : Thread nD τ) arg5 fullShare q
        ∗ (iprop(owns (c : Thread nD τ) arg1 fullShare x0 ∗ owns (c : Thread nD τ) arg2 fullShare xo
            ∗ owns (c : Thread nD τ) arg3 fullShare (k0_pay4 x0 k0_pay1) ∗ owns (c : Thread nD τ) arg4 fullShare (k0_pay5 x0 k0_pay2)
            ∗ owns (c : Thread nD τ) arg5 fullShare (k0_pay6 x0 k0_pay3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]

set_option maxHeartbeats 4000000 in
/-- The last block: the three running values take the block's contribution, and the output buffer receives the
    correlation matrix computed from the three totals. -/
theorem run0_last (c : Dev nD) (i : grid0.Coords) (arg1 : Memref sig .tc .vmem S512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)
    (hf : ¬first0 i) (hl : last0 i)
    (x0 : Vec F S512x1024 .f32) (xo g : Vec F S1024x1024 .f32) (s q : Vec F S1x1024 .f32) (E : Set ℕ) (K : PUnit → sProp 𝕄) :
    iprop(owns (c : Thread nD τ) arg1 fullShare x0 ∗ owns (c : Thread nD τ) arg2 fullShare xo ∗ owns (c : Thread nD τ) arg3 fullShare g
        ∗ owns (c : Thread nD τ) arg4 fullShare s ∗ owns (c : Thread nD τ) arg5 fullShare q
        ∗ (iprop(owns (c : Thread nD τ) arg1 fullShare x0
            ∗ owns (c : Thread nD τ) arg2 fullShare (k0_pay7 (k0_pay5 x0 s) (k0_pay6 x0 q) (k0_pay4 x0 g))
            ∗ owns (c : Thread nD τ) arg3 fullShare (k0_pay4 x0 g) ∗ owns (c : Thread nD τ) arg4 fullShare (k0_pay5 x0 s)
            ∗ owns (c : Thread nD τ) arg5 fullShare (k0_pay6 x0 q)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  sl_unfold_run_names
  iapply Hk
  isplitl [H1]
  · iexists _; isplitr; · ipureintro; exact hf1
    iexact H1
  isplitl [H2]
  · iexists _; isplitr
    swap; · iexact H2
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  isplitl [H3]
  · iexists _; isplitr
    swap; · iexact H3
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg3.read_unread, harg4.read_unread, harg5.read_unread, View.ld_unit_zero (S := S512x1024) off00, View.ld_unit_zero (S := S1024x1024) off00, View.ld_unit_zero (S := S1x1024) off00]

end Cert.KernelIdeal.Body

end
-- ==== Proof.KI.Data0.lean ====
import proofs.«176689_j65489661329953_2_alg».proof.Proof.KI.Body0

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first sweep, entered with the unscoped buffers at `V` -/

/-- Window `w`'s block at point `t`, read off its array as the sweep finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of rows when the body runs: it is fetched at every
    point, whole. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The running Gram matrix, column sums and column sums of squares after the body at point `n`: from the zero
    arrays at point 0, each later point adding its block's contribution to what the point before left. -/
def acc0 (c : Dev nD) : (n : ℕ) → n < cfg0.N → Vec F S1024x1024 .f32 × Vec F S1x1024 .f32 × Vec F S1x1024 .f32
  | 0, hn => (k0_pay4 (iblk0 V c 0 ⟨0, hn⟩) k0_pay1, k0_pay5 (iblk0 V c 0 ⟨0, hn⟩) k0_pay2, k0_pay6 (iblk0 V c 0 ⟨0, hn⟩) k0_pay3)
  | n + 1, hn => (k0_pay4 (iblk0 V c 0 ⟨n + 1, hn⟩) (acc0 c n (Nat.lt_of_succ_lt hn)).1,
      k0_pay5 (iblk0 V c 0 ⟨n + 1, hn⟩) (acc0 c n (Nat.lt_of_succ_lt hn)).2.1,
      k0_pay6 (iblk0 V c 0 ⟨n + 1, hn⟩) (acc0 c n (Nat.lt_of_succ_lt hn)).2.2)

theorem acc0_zero (c : Dev nD) (t : Fin cfg0.N) (h : t.val = 0) :
    acc0 V c t.val t.isLt = (k0_pay4 (iblk0 V c 0 t) k0_pay1, k0_pay5 (iblk0 V c 0 t) k0_pay2, k0_pay6 (iblk0 V c 0 t) k0_pay3) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = (k0_pay4 (iblk0 V c 0 t) (acc0 V c (t.val - 1) (Nat.lt_of_le_of_lt (Nat.sub_le _ _) t.isLt)).1,
      k0_pay5 (iblk0 V c 0 t) (acc0 V c (t.val - 1) (Nat.lt_of_le_of_lt (Nat.sub_le _ _) t.isLt)).2.1,
      k0_pay6 (iblk0 V c 0 t) (acc0 V c (t.val - 1) (Nat.lt_of_le_of_lt (Nat.sub_le _ _) t.isLt)).2.2) := by
  obtain ⟨n, hn⟩ := t
  cases n with
  | zero => exact absurd rfl h
  | succ n => rfl

theorem lt15_0 : 15 < cfg0.N := by rw [show cfg0.N = 16 from N_0]; decide

/-- The correlation matrix the last point stores into the output window: the closing formula of the three totals. -/
def out0 (c : Dev nD) : Vec F S1024x1024 .f32 :=
  k0_pay7 (acc0 V c 15 lt15_0).2.1 (acc0 V c 15 lt15_0).2.2 (acc0 V c 15 lt15_0).1

/-! ## The body's branches, decided over the grid, and where the output window is idle -/

theorem hfirst0 : ∀ t : Fin cfg0.N, first0 (grid0.coords t) ↔ t.val = 0 :=
  (by decide +kernel : ∀ t : Fin grid0.N, first0 (grid0.coords t) ↔ t.val = 0)
theorem hlast0 : ∀ t : Fin cfg0.N, last0 (grid0.coords t) ↔ t.val = 15 :=
  (by decide +kernel : ∀ t : Fin grid0.N, last0 (grid0.coords t) ↔ t.val = 15)
theorem liveAt0_0 : ∀ t : Fin cfg0.N, cfg0.idle 0 (grid0.coords t) = false := by decide +kernel
theorem idleAt0_1 : ∀ t : Fin cfg0.N, t.val ≠ 15 → cfg0.idle 1 (grid0.coords t) = true := by decide +kernel
theorem liveAt0_1 : ∀ t : Fin cfg0.N, t.val = 15 → cfg0.idle 1 (grid0.coords t) = false := by decide +kernel
theorem noFlush0_1 : ∀ t : Fin cfg0.N, t.val ≠ 15 → (cfg0.win 1).flush t = false := by decide +kernel

/-! ## The staging and scratch memrefs as the pipeline passes them -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev scM0_0 : Memref sig .tc .vmem S1024x1024 .f32 := Memref.whole cc0_scratch0
abbrev scM0_1 : Memref sig .tc .vmem S1x1024 .f32 := Memref.whole cc0_scratch1
abbrev scM0_2 : Memref sig .tc .vmem S1x1024 .f32 := Memref.whole cc0_scratch2

/-! ## The invariant: the three scratch buffers at the running values -/

/-- The scoped buffers this sweep never touches (the other sweep's staging buffers and scratch), each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The class invariant with the three scratch operands named: each owned at some contents, beside the buffers the
    sweep never touches and the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)
          ∗ (∃ d, owns (c : Thread nD τ) scM0_2 fullShare d) ∗ others0 c) ∗ (∃ r, prngReg c r)) := by
  unfold Pipeline.ΦA others0; rw [scopedRest0_eq]; simp only [scM0_0, scM0_1, scM0_2, owns_whole]; try rfl

/-- The invariant before position `n`: before the first point the class's (the scratch at anything); afterwards
    the three scratch buffers at the running values the point before left. -/
def PhiS0 (c : Dev nD) : (n : ℕ) → n ≤ cfg0.N → sProp 𝕄
  | 0, _ => Pipeline.ΦA spec0 c
  | n + 1, hn => iprop((owns (c : Thread nD τ) scM0_0 fullShare (acc0 V c n hn).1 ∗ owns (c : Thread nD τ) scM0_1 fullShare (acc0 V c n hn).2.1
      ∗ owns (c : Thread nD τ) scM0_2 fullShare (acc0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (acc0 V c n hn).1 ∗ owns (c : Thread nD τ) scM0_1 fullShare (acc0 V c n hn).2.1
      ∗ owns (c : Thread nD τ) scM0_2 fullShare (acc0 V c n hn).2.2 ∗ others0 c) ∗ (∃ r, prngReg c r)) := rfl

theorem PhiS0_pos (c : Dev nD) (n : ℕ) (h : n ≤ cfg0.N) (hz : n ≠ 0) :
    PhiS0 V c n h = iprop((owns (c : Thread nD τ) scM0_0 fullShare (acc0 V c (n - 1) (by omega)).1 ∗ owns (c : Thread nD τ) scM0_1 fullShare (acc0 V c (n - 1) (by omega)).2.1
      ∗ owns (c : Thread nD τ) scM0_2 fullShare (acc0 V c (n - 1) (by omega)).2.2 ∗ others0 c) ∗ (∃ r, prngReg c r)) := by
  cases n with
  | zero => exact absurd rfl hz
  | succ n => rfl

/-! ## The proof data -/

/-- The first sweep's proof data on core `c`: the arrays as the sweep finds them; after the body the input window at
    its block and the output window at the correlation matrix (stored at the last point only; idle before);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = out0 V c := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input window holds its block; the point is the first, a middle one or the last
    (the closed forms of the two branch conditions); the invariant hands the body the three scratch buffers at what the
    point before left (at anything before the first point, where the body resets them) and takes them back at this
    point's running values; the output window is handed back untouched except at the last point, where it receives
    the closing formula of the totals. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
      unfold Dat.leavesExact; rw [liveAt0_0 t], after0_0]
  by_cases h0 : t.val = 0
  · have h15 : t.val ≠ 15 := by omega
    rw [Dat.leavesExact_idle (dat0 V c) 1 t (idleAt0_1 t h15) (noFlush0_1 t h15)]
    rw [acc0_zero V c t h0]
    rw [PhiS0_castSucc V c t, PhiS0_zero V c _ _ h0, PhiA0_eq]
    iintro ⟨⟨⟨⟨%g, HS0⟩, ⟨%s, HS1⟩, ⟨%q, HS2⟩, Hoth⟩, Hg⟩, Ho, ⟨%d0, H0⟩, ⟨%d1, H1⟩⟩
    iapply (run0_first c (grid0.coords t) (ms0_0 t) (hs0_0 t) (ms0_1 t) (hs0_1 t) scM0_0 (Memref.isWhole_whole _) scM0_1 (Memref.isWhole_whole _) scM0_2 (Memref.isWhole_whole _)
      ((hfirst0 t).mpr h0) (fun h => h15 ((hlast0 t).mp h)) (iblk0 V c 0 t) _ g s q Set.univ _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2 Hoth Hg]
    · isplitl [HS0 HS1 HS2 Hoth]
      · isplitl [HS0]; · iexact HS0
        isplitl [HS1]; · iexact HS1
        isplitl [HS2]; · iexact HS2
        iexact Hoth
      iexact Hg
    isplitl [Ho]; · iexact Ho
    isplitl [H0]; · iexact H0
    iexists _; iexact H1
  · by_cases h15 : t.val = 15
    · rw [show (dat0 V c).leavesExact 1 t = owns (c : Thread nD τ) (ms0_1 t) fullShare ((dat0 V c).after 1 t) from by
        unfold Dat.leavesExact; rw [liveAt0_1 t h15], after0_1]
      have ht : t = ⟨15, lt15_0⟩ := Fin.ext h15
      rw [show out0 V c = k0_pay7 (acc0 V c t.val t.isLt).2.1 (acc0 V c t.val t.isLt).2.2 (acc0 V c t.val t.isLt).1 from by subst ht; rfl]
      rw [acc0_pos V c t h0]
      rw [PhiS0_castSucc V c t, PhiS0_pos V c _ _ h0]
      iintro ⟨⟨⟨HS0, HS1, HS2, Hoth⟩, Hg⟩, Ho, ⟨%d0, H0⟩, ⟨%d1, H1⟩⟩
      iapply (run0_last c (grid0.coords t) (ms0_0 t) (hs0_0 t) (ms0_1 t) (hs0_1 t) scM0_0 (Memref.isWhole_whole _) scM0_1 (Memref.isWhole_whole _) scM0_2 (Memref.isWhole_whole _)
        (fun h => h0 ((hfirst0 t).mp h)) ((hlast0 t).mpr h15) (iblk0 V c 0 t) _ _ _ _ Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      iexact H1
    · rw [Dat.leavesExact_idle (dat0 V c) 1 t (idleAt0_1 t h15) (noFlush0_1 t h15)]
      rw [acc0_pos V c t h0]
      rw [PhiS0_castSucc V c t, PhiS0_pos V c _ _ h0]
      iintro ⟨⟨⟨HS0, HS1, HS2, Hoth⟩, Hg⟩, Ho, ⟨%d0, H0⟩, ⟨%d1, H1⟩⟩
      iapply (run0_mid c (grid0.coords t) (ms0_0 t) (hs0_0 t) (ms0_1 t) (hs0_1 t) scM0_0 (Memref.isWhole_whole _) scM0_1 (Memref.isWhole_whole _) scM0_2 (Memref.isWhole_whole _)
        (fun h => h0 ((hfirst0 t).mp h)) (fun h => h15 ((hlast0 t).mp h)) (iblk0 V c 0 t) _ _ _ _ Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0 HS1 HS2 Hoth]
        · isplitl [HS0]; · iexact HS0
          isplitl [HS1]; · iexact HS1
          isplitl [HS2]; · iexact HS2
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the sweep is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running values are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

end Cert.KernelIdeal.Body

end
-- ==== Proof.KI.Body1.lean ====
import proofs.«176689_j65489661329953_2_alg».proof.Proof.Gen.KernelIdeal.Launch
import proofs.«176689_j65489661329953_2_alg».proof.Proof.Gen.KernelIdeal.Skeleton
import proofs.«176689_j65489661329953_2_alg».proof.Proof.Gen.KernelIdeal.Points
import Idealize.ShloMosaic.Lib.Pipeline.FrameBody
import Idealize.ShloMosaic.Lib.Ring
import Idealize.ShloMosaic.Lib.Tactic
import proofs.«176689_j65489661329953_2_alg».proof.Proof.LibWholeStore
import proofs.«176689_j65489661329953_2_alg».proof.Proof.LibCoveredLoad
import proofs.«176689_j65489661329953_2_alg».proof.Proof.KI.Body0

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second sweep's body resets its three running values exactly when the grid coordinate is 0 … -/
abbrev first1 (i : grid1.Coords) : Prop := (Scalar.cmpi .ne (Scalar.extui (Scalar.cmpi .eq (BitVec.ofNat 32 (i 0).val) 0#32)) 0#32) = 1#1
/-- … and turns them into the loss exactly when it is the last one. -/
abbrev last1 (i : grid1.Coords) : Prop := k1_cond2 i = 1#1

set_option maxHeartbeats 8000000 in
/-- A middle block of the second sweep: the three running values each take the block's contribution; the block, the first sweep's matrix and the output buffer are handed back as found. -/
theorem run1_mid (c : Dev nD) (i : grid1.Coords) (arg1 : Memref sig .tc .vmem S512x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (hf : ¬first1 i) (hl : ¬last1 i)
    (x0 : Vec F S512x1024 .f32) (cx g : Vec F S1024x1024 .f32) (xo : Vec F S1x1 .f32) (s q : Vec F S1x1024 .f32) (E : Set ℕ) (K : PUnit → sProp 𝕄) :
    iprop(owns (c : Thread nD τ) arg1 fullShare x0 ∗ owns (c : Thread nD τ) arg2 fullShare cx ∗ owns (c : Thread nD τ) arg3 fullShare xo
        ∗ owns (c : Thread nD τ) arg4 fullShare g ∗ owns (c : Thread nD τ) arg5 fullShare s ∗ owns (c : Thread nD τ) arg6 fullShare q
        ∗ (iprop(owns (c : Thread nD τ) arg1 fullShare x0 ∗ owns (c : Thread nD τ) arg2 fullShare cx
            ∗ owns (c : Thread nD τ) arg3 fullShare xo
            ∗ owns (c : Thread nD τ) arg4 fullShare (k1_pay4 x0 g) ∗ owns (c : Thread nD τ) arg5 fullShare (k1_pay5 x0 s)
            ∗ owns (c : Thread nD τ) arg6 fullShare (k1_pay6 x0 q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton, k1_part1_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H5]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  · iexists _; isplitr
    swap; · iexact H6
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]

set_option maxHeartbeats 8000000 in
/-- The first block of the second sweep: the three running values start from the zero arrays, whatever the scratch held. -/
theorem run1_first (c : Dev nD) (i : grid1.Coords) (arg1 : Memref sig .tc .vmem S512x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (hf : first1 i) (hl : ¬last1 i)
    (x0 : Vec F S512x1024 .f32) (cx g : Vec F S1024x1024 .f32) (xo : Vec F S1x1 .f32) (s q : Vec F S1x1024 .f32) (E : Set ℕ) (K : PUnit → sProp 𝕄) :
    iprop(owns (c : Thread nD τ) arg1 fullShare x0 ∗ owns (c : Thread nD τ) arg2 fullShare cx ∗ owns (c : Thread nD τ) arg3 fullShare xo
        ∗ owns (c : Thread nD τ) arg4 fullShare g ∗ owns (c : Thread nD τ) arg5 fullShare s ∗ owns (c : Thread nD τ) arg6 fullShare q
        ∗ (iprop(owns (c : Thread nD τ) arg1 fullShare x0 ∗ owns (c : Thread nD τ) arg2 fullShare cx
            ∗ owns (c : Thread nD τ) arg3 fullShare xo
            ∗ owns (c : Thread nD τ) arg4 fullShare (k1_pay4 x0 k1_pay1) ∗ owns (c : Thread nD τ) arg5 fullShare (k1_pay5 x0 k1_pay2)
            ∗ owns (c : Thread nD τ) arg6 fullShare (k1_pay6 x0 k1_pay3)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton, k1_part1_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H5]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  · iexists _; isplitr
    swap; · iexact H6
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]

set_option maxHeartbeats 8000000 in
/-- The last block of the second sweep: the three running values take the block's contribution, and the one-entry output buffer receives the loss computed from the three totals and the first sweep's matrix. -/
theorem run1_last (c : Dev nD) (i : grid1.Coords) (arg1 : Memref sig .tc .vmem S512x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole)
    (hf : ¬first1 i) (hl : last1 i)
    (x0 : Vec F S512x1024 .f32) (cx g : Vec F S1024x1024 .f32) (xo : Vec F S1x1 .f32) (s q : Vec F S1x1024 .f32) (E : Set ℕ) (K : PUnit → sProp 𝕄) :
    iprop(owns (c : Thread nD τ) arg1 fullShare x0 ∗ owns (c : Thread nD τ) arg2 fullShare cx ∗ owns (c : Thread nD τ) arg3 fullShare xo
        ∗ owns (c : Thread nD τ) arg4 fullShare g ∗ owns (c : Thread nD τ) arg5 fullShare s ∗ owns (c : Thread nD τ) arg6 fullShare q
        ∗ (iprop(owns (c : Thread nD τ) arg1 fullShare x0 ∗ owns (c : Thread nD τ) arg2 fullShare cx
            ∗ owns (c : Thread nD τ) arg3 fullShare (k1_pay7 (k1_pay8 (k1_pay5 x0 s) (k1_pay6 x0 q) (k1_pay4 x0 g) cx))
            ∗ owns (c : Thread nD τ) arg4 fullShare (k1_pay4 x0 g) ∗ owns (c : Thread nD τ) arg5 fullShare (k1_pay5 x0 s)
            ∗ owns (c : Thread nD τ) arg6 fullShare (k1_pay6 x0 q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton, k1_part1_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hf | exact hl)
  sl_step
  sl_unfold_run_names
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H4]
  · iexists _; isplitr
    swap; · iexact H4
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  isplitl [H5]
  · iexists _; isplitr
    swap; · iexact H5
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]
  · iexists _; isplitr
    swap; · iexact H6
    ipureintro
    rw [Cert.LibWholeStore.read_writes_whole _ _ off00]
    simp only [Cert.LibCoveredLoad.readCov_cons_unit_zero (S := S1024x1024) _ off00, Cert.LibCoveredLoad.readCov_cons_unit_zero (S := S1x1024) _ off00, View.readAt_eq_ld, harg1.read_unread, harg2.read_unread, harg4.read_unread, harg5.read_unread, harg6.read_unread, View.ld_unit_zero (S := S512x1024) off00, View.ld_unit_zero (S := S1024x1024) off00, View.ld_unit_zero (S := S1x1024) off00]

end Cert.KernelIdeal.Body

end
-- ==== Proof.KI.Data1.lean ====
import proofs.«176689_j65489661329953_2_alg».proof.Proof.KI.Body1

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second sweep, entered with the unscoped buffers at `V` -/

/-- Window `w`'s block at point `t`, read off its array as the sweep finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's staging buffer holds the point's block of rows when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input window — the first sweep's matrix, one block that is the whole array — is fetched at the first
    point only and left in place by the body, so its buffer holds that block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The running Gram matrix, column sums and column sums of squares after the body at point `n`. -/
def acc1 (c : Dev nD) : (n : ℕ) → n < cfg1.N → Vec F S1024x1024 .f32 × Vec F S1x1024 .f32 × Vec F S1x1024 .f32
  | 0, hn => (k1_pay4 (iblk1 V c 0 ⟨0, hn⟩) k1_pay1, k1_pay5 (iblk1 V c 0 ⟨0, hn⟩) k1_pay2, k1_pay6 (iblk1 V c 0 ⟨0, hn⟩) k1_pay3)
  | n + 1, hn => (k1_pay4 (iblk1 V c 0 ⟨n + 1, hn⟩) (acc1 c n (Nat.lt_of_succ_lt hn)).1,
      k1_pay5 (iblk1 V c 0 ⟨n + 1, hn⟩) (acc1 c n (Nat.lt_of_succ_lt hn)).2.1,
      k1_pay6 (iblk1 V c 0 ⟨n + 1, hn⟩) (acc1 c n (Nat.lt_of_succ_lt hn)).2.2)

theorem acc1_zero (c : Dev nD) (t : Fin cfg1.N) (h : t.val = 0) :
    acc1 V c t.val t.isLt = (k1_pay4 (iblk1 V c 0 t) k1_pay1, k1_pay5 (iblk1 V c 0 t) k1_pay2, k1_pay6 (iblk1 V c 0 t) k1_pay3) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = (k1_pay4 (iblk1 V c 0 t) (acc1 V c (t.val - 1) (Nat.lt_of_le_of_lt (Nat.sub_le _ _) t.isLt)).1,
      k1_pay5 (iblk1 V c 0 t) (acc1 V c (t.val - 1) (Nat.lt_of_le_of_lt (Nat.sub_le _ _) t.isLt)).2.1,
      k1_pay6 (iblk1 V c 0 t) (acc1 V c (t.val - 1) (Nat.lt_of_le_of_lt (Nat.sub_le _ _) t.isLt)).2.2) := by
  obtain ⟨n, hn⟩ := t
  cases n with
  | zero => exact absurd rfl h
  | succ n => rfl

theorem lt15_1 : 15 < cfg1.N := by rw [show cfg1.N = 16 from N_1]; decide

/-- The one-entry block the last point stores into the output window: the loss from the three totals and the first
    sweep's matrix as the window holds it. -/
def out1 (c : Dev nD) : Vec F S1x1 .f32 :=
  k1_pay7 (k1_pay8 (acc1 V c 15 lt15_1).2.1 (acc1 V c 15 lt15_1).2.2 (acc1 V c 15 lt15_1).1 (iblk1 V c 1 ⟨15, lt15_1⟩))

/-! ## The body's branches, decided over the grid, and where the output window is idle -/

theorem hfirst1 : ∀ t : Fin cfg1.N, first1 (grid1.coords t) ↔ t.val = 0 :=
  (by decide +kernel : ∀ t : Fin grid1.N, first1 (grid1.coords t) ↔ t.val = 0)
theorem hlast1 : ∀ t : Fin cfg1.N, last1 (grid1.coords t) ↔ t.val = 15 :=
  (by decide +kernel : ∀ t : Fin grid1.N, last1 (grid1.coords t) ↔ t.val = 15)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val ≠ 15 → cfg1.idle 2 (grid1.coords t) = true := by decide +kernel
theorem liveAt1_2 : ∀ t : Fin cfg1.N, t.val = 15 → cfg1.idle 2 (grid1.coords t) = false := by decide +kernel
theorem noFlush1_2 : ∀ t : Fin cfg1.N, t.val ≠ 15 → (cfg1.win 2).flush t = false := by decide +kernel

/-! ## The staging and scratch memrefs as the pipeline passes them -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1024x1024 .f32 := Memref.whole cc1_scratch0
abbrev scM1_1 : Memref sig .tc .vmem S1x1024 .f32 := Memref.whole cc1_scratch1
abbrev scM1_2 : Memref sig .tc .vmem S1x1024 .f32 := Memref.whole cc1_scratch2

/-! ## The invariant: the three scratch buffers at the running values -/

/-- The class invariant with the three scratch operands named: the six scoped buffers the sweep never touches (the
    first sweep's staging buffers and scratch) at anything, each scratch operand owned at some contents, and the
    generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
          ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point the class's; afterwards the three scratch buffers at
    the running values the point before left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ owns (c : Thread nD τ) scM1_0 fullShare (acc1 V c n hn).1 ∗ owns (c : Thread nD τ) scM1_1 fullShare (acc1 V c n hn).2.1
      ∗ owns (c : Thread nD τ) scM1_2 fullShare (acc1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ owns (c : Thread nD τ) scM1_0 fullShare (acc1 V c n hn).1 ∗ owns (c : Thread nD τ) scM1_1 fullShare (acc1 V c n hn).2.1
      ∗ owns (c : Thread nD τ) scM1_2 fullShare (acc1 V c n hn).2.2) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
      ∗ owns (c : Thread nD τ) scM1_0 fullShare (acc1 V c (n - 1) (by omega)).1 ∗ owns (c : Thread nD τ) scM1_1 fullShare (acc1 V c (n - 1) (by omega)).2.1
      ∗ owns (c : Thread nD τ) scM1_2 fullShare (acc1 V c (n - 1) (by omega)).2.2) ∗ (∃ r, prngReg c r)) := by
  cases n with
  | zero => exact absurd rfl hz
  | succ n => rfl

/-! ## The proof data -/

/-- The second sweep's proof data on core `c`: the arrays as the sweep finds them; after the body each input window at
    its block and the output window at the loss (stored at the last point only; idle before); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: as in the first sweep, with the first sweep's matrix read through the second input window
    and the one-entry output window written at the last point only. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val = 0
  · have h15 : t.val ≠ 15 := by omega
    rw [Dat.leavesExact_idle (dat1 V c) 2 t (idleAt1_2 t h15) (noFlush1_2 t h15)]
    rw [acc1_zero V c t h0]
    rw [PhiS1_castSucc V c t, PhiS1_zero V c _ _ h0, PhiA1_eq]
    iintro ⟨⟨⟨O1, O2, O3, O4, O5, O6, ⟨%g, HS0⟩, ⟨%s, HS1⟩, ⟨%q, HS2⟩⟩, Hg⟩, Ho, ⟨%d0, H0⟩, ⟨%d1, H1⟩, ⟨%d2, H2⟩⟩
    iapply (run1_first c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        ((hfirst1 t).mpr h0) (fun h => h15 ((hlast1 t).mp h)) (iblk1 V c 0 t) (iblk1 V c 1 t) g _ s q Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [O1 O2 O3 O4 O5 O6 HS0 HS1 HS2 Hg]
    · isplitl [O1 O2 O3 O4 O5 O6 HS0 HS1 HS2]
      · isplitl [O1]; · iexact O1
        isplitl [O2]; · iexact O2
        isplitl [O3]; · iexact O3
        isplitl [O4]; · iexact O4
        isplitl [O5]; · iexact O5
        isplitl [O6]; · iexact O6
        isplitl [HS0]; · iexact HS0
        isplitl [HS1]; · iexact HS1
        iexact HS2
      iexact Hg
    isplitl [Ho]; · iexact Ho
    isplitl [H0]; · iexact H0
    isplitl [H1]; · iexact H1
    iexists _; iexact H2
  · by_cases h15 : t.val = 15
    · rw [show (dat1 V c).leavesExact 2 t = owns (c : Thread nD τ) (ms1_2 t) fullShare ((dat1 V c).after 2 t) from by
        unfold Dat.leavesExact; rw [liveAt1_2 t h15], after1_2]
      have ht : t = ⟨15, lt15_1⟩ := Fin.ext h15
      rw [show out1 V c = k1_pay7 (k1_pay8 (acc1 V c t.val t.isLt).2.1 (acc1 V c t.val t.isLt).2.2 (acc1 V c t.val t.isLt).1 (iblk1 V c 1 t)) from by subst ht; rfl]
      rw [acc1_pos V c t h0]
      rw [PhiS1_castSucc V c t, PhiS1_pos V c _ _ h0]
      iintro ⟨⟨⟨O1, O2, O3, O4, O5, O6, HS0, HS1, HS2⟩, Hg⟩, Ho, ⟨%d0, H0⟩, ⟨%d1, H1⟩, ⟨%d2, H2⟩⟩
      iapply (run1_last c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        (fun h => h0 ((hfirst1 t).mp h)) ((hlast1 t).mpr h15) (iblk1 V c 0 t) (iblk1 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [O1 O2 O3 O4 O5 O6 HS0 HS1 HS2 Hg]
      · isplitl [O1 O2 O3 O4 O5 O6 HS0 HS1 HS2]
        · isplitl [O1]; · iexact O1
          isplitl [O2]; · iexact O2
          isplitl [O3]; · iexact O3
          isplitl [O4]; · iexact O4
          isplitl [O5]; · iexact O5
          isplitl [O6]; · iexact O6
          isplitl [HS0]; · iexact HS0
          isplitl [HS1]; · iexact HS1
          iexact HS2
        iexact Hg
      isplitl [Ho]; · iexact Ho
      isplitl [H0]; · iexact H0
      isplitl [H1]; · iexact H1
      iexact H2
    · rw [Dat.leavesExact_idle (dat1 V c) 2 t (idleAt1_2 t h15) (noFlush1_2 t h15)]
      rw [acc1_pos V c t h0]
      rw [PhiS1_castSucc V c t, PhiS1_pos V c _ _ h0]
      iintro ⟨⟨⟨O1, O2, O3, O4, O5, O6, HS0, HS1, HS2⟩, Hg⟩, Ho, ⟨%d0, H0⟩, ⟨%d1, H1⟩, ⟨%d2, H2⟩⟩
      iapply (run1_mid c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        (fun h => h0 ((hfirst1 t).mp h)) (fun h => h15 ((hlast1 t).mp h)) (iblk1 V c 0 t) (iblk1 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [O1 O2 O3 O4 O5 O6 HS0 HS1 HS2 Hg]
      · isplitl [O1 O2 O3 O4 O5 O6 HS0 HS1 HS2]
        · isplitl [O1]; · iexact O1
          isplitl [O2]; · iexact O2
          isplitl [O3]; · iexact O3
          isplitl [O4]; · iexact O4
          isplitl [O5]; · iexact O5
          isplitl [O6]; · iexact O6
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the sweep is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running values are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨O1, O2, O3, O4, O5, O6, HS0, HS1, HS2⟩, Hg⟩
  isplitl [O1 O2 O3 O4 O5 O6 HS0 HS1 HS2]
  · isplitl [O1]; · iexact O1
    isplitl [O2]; · iexact O2
    isplitl [O3]; · iexact O3
    isplitl [O4]; · iexact O4
    isplitl [O5]; · iexact O5
    isplitl [O6]; · iexact O6
    isplitl [HS0]; · iexists _; iexact HS0
    isplitl [HS1]; · iexists _; iexact HS1
    iexists _; iexact HS2
  iexact Hg

end Cert.KernelIdeal.Body

end
-- ==== Proof.KI.Run.lean ====
import proofs.«176689_j65489661329953_2_alg».proof.Proof.KI.Data0
import proofs.«176689_j65489661329953_2_alg».proof.Proof.KI.Data1
import proofs.«176689_j65489661329953_2_alg».proof.Proof.Gen.KernelIdeal.Regions

import Idealize.ShloMosaic.Lib.Pipeline.RegionsLoop
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: the first sweep, the second sweep, one reshape

## The buffer contents at each boundary: a fold from the launch memory -/

/-- Core `c`'s buffers at launch: what the first sweep is entered from. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first sweep: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second sweep. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape of the one-entry result into the rank-0 result. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Each sweep's proof data at its entry contents — a literal match on the sweep. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The sweeps as segments -/

-- unification of a library lemma stated over the pinned configuration may unfold plain definitions in a metavariable's type
set_option backward.isDefEq.respectTransparency.types false in
/-- Sweep 0 as a segment of @main: entered from every unscoped buffer at `W0`, left at `W1`. Its arrays are
    split out of the unscoped buffers and put back at what the write-backs leave; the generator register goes into the
    class invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    have hgive : (dat0 (V0 m ρ) c).Φ (Fin.last cfg0.N) ⊢ iprop(Pipeline.scopedRest (Ix := Unit) (Name := ℕ) (U := UR sig nD τ) (Lvl := ℕ) (Val := Elt F) spec0 c ∗ ∃ r, prngReg c r) :=
      hout0 (V0 m ρ) c
    iintro H
    ihave H' := hgive $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration may unfold plain definitions in a metavariable's type
set_option backward.isDefEq.respectTransparency.types false in
/-- Sweep 1 as a segment of @main: entered from every unscoped buffer at `W1`, left at `W2`. Its arrays are
    split out of the unscoped buffers and put back at what the write-backs leave; the generator register goes into the
    class invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    have hgive : (dat1 (V1 m ρ) c).Φ (Fin.last cfg1.N) ⊢ iprop(Pipeline.scopedRest (Ix := Unit) (Name := ℕ) (U := UR sig nD τ) (Lvl := ℕ) (Val := Elt F) spec1 c ∗ ∃ r, prngReg c r) :=
      hout1 (V1 m ρ) c
    iintro H
    ihave H' := hgive $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN. At the compiled mesh, for any reading of the floats, from any memory with zero counters: every weakly
    fair execution of @main on the TensorCores terminates, nothing faulting, and every final state holds every
    unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps2 (W2 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Body

end
-- ==== Proof.KI.Kept.lean ====
import proofs.«176689_j65489661329953_2_alg».proof.Proof.KI.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The argument arrays end as launched

No host operation writes an argument, the first sweep only reads its argument through an input window and the second
sweep likewise; so the last boundary's contents at an argument walk back to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide : main_arg0 ∉ hostOps2_W)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W1_main_arg1 (c : Dev nD) : W1 m ρ c (Proc.devRef .tc main_arg1) = m ((c : Thread nD τ).loc main_arg1) :=
  (W1_of_ne m ρ c main_arg1 (by decide)).trans rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide : main_arg1 ∉ hostOps2_W)
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := W1_main_arg1 m ρ c

/-- THE FRAME, for any reading of the floats: every weakly fair execution of @main terminates, nothing faulting, and
    both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Body

end
-- ==== Proof.KVal.lean ====
/-
  What the kernel computes, as one function of its two argument arrays, for any reading `F` of the floats.

  Each of the two grid sweeps walks the sixteen blocks of 512 rows of an [8192, 1024] array.  Three running
  values are carried from block to block: the Gram matrix of the columns, the column sums, and the column sums of
  squares.  They start from zero at the first block; every block adds its own contribution.  After the last block
  the first sweep turns the three totals into the correlation matrix of the columns; the second sweep does the same
  for its own array, subtracts the first sweep's matrix, squares, keeps the pairs i < j, sums, and divides by the
  number of pairs.

  The arithmetic of one step is the printed body's own (the generated payload terms); here they are only composed.
-/
import proofs.«176689_j65489661329953_2_alg».proof.Proof.Gen.KernelIdeal.Skeleton
import Idealize.ShloMosaic.Lib.ValueIdx

noncomputable section

namespace Cert.KernelIdeal.KVal

open Idealize.ShloMosaic Idealize.ShloMosaic.ValueIdx
open Cert.KernelIdeal Cert.KernelIdeal.Gen

variable {F : FTy → Type} [FloatOps F]

/-- Block `n` of an [8192, 1024] array: its rows 512 n, …, 512 n + 511 (the row number reduced modulo 8192, so that
    no bound has to be carried inside the term; for n < 16 nothing is reduced). -/
def rowBlock (A : Vec F S8192x1024 .f32) (n : ℕ) : Vec F S512x1024 .f32 :=
  fun y => A (ix2 (⟨(512 * n + (y 0).val) % 8192, Nat.mod_lt _ (by norm_num)⟩ : Fin 8192) (y 1))

/-! ## The first sweep -/

/-- The running Gram matrix after blocks 0, …, n. -/
def gram0 (A : Vec F S8192x1024 .f32) : ℕ → Vec F S1024x1024 .f32
  | 0 => k0_pay4 (rowBlock A 0) k0_pay1
  | n + 1 => k0_pay4 (rowBlock A (n + 1)) (gram0 A n)

/-- The running column sums after blocks 0, …, n. -/
def sum0 (A : Vec F S8192x1024 .f32) : ℕ → Vec F S1x1024 .f32
  | 0 => k0_pay5 (rowBlock A 0) k0_pay2
  | n + 1 => k0_pay5 (rowBlock A (n + 1)) (sum0 A n)

/-- The running column sums of squares after blocks 0, …, n. -/
def sq0 (A : Vec F S8192x1024 .f32) : ℕ → Vec F S1x1024 .f32
  | 0 => k0_pay6 (rowBlock A 0) k0_pay3
  | n + 1 => k0_pay6 (rowBlock A (n + 1)) (sq0 A n)

/-- The correlation matrix the first sweep writes back after its last block. -/
def corr0 (A : Vec F S8192x1024 .f32) : Vec F S1024x1024 .f32 :=
  k0_pay7 (sum0 A 15) (sq0 A 15) (gram0 A 15)

/-! ## The second sweep -/

def gram1 (A : Vec F S8192x1024 .f32) : ℕ → Vec F S1024x1024 .f32
  | 0 => k1_pay4 (rowBlock A 0) k1_pay1
  | n + 1 => k1_pay4 (rowBlock A (n + 1)) (gram1 A n)

def sum1 (A : Vec F S8192x1024 .f32) : ℕ → Vec F S1x1024 .f32
  | 0 => k1_pay5 (rowBlock A 0) k1_pay2
  | n + 1 => k1_pay5 (rowBlock A (n + 1)) (sum1 A n)

def sq1 (A : Vec F S8192x1024 .f32) : ℕ → Vec F S1x1024 .f32
  | 0 => k1_pay6 (rowBlock A 0) k1_pay3
  | n + 1 => k1_pay6 (rowBlock A (n + 1)) (sq1 A n)

/-- The one-entry block the second sweep writes back after its last block, given the matrix `C` it subtracts. -/
def loss1 (A : Vec F S8192x1024 .f32) (C : Vec F S1024x1024 .f32) : Vec F S1x1 .f32 :=
  k1_pay7 (k1_pay8 (sum1 A 15) (sq1 A 15) (gram1 A 15) C)

/-- The kernel's [1, 1] result from its two argument arrays. -/
def loss (X Y : Vec F S8192x1024 .f32) : Vec F S1x1 .f32 := loss1 Y (corr0 X)

end Cert.KernelIdeal.KVal

end
-- ==== Proof.KI.Blocks0.lean ====
/-
  The first sweep's blocks, running values and arrays as plain functions of the argument array.  The input window
  at grid point t is rows 512 t, …, 512 t + 511 of the array; so the running Gram matrix, column sums and column
  sums of squares are the folds over the row blocks, the matrix stored at the last point is the closing formula of
  the totals, the input array is never written, and the output array, one block written back once, ends holding
  that matrix.
-/
import proofs.«176689_j65489661329953_2_alg».proof.Proof.KI.Data0
import proofs.«176689_j65489661329953_2_alg».proof.Proof.KVal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The input window's block index at point t: block row t, block column 0. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The output window's block index is (0, 0) at every point. -/
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The input window's block at point t is row block t of the argument. -/
theorem iblk0_0_eq (c : Dev nD) (t : Fin cfg0.N) : iblk0 V c 0 t = KVal.rowBlock (V c main_arg0) t.val := by
  obtain ⟨e0, e1⟩ := idx0_0 t
  have hN : t.val < 16 := lt_of_lt_of_eq t.isLt (show cfg0.N = 16 from N_0)
  funext y
  unfold iblk0 KVal.rowBlock
  rw [View.read_apply]
  show V c main_arg0 _ = V c main_arg0 _
  congr 1
  funext a
  apply Fin.ext
  match a with
  | ⟨0, _⟩ =>
    show win0_0.index t (0 : Fin 2) * 512 + 1 * (y 0).val = (512 * t.val + (y 0).val) % 8192
    have hy : (y 0).val < 512 := (y 0).isLt
    rw [e0]; omega
  | ⟨1, _⟩ =>
    show win0_0.index t (1 : Fin 2) * 1024 + 1 * (y 1).val = (y 1).val
    rw [e1]; omega

/-- The running values after point n are the folds over row blocks 0, …, n. -/
theorem acc0_eq (c : Dev nD) : ∀ (n : ℕ) (hn : n < cfg0.N),
    acc0 V c n hn = (KVal.gram0 (V c main_arg0) n, KVal.sum0 (V c main_arg0) n, KVal.sq0 (V c main_arg0) n)
  | 0, hn => by
    rw [acc0, iblk0_0_eq V c ⟨0, hn⟩, KVal.gram0, KVal.sum0, KVal.sq0]
  | n + 1, hn => by
    rw [acc0, acc0_eq c n (Nat.lt_of_succ_lt hn), iblk0_0_eq V c ⟨n + 1, hn⟩, KVal.gram0, KVal.sum0, KVal.sq0]

/-- The matrix stored at the last point is the correlation matrix of the folds' totals. -/
theorem out0_eq (c : Dev nD) : out0 V c = KVal.corr0 (V c main_arg0) := by
  unfold out0 KVal.corr0
  rw [acc0_eq V c 15 lt15_0]

/-- The input array is never written. -/
theorem arrAt0_in (c : Dev nD) : (dat0 V c).arrAt 0 cfg0.N = V c main_arg0 :=
  ((dat0 V c).arrAt_in 0 rfl _).trans (A_eq0 V c 0)

/-- What the last point writes back is the whole output array's worth: block (0, 0) of an array of the block's own size. -/
theorem flushed0_1_eq (c : Dev nD) (t : Fin cfg0.N) (hf : (cfg0.win 1).flush t = true) :
    (dat0 V c).flushed 1 t = ((cfg0.win 1).blk t).view.read (Elt F) (out0 V c) := by
  obtain ⟨e0, e1⟩ := idx0_1 t
  show (cfg0.win 1).cut (grid0.coords t) ((dat0 V c).after 1 t) = _
  rw [after0_1]
  have hz' : (fun a => win0_1.index t a * main_v0.ty.shape.size a) = fun _ => 0 := funext fun a => by
    match a with
    | ⟨0, _⟩ => show win0_1.index t (0 : Fin 2) * 1024 = 0; rw [e0]
    | ⟨1, _⟩ => show win0_1.index t (1 : Fin 2) * 1024 = 0; rw [e1]
  exact (Memref.read_access_unit_zero (Elt F) main_v0 hz' (fun a => by rw [congrFun hz' a]; simp) (out0 V c)).symm

/-- The output array after the sweep holds what the last point stored: that point's block covers it. -/
theorem arrAt0_out (c : Dev nD) : (dat0 V c).arrAt 1 cfg0.N = out0 V c :=
  (dat0 V c).arrAt_eq_of_cover 1 (out0 V c) (flushed0_1_eq V c) fun i =>
    ⟨⟨15, lt15_0⟩, (flush0_1 ⟨15, lt15_0⟩).mpr rfl, by
      obtain ⟨e0, e1⟩ := idx0_1 ⟨15, lt15_0⟩
      show i ∈ ((View.whole main_v0).slice (win0_1.rect ⟨15, lt15_0⟩)).set
      rw [View.set_slice_whole, Rect.mem_set_unit]
      intro a
      have h0 : (i 0 : Nat) < 1024 := (i 0).isLt
      have h1 : (i 1 : Nat) < 1024 := (i 1).isLt
      match a with
      | ⟨0, _⟩ =>
        show win0_1.index ⟨15, lt15_0⟩ (0 : Fin 2) * 1024 ≤ (i 0 : Nat) ∧ (i 0 : Nat) < win0_1.index ⟨15, lt15_0⟩ (0 : Fin 2) * 1024 + 1024
        rw [e0]; omega
      | ⟨1, _⟩ =>
        show win0_1.index ⟨15, lt15_0⟩ (1 : Fin 2) * 1024 ≤ (i 1 : Nat) ∧ (i 1 : Nat) < win0_1.index ⟨15, lt15_0⟩ (1 : Fin 2) * 1024 + 1024
        rw [e1]; omega⟩

end Cert.KernelIdeal.Body

end
-- ==== Proof.KI.Blocks1.lean ====
/-
  The second sweep's blocks, running values and arrays as plain functions of its two input arrays.  The row window
  at grid point t is rows 512 t, …, 512 t + 511 of the second argument; the matrix window is one block, the whole
  matrix of the first sweep; so the running values are the folds over the row blocks, the entry stored at the last
  point is the loss of the totals against that matrix, the two input arrays are never written, and the one-entry
  output array, written back once, ends holding that entry.
-/
import proofs.«176689_j65489661329953_2_alg».proof.Proof.KI.Data1
import proofs.«176689_j65489661329953_2_alg».proof.Proof.KVal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The row window's block index at point t: block row t, block column 0. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The matrix window's block index is (0, 0) at every point. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- The output window's block index is (0, 0) at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- The row window's block at point t is row block t of the second argument. -/
theorem iblk1_0_eq (c : Dev nD) (t : Fin cfg1.N) : iblk1 V c 0 t = KVal.rowBlock (V c main_arg1) t.val := by
  obtain ⟨e0, e1⟩ := idx1_0 t
  have hN : t.val < 16 := lt_of_lt_of_eq t.isLt (show cfg1.N = 16 from N_1)
  funext y
  unfold iblk1 KVal.rowBlock
  rw [View.read_apply]
  show V c main_arg1 _ = V c main_arg1 _
  congr 1
  funext a
  apply Fin.ext
  match a with
  | ⟨0, _⟩ =>
    show win1_0.index t (0 : Fin 2) * 512 + 1 * (y 0).val = (512 * t.val + (y 0).val) % 8192
    have hy : (y 0).val < 512 := (y 0).isLt
    rw [e0]; omega
  | ⟨1, _⟩ =>
    show win1_0.index t (1 : Fin 2) * 1024 + 1 * (y 1).val = (y 1).val
    rw [e1]; omega

/-- The matrix window is one block, the whole array. -/
theorem iblk1_1_eq (c : Dev nD) (t : Fin cfg1.N) : iblk1 V c 1 t = V c main_v0 := by
  obtain ⟨e0, e1⟩ := idx1_1 t
  have hz' : (fun a => win1_1.index t a * main_v0.ty.shape.size a) = fun _ => 0 := funext fun a => by
    match a with
    | ⟨0, _⟩ => show win1_1.index t (0 : Fin 2) * 1024 = 0; rw [e0]
    | ⟨1, _⟩ => show win1_1.index t (1 : Fin 2) * 1024 = 0; rw [e1]
  exact Memref.read_access_unit_zero (Elt F) main_v0 hz' (fun a => by rw [congrFun hz' a]; simp) (V c main_v0)

/-- The running values after point n are the folds over row blocks 0, …, n. -/
theorem acc1_eq (c : Dev nD) : ∀ (n : ℕ) (hn : n < cfg1.N),
    acc1 V c n hn = (KVal.gram1 (V c main_arg1) n, KVal.sum1 (V c main_arg1) n, KVal.sq1 (V c main_arg1) n)
  | 0, hn => by
    rw [acc1, iblk1_0_eq V c ⟨0, hn⟩, KVal.gram1, KVal.sum1, KVal.sq1]
  | n + 1, hn => by
    rw [acc1, acc1_eq c n (Nat.lt_of_succ_lt hn), iblk1_0_eq V c ⟨n + 1, hn⟩, KVal.gram1, KVal.sum1, KVal.sq1]

/-- The entry stored at the last point is the loss of the folds' totals against the matrix the window holds. -/
theorem out1_eq (c : Dev nD) : out1 V c = KVal.loss1 (V c main_arg1) (V c main_v0) := by
  unfold out1 KVal.loss1
  rw [acc1_eq V c 15 lt15_1, iblk1_1_eq V c ⟨15, lt15_1⟩]

/-- The two input arrays are never written. -/
theorem arrAt1_in0 (c : Dev nD) : (dat1 V c).arrAt 0 cfg1.N = V c main_arg1 :=
  ((dat1 V c).arrAt_in 0 rfl _).trans (A_eq1 V c 0)

theorem arrAt1_in1 (c : Dev nD) : (dat1 V c).arrAt 1 cfg1.N = V c main_v0 :=
  ((dat1 V c).arrAt_in 1 rfl _).trans (A_eq1 V c 1)

/-- What the last point writes back is the whole output array's worth: block (0, 0) of an array of the block's own size. -/
theorem flushed1_2_eq (c : Dev nD) (t : Fin cfg1.N) (hf : (cfg1.win 2).flush t = true) :
    (dat1 V c).flushed 2 t = ((cfg1.win 2).blk t).view.read (Elt F) (out1 V c) := by
  obtain ⟨e0, e1⟩ := idx1_2 t
  show (cfg1.win 2).cut (grid1.coords t) ((dat1 V c).after 2 t) = _
  rw [after1_2]
  have hz' : (fun a => win1_2.index t a * main_v1.ty.shape.size a) = fun _ => 0 := funext fun a => by
    match a with
    | ⟨0, _⟩ => show win1_2.index t (0 : Fin 2) * 1 = 0; rw [e0]
    | ⟨1, _⟩ => show win1_2.index t (1 : Fin 2) * 1 = 0; rw [e1]
  exact (Memref.read_access_unit_zero (Elt F) main_v1 hz' (fun a => by rw [congrFun hz' a]; simp) (out1 V c)).symm

/-- The output array after the sweep holds what the last point stored: that point's block covers it. -/
theorem arrAt1_out (c : Dev nD) : (dat1 V c).arrAt 2 cfg1.N = out1 V c :=
  (dat1 V c).arrAt_eq_of_cover 2 (out1 V c) (flushed1_2_eq V c) fun i =>
    ⟨⟨15, lt15_1⟩, (flush1_2 ⟨15, lt15_1⟩).mpr rfl, by
      obtain ⟨e0, e1⟩ := idx1_2 ⟨15, lt15_1⟩
      show i ∈ ((View.whole main_v1).slice (win1_2.rect ⟨15, lt15_1⟩)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index ⟨15, lt15_1⟩ (0 : Fin 2) * 1 ≤ (i 0 : Nat) ∧ (i 0 : Nat) < win1_2.index ⟨15, lt15_1⟩ (0 : Fin 2) * 1 + 1
        rw [e0]; omega
      | ⟨1, _⟩ =>
        show win1_2.index ⟨15, lt15_1⟩ (1 : Fin 2) * 1 ≤ (i 1 : Nat) ∧ (i 1 : Nat) < win1_2.index ⟨15, lt15_1⟩ (1 : Fin 2) * 1 + 1
        rw [e1]; omega⟩

end Cert.KernelIdeal.Body

end
-- ==== Proof.KI.Blocks.lean ====
/-
  Both sweeps read as functions of the arrays they are entered with: each window's block at each grid point, the
  running values after each point, what the last point stores, and every windowed array after the sweep.  The first
  sweep's statements are in Blocks0, the second's in Blocks1.
-/
import proofs.«176689_j65489661329953_2_alg».proof.Proof.KI.Blocks0
import proofs.«176689_j65489661329953_2_alg».proof.Proof.KI.Blocks1
-- ==== Proof.LibColColDot.lean ====
/-
  A contraction of two matrices down their common leading axis: `[k, n] × [k, m] → [n, m]`, entry `(p, o)` the inner
  product of column `p` of the left operand with column `o` of the right (a product with the left operand's
  transpose that never forms the transpose).  Read at an index on the extended reals: for any contraction record with
  those dimension numbers, and for a matrix unit's product into the zero accumulator, for operands of any float
  formats.
-/
import Idealize.ShloMosaic.PureOps.Ideal.Laws
import Idealize.ShloMosaic.Lib.ValueIdx

noncomputable section

open scoped BigOperators

namespace Cert.LibColColDot

open Idealize.ShloMosaic Idealize.ShloMosaic.ValueIdx

/-- The sum over the contraction index is the sum over the one contracted coordinate j, the left operand read at
    (j, p) and the right at (j, o). -/
theorem sum_contr_cols {k n m : ℕ} (D : DotDims ⟨2, ![k, n]⟩ ⟨2, ![k, m]⟩ ⟨2, ![n, m]⟩)
    (hlc : D.lhsContracting = [0]) (hrc : D.rhsContracting = [0]) (hln : D.lhsNonContracting = [1]) (hrn : D.rhsNonContracting = [1])
    (hlb : D.lhsBatch = []) (hrb : D.rhsBatch = [])
    (lhs : (⟨2, ![k, n]⟩ : Shape).Idx → EReal) (rhs : (⟨2, ![k, m]⟩ : Shape).Idx → EReal) (p : Fin n) (o : Fin m) :
    ∑ q : D.contr.Idx, lhs (D.lhsIdx (ix2 p o) q) * rhs (D.rhsIdx (ix2 p o) q) = ∑ j : Fin k, lhs (ix2 j p) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [0] [0] [1] [1] [] [] wf) k rfl rfl).symm]
  refine Finset.sum_congr rfl fun j _ => ?_
  have hk := contrEquiv1_symm_val (DotDims.mk [0] [0] [1] [1] [] [] wf) k rfl rfl j
  have el : (DotDims.mk [0] [0] [1] [1] [] [] wf).lhsIdx (ix2 p o) ((contrEquiv1 (DotDims.mk [0] [0] [1] [1] [] [] wf) k rfl rfl).symm j) = ix2 j p :=
    funext fun a => Fin.ext (by
      match a with
      | ⟨0, _⟩ => exact ((DotDims.mk [0] [0] [1] [1] [] [] wf).lhsIdx_val_of_single rfl _ _).trans hk
      | ⟨1, _⟩ => rfl)
  have er : (DotDims.mk [0] [0] [1] [1] [] [] wf).rhsIdx (ix2 p o) ((contrEquiv1 (DotDims.mk [0] [0] [1] [1] [] [] wf) k rfl rfl).symm j) = ix2 j o :=
    funext fun a => Fin.ext (by
      match a with
      | ⟨0, _⟩ => exact ((DotDims.mk [0] [0] [1] [1] [] [] wf).rhsIdx_val_of_single rfl _ _).trans hk
      | ⟨1, _⟩ => rfl)
  rw [el, er]

/-- A matrix unit's product of columns against columns into the zero accumulator, at (p, o). -/
theorem matmul_zero_cols_apply {k n m : ℕ} {φ₁ φ₂ : FTy} (D : DotDims ⟨2, ![k, n]⟩ ⟨2, ![k, m]⟩ ⟨2, ![n, m]⟩)
    (hlc : D.lhsContracting = [0]) (hrc : D.rhsContracting = [0]) (hln : D.lhsNonContracting = [1]) (hrn : D.rhsNonContracting = [1])
    (hlb : D.lhsBatch = []) (hrb : D.rhsBatch = []) (prec : Option ContractPrecision)
    (lhs : FVec Ideal ⟨2, ![k, n]⟩ φ₁) (rhs : FVec Ideal ⟨2, ![k, m]⟩ φ₂) (p : Fin n) (o : Fin m) :
    FloatOps.matmul D prec lhs rhs (constant ⟨2, ![n, m]⟩ .f32 0x00000000#32) (ix2 p o) = ∑ j : Fin k, lhs (ix2 j p) * rhs (ix2 j o) :=
  (Ideal.matmul_constant_zero_apply D prec lhs rhs (ix2 p o)).trans (sum_contr_cols D hlc hrc hln hrn hlb hrb lhs rhs p o)

end Cert.LibColColDot

end
-- ==== Proof.LibColReduce.lean ====
/-
  A reduction down the columns of a matrix, read at one column.

  For an [n, d] matrix add-reduced over its first axis into a [d] vector, the entry at column e is the sum of
  the entries (0, e), …, (n-1, e). Stated for the kernel's vector reduction at the extended reals, for any
  extents and float format.
-/
import Idealize.ShloMosaic.PureOps.Ideal.Laws
import Idealize.ShloMosaic.Lib.ValueIdx

noncomputable section
namespace Cert.LibColReduce
open Idealize.ShloMosaic Idealize.ShloMosaic.ValueIdx

variable {φ : FTy}

/-- Column e with the coordinate y put back on the reduced axis is the entry (y, e). -/
theorem lift_col {n d : ℕ} (h : (⟨2, ![n, d]⟩ : Shape).Reduces [0] ⟨1, ![d]⟩) (e : Fin d) (y : Fin n) :
    h.lift (ix1 e) y = ix2 y e :=
  funext fun a => Fin.ext (by
    match a with
    | ⟨0, _⟩ => rfl
    | ⟨1, _⟩ => rfl)

/-- A vector add-reduction down the columns: the column's sum. -/
theorem multiReduction_add_col {n d : ℕ} (src : FVec Ideal ⟨2, ![n, d]⟩ φ) (acc : BitVec φ.bits)
    (h : (⟨2, ![n, d]⟩ : Shape).Reduces [0] ⟨1, ![d]⟩) (hφ : FKind.Formats φ) (hacc : acc = FKind.add.neutral φ hφ) (e : Fin d) :
    multiReduction .add [0] ⟨1, ![d]⟩ src acc h hφ hacc (ix1 e) = ∑ y : Fin n, src (ix2 y e) :=
  (Ideal.multiReduction_add_single src acc h hφ hacc (ix1 e)).trans
    (Finset.sum_congr rfl fun y _ => congrArg src (lift_col h e y))

end Cert.LibColReduce
end
-- ==== Proof.KReadBlock.lean ====
/-
  One block of 512 rows and what it adds to the three running totals, read entry by entry on the extended reals.

  For a block v of 512 rows, the Gram step adds to entry (i, j) the inner product of columns i and j of the block,
  the column-sum step adds to entry i the sum of column i, and the sum-of-squares step the sum of the squares of
  column i.  The totals start from the zero word, which is the number 0.
-/
import proofs.«176689_j65489661329953_2_alg».proof.Proof.KVal
import proofs.«176689_j65489661329953_2_alg».proof.Proof.LibColColDot
import proofs.«176689_j65489661329953_2_alg».proof.Proof.LibColReduce
import Idealize.ShloMosaic.Lib.ValueLayout
import Idealize.ShloMosaic.Lib.Pipeline.Value
import Idealize.ShloMosaic.PureOps.Ideal.Laws

noncomputable section

open scoped BigOperators

namespace Cert.KernelIdeal.KRead

open Idealize.ShloMosaic Idealize.ShloMosaic.ValueIdx
open Cert.KernelIdeal Cert.KernelIdeal.Gen Cert.KernelIdeal.KVal

/-- The block's column sums laid out as a row: entry (u, i) is the sum of column i of the block. -/
theorem colSums_row_apply (v : FVec Ideal S512x1024 .f32) (u : Fin 1) (i : Fin 1024) :
    shapeCast S1x1024 (multiReduction (F := Ideal) .add [0] S1024 v 0x00000000#32 reduces_S512x1024_S1024 (.inl rfl) rfl)
      shapeCasts_S1024_S1x1024 (ix2 u i) = ∑ r : Fin 512, v (ix2 r i) :=
  (shapeCast_a_1a_apply _ shapeCasts_S1024_S1x1024 u i).trans
    (Cert.LibColReduce.multiReduction_add_col v 0x00000000#32 reduces_S512x1024_S1024 (.inl rfl) rfl i)

/-- The block's product of columns against columns: entry (i, j) is the inner product of columns i and j of the
    block (the change of format of the operands is the identity on the extended reals). -/
theorem colDot_apply (v : FVec Ideal S512x1024 .f32) (i j : Fin 1024) :
    matmul dot_S512x1024_S512x1024_S1024x1024_0_0_1_1_n_n none (truncf .bf16 v bitsLt_bf16_f32) (truncf .bf16 v bitsLt_bf16_f32)
      (constant S1024x1024 .f32 0x00000000#32) (ix2 i j) = ∑ r : Fin 512, v (ix2 r i) * v (ix2 r j) :=
  Cert.LibColColDot.matmul_zero_cols_apply dot_S512x1024_S512x1024_S1024x1024_0_0_1_1_n_n rfl rfl rfl rfl rfl rfl none
    (truncf .bf16 v bitsLt_bf16_f32) (truncf .bf16 v bitsLt_bf16_f32) i j

/-- One block's step of the running Gram matrix: the block's column inner products are added. -/
theorem pay4_apply (v : FVec Ideal S512x1024 .f32) (g : FVec Ideal S1024x1024 .f32) (i j : Fin 1024) :
    k0_pay4 v g (ix2 i j) = g (ix2 i j) + ∑ r : Fin 512, v (ix2 r i) * v (ix2 r j) :=
  (congrFun (shapeCast_self (addf g (matmul dot_S512x1024_S512x1024_S1024x1024_0_0_1_1_n_n none (truncf .bf16 v bitsLt_bf16_f32)
      (truncf .bf16 v bitsLt_bf16_f32) (constant S1024x1024 .f32 0x00000000#32))) shapeCasts_S1024x1024_S1024x1024) (ix2 i j)).trans
    (congrArg (g (ix2 i j) + ·) (colDot_apply v i j))

/-- One block's step of the running column sums: the block's column sums are added. -/
theorem pay5_apply (v : FVec Ideal S512x1024 .f32) (s : FVec Ideal S1x1024 .f32) (u : Fin 1) (i : Fin 1024) :
    k0_pay5 v s (ix2 u i) = s (ix2 u i) + ∑ r : Fin 512, v (ix2 r i) :=
  (congrFun (shapeCast_self (addf s (shapeCast S1x1024 (multiReduction (F := Ideal) .add [0] S1024 v 0x00000000#32
      reduces_S512x1024_S1024 (.inl rfl) rfl) shapeCasts_S1024_S1x1024)) shapeCasts_S1x1024_S1x1024) (ix2 u i)).trans
    (congrArg (s (ix2 u i) + ·) (colSums_row_apply v u i))

/-- One block's step of the running column sums of squares: the block's column sums of squares are added. -/
theorem pay6_apply (v : FVec Ideal S512x1024 .f32) (s : FVec Ideal S1x1024 .f32) (u : Fin 1) (i : Fin 1024) :
    k0_pay6 v s (ix2 u i) = s (ix2 u i) + ∑ r : Fin 512, v (ix2 r i) * v (ix2 r i) :=
  (congrFun (shapeCast_self (addf s (shapeCast S1x1024 (multiReduction (F := Ideal) .add [0] S1024 (mulf v v) 0x00000000#32
      reduces_S512x1024_S1024 (.inl rfl) rfl) shapeCasts_S1024_S1x1024)) shapeCasts_S1x1024_S1x1024) (ix2 u i)).trans
    (congrArg (s (ix2 u i) + ·) (colSums_row_apply (mulf v v) u i))

/-- The three running totals start from zero. -/
theorem pay1_apply (i j : Fin 1024) : k0_pay1 (F := Ideal) (ix2 i j) = 0 :=
  (congrFun (shapeCast_self (broadcast S1024x1024 (Scalar.ofBits (F := Ideal) .f32 0x00000000#32)) shapeCasts_S1024x1024_S1024x1024) (ix2 i j)).trans
    Ideal.ofBits_zero_f32

theorem pay2_apply (u : Fin 1) (i : Fin 1024) : k0_pay2 (F := Ideal) (ix2 u i) = 0 :=
  (congrFun (shapeCast_self (broadcast S1x1024 (Scalar.ofBits (F := Ideal) .f32 0x00000000#32)) shapeCasts_S1x1024_S1x1024) (ix2 u i)).trans
    Ideal.ofBits_zero_f32

theorem pay3_apply (u : Fin 1) (i : Fin 1024) : k0_pay3 (F := Ideal) (ix2 u i) = 0 :=
  (congrFun (shapeCast_self (broadcast S1x1024 (Scalar.ofBits (F := Ideal) .f32 0x00000000#32)) shapeCasts_S1x1024_S1x1024) (ix2 u i)).trans
    Ideal.ofBits_zero_f32

end Cert.KernelIdeal.KRead

end
-- ==== Proof.Spec.lean ====
/-
  The mathematics of the certificate, with no program in sight.

  Two matrices `x y : Fin 8192 → Fin 1024 → EReal` (8192 samples, 1024 features) are given.  For one matrix `a`
  the CORRELATION MATRIX of its columns is written twice.

  One pass (`corrK`): from the column sums `colSum a i = Σ_k a k i`, the column sums of squares `colSq a i` and the raw
  Gram matrix `gram a i j = Σ_k a k i * a k j`, the mean is `colSum / n`, the unbiased variance
  `(colSq - n * mean * mean) / (n - 1)` floored at zero, `d = 1 / (sqrt var + eps)`, and
  `corrK a i j = d i * d j * (gram a i j - n * (mean i * mean j)) / n`.

  Two passes (`corrR`): the mean, then the variance `Σ_k (a k i - mean i)^2 / (n - 1)`, then every entry standardized
  `z k i = (a k i - mean i) / (sqrt var + eps)`, and `corrR a i j = (Σ_k z k i * z k j) / n`.

  The loss is the sum over the pairs `i < j` of the squared difference of the two matrices' correlations, divided by
  the number of pairs; the one-pass side selects the pairs, the two-pass side multiplies by a 0/1 mask, and the two
  sides take the difference in opposite orders.

  Every number is kept as the single-precision word the programs carry (`cN` = 8192, `cN1` = 8191, `cEps` ≈ 1e-5,
  `c1` = 1, `c0` = 0, `cCount` = 523776 = 1024 * 1023 / 2), read as the extended real it denotes.
-/
import Idealize.ShloMosaic.PureOps.Ideal

noncomputable section

namespace Cert.Spec

open Idealize.ShloMosaic

/-- A matrix of 8192 rows (samples) and 1024 columns (features) over the extended reals. -/
abbrev Mat : Type := Fin 8192 → Fin 1024 → EReal

/-- The word of 0. -/
def c0 : EReal := Ideal.ofBits .f32 0x00000000#32
/-- The word of 1. -/
def c1 : EReal := Ideal.ofBits .f32 0x3F800000#32
/-- The word of n = 8192, the number of rows. -/
def cN : EReal := Ideal.ofBits .f32 0x46000000#32
/-- The word of n - 1 = 8191. -/
def cN1 : EReal := Ideal.ofBits .f32 0x45FFF800#32
/-- The word of the regularizer added to every standard deviation (the single-precision number nearest 1e-5). -/
def cEps : EReal := Ideal.ofBits .f32 0x3727C5AC#32
/-- The word of the number of pairs i < j among 1024 columns, 523776. -/
def cCount : EReal := Ideal.ofBits .f32 0x48FFC000#32

/-- Column sums. -/
def colSum (a : Mat) (i : Fin 1024) : EReal := ∑ k : Fin 8192, a k i
/-- Column sums of squares. -/
def colSq (a : Mat) (i : Fin 1024) : EReal := ∑ k : Fin 8192, a k i * a k i
/-- The raw Gram matrix of the columns. -/
def gram (a : Mat) (i j : Fin 1024) : EReal := ∑ k : Fin 8192, a k i * a k j

/-! ## One pass -/

def meanK (a : Mat) (i : Fin 1024) : EReal := Ideal.div (colSum a i) cN
def varK (a : Mat) (i : Fin 1024) : EReal := Ideal.div (colSq a i - cN * meanK a i * meanK a i) cN1
def sdK (a : Mat) (i : Fin 1024) : EReal := Ideal.sqrt (max (varK a i) c0)
def dK (a : Mat) (i : Fin 1024) : EReal := Ideal.div c1 (sdK a i + cEps)
def corrK (a : Mat) (i j : Fin 1024) : EReal :=
  Ideal.div (dK a i * dK a j * (gram a i j - cN * (meanK a i * meanK a j))) cN
/-- The loss from the one-pass correlations: the second matrix's minus the first's, squared, over the pairs i < j. -/
def lossK (x y : Mat) : EReal :=
  Ideal.div (∑ i : Fin 1024, ∑ j : Fin 1024,
    if i < j then (corrK y i j - corrK x i j) * (corrK y i j - corrK x i j) else c0) cCount

/-! ## Two passes -/

def meanR (a : Mat) (i : Fin 1024) : EReal := Ideal.div (colSum a i) cN
def varR (a : Mat) (i : Fin 1024) : EReal :=
  Ideal.div (∑ k : Fin 8192, (a k i - meanR a i) * (a k i - meanR a i)) (cN - 1)
def sdR (a : Mat) (i : Fin 1024) : EReal := Ideal.sqrt (varR a i)
def zR (a : Mat) (k : Fin 8192) (i : Fin 1024) : EReal := Ideal.div (a k i - meanR a i) (sdR a i + cEps)
def corrR (a : Mat) (i j : Fin 1024) : EReal := Ideal.div (∑ k : Fin 8192, zR a k i * zR a k j) cN
/-- The strict upper triangle as a 0/1 matrix: 0 on and below the diagonal, 1 above it. -/
def maskR (i j : Fin 1024) : EReal := if j ≤ i then c0 else c1
/-- The loss from the two-pass correlations: the first matrix's minus the second's, squared, times the mask. -/
def lossR (x y : Mat) : EReal :=
  Ideal.div (∑ i : Fin 1024, ∑ j : Fin 1024,
    (corrR x i j - corrR y i j) * (corrR x i j - corrR y i j) * maskR i j) cCount

/-- A matrix all of whose entries are real numbers. -/
def Finite (a : Mat) : Prop := ∀ k i, ∃ r : ℝ, a k i = (r : EReal)

end Cert.Spec

end
-- ==== Proof.SpecIdx.lean ====
/-
  An array of shape [8192, 1024] over the extended reals read as a matrix of the specification: entry (k, i) is the
  array's element at the index whose two coordinates are k and i.
-/
import proofs.«176689_j65489661329953_2_alg».proof.Proof.Spec
import Idealize.ShloMosaic.Lib.ValueIdx

noncomputable section

namespace Cert.Spec

open Idealize.ShloMosaic

/-- The matrix an [8192, 1024] array holds. -/
def toMat (A : (⟨2, ![8192, 1024]⟩ : Shape).Idx → EReal) : Mat := fun k i => A (ValueIdx.ix2 k i)

theorem toMat_apply (A : (⟨2, ![8192, 1024]⟩ : Shape).Idx → EReal) (k : Fin 8192) (i : Fin 1024) :
    toMat A k i = A (ValueIdx.ix2 k i) := rfl

end Cert.Spec

end
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.KReadAcc.lean ====
/-
  The three running totals after the last block.

  Each sweep visits the sixteen blocks of 512 consecutive rows in order; a total starts from zero and every block adds
  its own sum.  A sum over all 8192 rows is the sum over the blocks of the sums over each block's rows (sums on the
  extended reals regroup freely: addition is commutative and associative there, infinities included), so after the
  last block the Gram total at (i, j) is the sum over all rows k of a k i * a k j, the column-sum total at i is the sum
  over all rows of a k i, and the sum-of-squares total the sum of a k i * a k i.  The second sweep's steps are the same
  steps, so its totals are the same functions of its array.
-/
import proofs.«176689_j65489661329953_2_alg».proof.Proof.KReadBlock
import proofs.«176689_j65489661329953_2_alg».proof.Proof.SpecIdx
import proofs.«176689_j65489661329953_2_alg».proof.Proof.LibBlockSum

noncomputable section

open scoped BigOperators

namespace Cert.KernelIdeal.KRead

open Idealize.ShloMosaic Idealize.ShloMosaic.ValueIdx
open Cert.KernelIdeal Cert.KernelIdeal.Gen Cert.KernelIdeal.KVal

/-- A running total that starts from zero plus the first term and adds one term per step is the partial sum. -/
theorem running_total (T f : ℕ → EReal) (h0 : T 0 = 0 + f 0) (hs : ∀ n, T (n + 1) = T n + f (n + 1)) :
    ∀ n, T n = ∑ b ∈ Finset.range (n + 1), f b
  | 0 => by rw [h0, zero_add, Finset.sum_range_one]
  | n + 1 => by rw [hs, running_total T f h0 hs n, Finset.sum_range_succ _ (n + 1)]

/-- A running total over the sixteen blocks of 512 consecutive rows, each block adding the sum of a quantity F over
    its rows, is after the last block the sum of F over all 8192 rows. -/
theorem total_all (F : Fin 8192 → EReal) (T : ℕ → EReal)
    (h0 : T 0 = 0 + ∑ r : Fin 512, F ⟨(512 * 0 + r.val) % 8192, Nat.mod_lt _ (by norm_num)⟩)
    (hs : ∀ n, T (n + 1) = T n + ∑ r : Fin 512, F ⟨(512 * (n + 1) + r.val) % 8192, Nat.mod_lt _ (by norm_num)⟩) :
    T 15 = ∑ k : Fin 8192, F k :=
  (running_total T (fun b => ∑ r : Fin 512, F ⟨(512 * b + r.val) % 8192, Nat.mod_lt _ (by norm_num)⟩) h0 hs 15).trans
    (Cert.LibBlockSum.sum_range_blocks 16 512 8192 (by norm_num) (by norm_num) F)

/-! ## The first sweep's totals after the last block -/

theorem gram0_last (A : Vec Ideal S8192x1024 .f32) (i j : Fin 1024) :
    gram0 A 15 (ix2 i j) = ∑ k : Fin 8192, A (ix2 k i) * A (ix2 k j) :=
  total_all (fun k => A (ix2 k i) * A (ix2 k j)) (fun n => gram0 A n (ix2 i j))
    ((pay4_apply (rowBlock A 0) k0_pay1 i j).trans (congrArg (· + _) (pay1_apply i j)))
    (fun n => pay4_apply (rowBlock A (n + 1)) (gram0 A n) i j)

theorem sum0_last (A : Vec Ideal S8192x1024 .f32) (u : Fin 1) (i : Fin 1024) :
    sum0 A 15 (ix2 u i) = ∑ k : Fin 8192, A (ix2 k i) :=
  total_all (fun k => A (ix2 k i)) (fun n => sum0 A n (ix2 u i))
    ((pay5_apply (rowBlock A 0) k0_pay2 u i).trans (congrArg (· + _) (pay2_apply u i)))
    (fun n => pay5_apply (rowBlock A (n + 1)) (sum0 A n) u i)

theorem sq0_last (A : Vec Ideal S8192x1024 .f32) (u : Fin 1) (i : Fin 1024) :
    sq0 A 15 (ix2 u i) = ∑ k : Fin 8192, A (ix2 k i) * A (ix2 k i) :=
  total_all (fun k => A (ix2 k i) * A (ix2 k i)) (fun n => sq0 A n (ix2 u i))
    ((pay6_apply (rowBlock A 0) k0_pay3 u i).trans (congrArg (· + _) (pay3_apply u i)))
    (fun n => pay6_apply (rowBlock A (n + 1)) (sq0 A n) u i)

/-! ## The second sweep runs the same steps -/

theorem gram1_eq (A : Vec Ideal S8192x1024 .f32) : ∀ n, gram1 A n = gram0 A n
  | 0 => rfl
  | n + 1 => congrArg (k0_pay4 (rowBlock A (n + 1))) (gram1_eq A n)

theorem sum1_eq (A : Vec Ideal S8192x1024 .f32) : ∀ n, sum1 A n = sum0 A n
  | 0 => rfl
  | n + 1 => congrArg (k0_pay5 (rowBlock A (n + 1))) (sum1_eq A n)

theorem sq1_eq (A : Vec Ideal S8192x1024 .f32) : ∀ n, sq1 A n = sq0 A n
  | 0 => rfl
  | n + 1 => congrArg (k0_pay6 (rowBlock A (n + 1))) (sq1_eq A n)

/-! ## The totals are the specification's sums -/

theorem gram0_spec (A : Vec Ideal S8192x1024 .f32) (i j : Fin 1024) :
    gram0 A 15 (ix2 i j) = Cert.Spec.gram (Cert.Spec.toMat A) i j := gram0_last A i j

theorem sum0_spec (A : Vec Ideal S8192x1024 .f32) (u : Fin 1) (i : Fin 1024) :
    sum0 A 15 (ix2 u i) = Cert.Spec.colSum (Cert.Spec.toMat A) i := sum0_last A u i

theorem sq0_spec (A : Vec Ideal S8192x1024 .f32) (u : Fin 1) (i : Fin 1024) :
    sq0 A 15 (ix2 u i) = Cert.Spec.colSq (Cert.Spec.toMat A) i := sq0_last A u i

end Cert.KernelIdeal.KRead

end
-- ==== Proof.KReadCorr.lean ====
/-
  From the three totals to the correlation matrix, entry by entry on the extended reals.

  The stage divides the column sums by the number of rows (the means), forms the unbiased variance from the sums of
  squares, floors it at zero, takes the square root, adds the regularizer and inverts (the reciprocal deviations d);
  two outer products give mean i * mean j and d i * d j; the entry is d i * d j * (gram i j - n * (mean i * mean j)) / n.
  Every step is pointwise except the two outer products, each a contraction over a single shared row, so a single term.
  With the totals of the previous module this is the specification's one-pass correlation matrix.
-/
import proofs.«176689_j65489661329953_2_alg».proof.Proof.KReadAcc
import proofs.«176689_j65489661329953_2_alg».proof.Proof.SpecIdx
import proofs.«176689_j65489661329953_2_alg».proof.Proof.LibColColDot

noncomputable section

open scoped BigOperators

namespace Cert.KernelIdeal.KRead

open Idealize.ShloMosaic Idealize.ShloMosaic.ValueIdx
open Cert.KernelIdeal Cert.KernelIdeal.Gen Cert.KernelIdeal.KVal

/-- The matrix unit's product of a row [1, 1024] with itself down the one shared row: the outer product. -/
def outer (m : FVec Ideal S1x1024 .f32) : FVec Ideal S1024x1024 .f32 :=
  matmul dot_S1x1024_S1x1024_S1024x1024_0_0_1_1_n_n none m m (constant S1024x1024 .f32 0x00000000#32)

/-- Entry (i, j) of the outer product is the single term m i * m j. -/
theorem outer_apply (m : FVec Ideal S1x1024 .f32) (i j : Fin 1024) :
    outer m (ix2 i j) = m (ix2 (0 : Fin 1) i) * m (ix2 (0 : Fin 1) j) :=
  (Cert.LibColColDot.matmul_zero_cols_apply dot_S1x1024_S1x1024_S1024x1024_0_0_1_1_n_n rfl rfl rfl rfl rfl rfl none m m i j).trans
    (Fin.sum_univ_one fun r : Fin 1 => m (ix2 r i) * m (ix2 r j))

/-- The row of column means: the column sums divided by the number of rows. -/
def meanV (s : FVec Ideal S1x1024 .f32) : FVec Ideal S1x1024 .f32 :=
  divf s (broadcast S1x1024 (Scalar.ofBits (F := Ideal) .f32 0x46000000#32))

/-- The row of reciprocals of the regularized standard deviations: the unbiased variance from the sums of squares
    and the means, floored at zero, its square root, the regularizer added, and the reciprocal. -/
def dV (s q : FVec Ideal S1x1024 .f32) : FVec Ideal S1x1024 .f32 :=
  divf (broadcast S1x1024 (Scalar.ofBits (F := Ideal) .f32 0x3F800000#32))
    (addf (sqrt (maximumf
        (divf (subf q (mulf (mulf (broadcast S1x1024 (Scalar.ofBits (F := Ideal) .f32 0x46000000#32)) (meanV s)) (meanV s)))
          (broadcast S1x1024 (Scalar.ofBits (F := Ideal) .f32 0x45FFF800#32)))
        (broadcast S1x1024 (Scalar.ofBits (F := Ideal) .f32 0x00000000#32))))
      (broadcast S1x1024 (Scalar.ofBits (F := Ideal) .f32 0x3727C5AC#32)))

/-- The correlation stage as one array expression over the two rows and the two outer products. -/
theorem pay7_eq (s q : FVec Ideal S1x1024 .f32) (g : FVec Ideal S1024x1024 .f32) :
    k0_pay7 (F := Ideal) s q g =
      divf (mulf (outer (dV s q))
          (subf g (mulf (broadcast S1024x1024 (Scalar.ofBits (F := Ideal) .f32 0x46000000#32)) (outer (meanV s)))))
        (broadcast S1024x1024 (Scalar.ofBits (F := Ideal) .f32 0x46000000#32)) := rfl

/-- Entry (i, j) of the correlation stage. -/
theorem pay7_apply (s q : FVec Ideal S1x1024 .f32) (g : FVec Ideal S1024x1024 .f32) (i j : Fin 1024) :
    k0_pay7 (F := Ideal) s q g (ix2 i j) =
      Ideal.div (dV s q (ix2 (0 : Fin 1) i) * dV s q (ix2 (0 : Fin 1) j)
        * (g (ix2 i j) - Cert.Spec.cN * (meanV s (ix2 (0 : Fin 1) i) * meanV s (ix2 (0 : Fin 1) j)))) Cert.Spec.cN := by
  rw [pay7_eq]
  show Ideal.div (outer (dV s q) (ix2 i j) * (g (ix2 i j) - Cert.Spec.cN * outer (meanV s) (ix2 i j))) Cert.Spec.cN = _
  rw [outer_apply, outer_apply]

open Cert.Spec in
/-- The means are the specification's when the column sums are. -/
theorem meanV_apply (s : FVec Ideal S1x1024 .f32) (a : Mat) (hs : ∀ i, s (ix2 (0 : Fin 1) i) = colSum a i) (i : Fin 1024) :
    meanV s (ix2 (0 : Fin 1) i) = meanK a i :=
  congrArg (Ideal.div · cN) (hs i)

open Cert.Spec in
/-- The reciprocal deviations are the specification's when the column sums and sums of squares are. -/
theorem dV_apply (s q : FVec Ideal S1x1024 .f32) (a : Mat) (hs : ∀ i, s (ix2 (0 : Fin 1) i) = colSum a i)
    (hq : ∀ i, q (ix2 (0 : Fin 1) i) = colSq a i) (i : Fin 1024) : dV s q (ix2 (0 : Fin 1) i) = dK a i := by
  show Ideal.div c1 (Ideal.sqrt (max (Ideal.div (q (ix2 (0 : Fin 1) i)
    - cN * meanV s (ix2 (0 : Fin 1) i) * meanV s (ix2 (0 : Fin 1) i)) cN1) c0) + cEps) = _
  rw [hq i, meanV_apply s a hs i]
  rfl

open Cert.Spec in
/-- The correlation stage applied to the three totals of a matrix is the one-pass correlation matrix. -/
theorem pay7_spec (s q : FVec Ideal S1x1024 .f32) (g : FVec Ideal S1024x1024 .f32) (a : Mat)
    (hs : ∀ i, s (ix2 (0 : Fin 1) i) = colSum a i) (hq : ∀ i, q (ix2 (0 : Fin 1) i) = colSq a i)
    (hg : ∀ i j, g (ix2 i j) = gram a i j) (i j : Fin 1024) : k0_pay7 (F := Ideal) s q g (ix2 i j) = corrK a i j := by
  rw [pay7_apply, dV_apply s q a hs hq i, dV_apply s q a hs hq j, meanV_apply s a hs i, meanV_apply s a hs j, hg i j]
  rfl

/-- The first sweep's result is the one-pass correlation matrix of its array. -/
theorem corr0_eq (A : Vec Ideal S8192x1024 .f32) (i j : Fin 1024) :
    KVal.corr0 (F := Ideal) A (ValueIdx.ix2 i j) = Cert.Spec.corrK (Cert.Spec.toMat A) i j :=
  pay7_spec (sum0 A 15) (sq0 A 15) (gram0 A 15) (Cert.Spec.toMat A) (sum0_spec A 0) (sq0_spec A 0) (gram0_spec A) i j

end Cert.KernelIdeal.KRead

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.KReadLoss.lean ====
/-
  The second sweep's last two stages, entry by entry on the extended reals.

  The last block's stage forms the sweep's own correlation matrix exactly as the first sweep's stage does, subtracts
  the matrix it is given, squares the difference, and keeps entry (i, j) where the row number is below the column
  number (the two numbers are below 1024, so comparing their 32-bit words as signed integers compares the numbers);
  elsewhere it puts the zero word.  It then sums along each row.  The final stage sums the 1024 row sums and divides
  by the number of pairs.
-/
import proofs.«176689_j65489661329953_2_alg».proof.Proof.KReadCorr
import proofs.«176689_j65489661329953_2_alg».proof.Proof.LibKeepdims
import proofs.«176689_j65489661329953_2_alg».proof.Proof.LibRowReduce
import proofs.«176689_j65489661329953_2_alg».proof.Proof.LibColReduce
import Idealize.ShloMosaic.Lib.Affine
import Idealize.ShloMosaic.Lib.ValueLayout
import Idealize.ShloMosaic.Lib.Pipeline.Value

noncomputable section

open scoped BigOperators

namespace Cert.KernelIdeal.KRead

open Idealize.ShloMosaic Idealize.ShloMosaic.ValueIdx
open Cert.KernelIdeal Cert.KernelIdeal.Gen Cert.KernelIdeal.KVal

/-! ## The pairs i < j -/

/-- The word of a number below 1024, read signed, is that number. -/
theorem toInt_small (n : ℕ) (h : n < 1024) : (BitVec.ofNat 32 n).toInt = (n : ℤ) := by
  rw [BitVec.toInt_eq_toNat_of_lt, BitVec.toNat_ofNat]
  · rw [Nat.mod_eq_of_lt (by omega)]
  · rw [BitVec.toNat_ofNat, Nat.mod_eq_of_lt (by omega)]; omega

/-- A choice by the signed comparison of the words of two numbers below 1024 is the choice by i < j. -/
theorem select_lt (i j : Fin 1024) (a b : EReal) :
    Scalar.select (IntOp.cmpi .slt (BitVec.ofNat 32 i.val) (BitVec.ofNat 32 j.val)) a b = if i < j then a else b := by
  have hc : IntOp.cmpi .slt (BitVec.ofNat 32 i.val) (BitVec.ofNat 32 j.val) = 1#1 ↔ i < j := by
    rw [IntOp.cmpi_slt, toInt_small _ i.isLt, toInt_small _ j.isLt, Int.ofNat_lt, Fin.lt_def]
  unfold Scalar.select
  by_cases h : i < j
  · rw [if_pos h]; exact if_pos (hc.mpr h)
  · rw [if_neg h]; exact if_neg (fun e => h (hc.mp e))

/-- The mask of the pairs: the row number, counted down a column [1024, 1] and spread along the rows, compared with
    the column number, counted along a row [1, 1024] and spread down the columns. -/
def maskW : IVec S1024x1024 1 :=
  cmpi .slt (broadcastTo S1024x1024 (iota .tc S1024x1 32 [0] iota_S1024x1_d0_w32) broadcasts_S1024x1_S1024x1024)
    (broadcastTo S1024x1024 (iota .tc S1x1024 32 [1] iota_S1x1024_d1_w32) broadcasts_S1x1024_S1024x1024)

/-- At (i, j) the mask compares the words of i and j. -/
theorem maskW_apply (i j : Fin 1024) :
    maskW (ix2 i j) = IntOp.cmpi .slt (BitVec.ofNat 32 i.val) (BitVec.ofNat 32 j.val) := by
  show IntOp.cmpi .slt
      (broadcastTo S1024x1024 (iota .tc S1024x1 32 [0] iota_S1024x1_d0_w32) broadcasts_S1024x1_S1024x1024 (ix2 i j))
      (broadcastTo S1024x1024 (iota .tc S1x1024 32 [1] iota_S1x1024_d1_w32) broadcasts_S1x1024_S1024x1024 (ix2 i j)) = _
  rw [Cert.LibKeepdims.broadcastTo_a1_ab_apply, broadcastTo_1b_ab_apply, iota_single_apply, iota_single_apply]

/-! ## The row sums of the masked squared difference -/

/-- The second sweep's last stage as one array expression: its own correlation matrix (the first sweep's stage on
    its own totals) minus the matrix it is given, squared, kept on the pairs, summed along each row, as a column. -/
theorem pay8_eq (s q : FVec Ideal S1x1024 .f32) (g C : FVec Ideal S1024x1024 .f32) :
    k1_pay8 (F := Ideal) s q g C =
      shapeCast S1024x1
        (multiReduction (F := Ideal) .add [1] S1024
          (select maskW
            (mulf (subf (k0_pay7 (F := Ideal) s q g) (shapeCast S1024x1024 C shapeCasts_S1024x1024_S1024x1024))
              (subf (k0_pay7 (F := Ideal) s q g) (shapeCast S1024x1024 C shapeCasts_S1024x1024_S1024x1024)))
            (broadcast S1024x1024 (Scalar.ofBits (F := Ideal) .f32 0x00000000#32)))
          0x00000000#32 reduces_S1024x1024_S1024 (.inl rfl) rfl)
        shapeCasts_S1024_S1024x1 := rfl

/-- Row i of that column: the sum over the columns j of the squared difference where i < j, of the zero word
    elsewhere. -/
theorem pay8_apply (s q : FVec Ideal S1x1024 .f32) (g C : FVec Ideal S1024x1024 .f32) (i : Fin 1024) (u : Fin 1) :
    k1_pay8 (F := Ideal) s q g C (ix2 i u) =
      ∑ j : Fin 1024, if i < j then
        (k0_pay7 (F := Ideal) s q g (ix2 i j) - C (ix2 i j)) * (k0_pay7 (F := Ideal) s q g (ix2 i j) - C (ix2 i j))
      else Cert.Spec.c0 := by
  rw [pay8_eq, Cert.LibKeepdims.shapeCast_a_a1_apply]
  refine (Cert.LibRowReduce.multiReduction_add_row _ 0x00000000#32 reduces_S1024x1024_S1024 (.inl rfl) rfl i).trans ?_
  refine Finset.sum_congr rfl fun j _ => ?_
  rw [select_apply, maskW_apply, select_lt, shapeCast_self]
  rfl

/-! ## The mean over the pairs -/

/-- The final stage: the column's entries summed and divided by the number of pairs. -/
theorem k1_pay7_apply (v : FVec Ideal S1024x1 .f32) (a b : Fin 1) :
    k1_pay7 (F := Ideal) v (ix2 a b) = Ideal.div (∑ y : Fin 1024, v (ix2 y b)) Cert.Spec.cCount := by
  show Ideal.div (shapeCast S1x1 (multiReduction (F := Ideal) .add [0] S1 v 0x00000000#32 reduces_S1024x1_S1 (.inl rfl) rfl)
    shapeCasts_S1_S1x1 (ix2 a b)) Cert.Spec.cCount = _
  rw [shapeCast_a_1a_apply]
  exact congrArg (Ideal.div · Cert.Spec.cCount)
    (Cert.LibColReduce.multiReduction_add_col v 0x00000000#32 reduces_S1024x1_S1 (.inl rfl) rfl b)

end Cert.KernelIdeal.KRead

end
-- ==== Proof.KRead.lean ====
/-
  The kernel's value on the extended reals is the one-pass side of the specification.

  The first sweep leaves the one-pass correlation matrix of its array X; the second sweep accumulates the same three
  totals of its array Y, forms Y's one-pass correlation matrix, subtracts X's, squares, keeps the pairs i < j, sums
  and divides by the number of pairs: the specification's one-pass loss of X and Y.
-/
import proofs.«176689_j65489661329953_2_alg».proof.Proof.KReadLoss
import proofs.«176689_j65489661329953_2_alg».proof.Proof.KReadCorr
import proofs.«176689_j65489661329953_2_alg».proof.Proof.KReadAcc
import proofs.«176689_j65489661329953_2_alg».proof.Proof.SpecIdx

noncomputable section

open scoped BigOperators

namespace Cert.KernelIdeal.KRead

open Idealize.ShloMosaic Idealize.ShloMosaic.ValueIdx
open Cert.KernelIdeal Cert.KernelIdeal.Gen Cert.KernelIdeal.KVal

/-- The kernel's one entry is the specification's one-pass loss of the two matrices its arrays hold. -/
theorem loss_eq (X Y : Vec Ideal S8192x1024 .f32) :
    KVal.loss (F := Ideal) X Y (ValueIdx.ix2 (0 : Fin 1) (0 : Fin 1)) = Cert.Spec.lossK (Cert.Spec.toMat X) (Cert.Spec.toMat Y) := by
  show k1_pay7 (F := Ideal) (k1_pay8 (sum1 Y 15) (sq1 Y 15) (gram1 Y 15) (corr0 X)) (ix2 (0 : Fin 1) (0 : Fin 1)) = _
  rw [k1_pay7_apply, sum1_eq, sq1_eq, gram1_eq]
  unfold Cert.Spec.lossK
  refine congrArg (Ideal.div · Cert.Spec.cCount) (Finset.sum_congr rfl fun i _ => ?_)
  rw [pay8_apply]
  refine Finset.sum_congr rfl fun j _ => ?_
  rw [show k0_pay7 (F := Ideal) (sum0 Y 15) (sq0 Y 15) (gram0 Y 15) (ix2 i j) = Cert.Spec.corrK (Cert.Spec.toMat Y) i j
    from corr0_eq Y i j, corr0_eq X i j]

end Cert.KernelIdeal.KRead

end
-- ==== Proof.KI.Value.lean ====
import proofs.«176689_j65489661329953_2_alg».proof.Proof.KI.Kept
import proofs.«176689_j65489661329953_2_alg».proof.Proof.KI.Blocks
import proofs.«176689_j65489661329953_2_alg».proof.Proof.KRead
import proofs.«176689_j65489661329953_2_alg».proof.Proof.SpecIdx

import Idealize.ShloMosaic.Lib.StableHlo.Run
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the result buffer holds at the end

The first sweep leaves the correlation matrix of the first argument's columns in the intermediate array; the second
sweep reads it back whole, and leaves the one-entry loss; the closing reshape only changes the rank. -/

/-- After the first sweep the intermediate array holds the first argument's correlation matrix. -/
theorem V1_main_v0 (c : Dev nD) : V1 m ρ c main_v0 = KVal.corr0 (m ((c : Thread nD τ).loc main_arg0)) :=
  (W1_arr m ρ c 1).trans ((arrAt0_out (V0 m ρ) c).trans (out0_eq (V0 m ρ) c))

/-- After the second sweep the [1, 1] array holds the kernel's loss of the two arguments. -/
theorem W2_main_v1 (c : Dev nD) :
    W2 m ρ c (Proc.devRef .tc main_v1) = KVal.loss (m ((c : Thread nD τ).loc main_arg0)) (m ((c : Thread nD τ).loc main_arg1)) := by
  refine (W2_arr m ρ c 2).trans ((arrAt1_out (V1 m ρ) c).trans ((out1_eq (V1 m ρ) c).trans ?_))
  rw [V1_main_v0 m ρ c, show V1 m ρ c main_arg1 = m ((c : Thread nD τ).loc main_arg1) from W1_main_arg1 m ρ c]
  rfl

/-- The result buffer: the [1, 1] loss read as a rank-0 array. -/
theorem W3_main_v2 (c : Dev nD) :
    W3 m ρ c (Proc.devRef .tc main_v2)
      = (fun i => shapeCast S_ (KVal.loss (m ((c : Thread nD τ).loc main_arg0)) (m ((c : Thread nD τ).loc main_arg1))) shapeCasts_S1x1_S_ i) := by
  show StableHlo.after hostOps2 (W2 m ρ c) (Proc.devRef .tc main_v2) = _
  after_results
  rw [W2_main_v1 m ρ c]
  rfl

/-- THE RUN WITH THE RESULT, for any reading of the floats: every weakly fair execution of @main terminates, nothing
    faulting; the result buffer ends at the reshaped loss of the launch contents of the two arguments, which end as
    launched. -/
theorem run_value : θ_run defs (onTc (τ := τ) (main (F := F))) ⟨m, fun _ => 0, ρ⟩ (fun r => ∀ c : Dev nD,
      r.2.mem ((c.tc : Thread nD τ).loc main_v2)
        = (fun i => shapeCast S_ (KVal.loss (m ((c : Thread nD τ).loc main_arg0)) (m ((c : Thread nD τ).loc main_arg1))) shapeCasts_S1x1_S_ i)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c)⟩) (run_all m ρ)

/-- The rank-0 reading of a [1, 1] array is its one entry. -/
theorem scalar_of_1x1 {α : Type} (x : S1x1.Idx → α) (i : S_.Idx) :
    shapeCast S_ x shapeCasts_S1x1_S_ i = x (ValueIdx.ix2 (0 : Fin 1) (0 : Fin 1)) :=
  shapeCast_apply x shapeCasts_S1x1_S_ i (ValueIdx.ix2 (0 : Fin 1) (0 : Fin 1)) (by
    have h1 : (S1x1.rowMajor (ValueIdx.ix2 (0 : Fin 1) (0 : Fin 1))).val = 0 := by rw [Shape.rowMajor_val_two]; rfl
    have hn : S_.numel = 1 := by first | rfl | decide
    have h2 : (S_.rowMajor i).val < 1 := lt_of_lt_of_eq (S_.rowMajor i).isLt hn
    omega)

end Cert.KernelIdeal.Body

/-! # At the extended reals: the result is the one-pass loss of the specification -/

namespace Cert.KernelIdeal.Body

open Cert.KernelIdeal Cert.KernelIdeal.Gen Idealize.ShloMosaic Idealize.SL.Sem

/-- At the extended reals the kernel's run ends with the result buffer's one element at the specification's one-pass
    loss of the two argument matrices, and the arguments unchanged. -/
theorem run_ideal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = (fun _ => Cert.Spec.lossK (Cert.Spec.toMat (m ((c.tc : Thread nD τ).loc main_arg0))) (Cert.Spec.toMat (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).1.trans (funext fun i => (scalar_of_1x1 _ i).trans (Cert.KernelIdeal.KRead.loss_eq _ _)), (h c).2⟩) (run_value (F := Ideal) m ρ)

end Cert.KernelIdeal.Body

end
-- ==== Proof.RefOps.lean ====
/-
  The reference program's @main as one straight line of host operations, the calls of its outlined functions unfolded
  at their call sites: the column standardization and correlation of the first argument (43 operations), the same of
  the second (43), and the masked mean of the squared difference (18).
-/
import proofs.«176689_j65489661329953_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations that produce the correlation matrix of the first argument. -/
abbrev opsA : List (HloOp τ sig (Elt F)) :=
  [ nullary main_cst (constant S_ .f32 0x00000000#32),
    binary main_arg0 main_cst main_v0 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    unary main_v0 main_v1 (broadcastInDim S1x1024 ![1] bcast_S1024_S1x1024_1 : (⟨S1024, .f32⟩ : BufTy).Contents (Elt F) → (⟨S1x1024, .f32⟩ : BufTy).Contents (Elt F)),
    nullary main_cst_0 (constant S_ .f32 0x46000000#32),
    unary main_cst_0 main_v2 (broadcastInDim S1x1024 ![] bcast_S_S1x1024 : (⟨S_, .f32⟩ : BufTy).Contents (Elt F) → (⟨S1x1024, .f32⟩ : BufTy).Contents (Elt F)),
    binary main_v1 main_v2 main_v3 (Host.divf : (⟨S1x1024, .f32⟩ : BufTy).Contents (Elt F) → (⟨S1x1024, .f32⟩ : BufTy).Contents (Elt F) → (⟨S1x1024, .f32⟩ : BufTy).Contents (Elt F)),
    nullary main_c (constantI S_ 32 1#32),
    TRef.nullary main_call0.call0.cst (constant S_ .f32 0x00000000#32),
    TRef.binary (TRef.of main_arg0 : TRef sig ⟨S8192x1024, .f32⟩) main_call0.call0.cst main_call0.call0.v0 (fun x v => Host.reduceAdd x v reducesTo_S8192x1024_S1024_d0 h_S_),
    TRef.unary main_call0.call0.v0 main_call0.call0.v1 (broadcastInDim S1x1024 ![1] bcast_S1024_S1x1024_1),
    TRef.nullary main_call0.call0.cst_0 (constant S_ .f32 0x46000000#32),
    TRef.unary main_call0.call0.cst_0 main_call0.call0.v2 (broadcastInDim S1x1024 ![] bcast_S_S1x1024),
    TRef.binary main_call0.call0.v1 main_call0.call0.v2 main_call0.call0.v3 Host.divf,
    TRef.unary main_call0.call0.v3 main_call0.call0.v4 (broadcastInDim S8192x1024 ![0, 1] bcast_S1x1024_S8192x1024_0_1),
    TRef.binary (TRef.of main_arg0 : TRef sig ⟨S8192x1024, .f32⟩) main_call0.call0.v4 main_call0.call0.v5 subf,
    TRef.binary main_call0.call0.v5 main_call0.call0.v5 main_call0.call0.v6 mulf,
    TRef.unary (TRef.of main_c : TRef sig ⟨S_, .i32⟩) main_call0.call0.v7 (sitofp .f32),
    TRef.nullary main_call0.call0.cst_1 (constant S_ .f32 0x46000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8192x1024_S1024_d0 h_S_),
    TRef.unary main_call0.call0.v9 main_call0.call0.v10 (broadcastInDim S1x1024 ![1] bcast_S1024_S1x1024_1),
    TRef.unary main_call0.call0.v8 main_call0.call0.v11 (broadcastInDim S1x1024 ![] bcast_S_S1x1024),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S1x1024 ![] bcast_S_S1x1024),
    TRef.ternary main_call0.call0.v13 main_call0.call0.v12 main_call0.call0.call0.v1 main_call0.call0.call0.v2 (fun p a b => select (broadcastInDim S1x1024 ![] bcast_S_S1x1024 p) a b),
    TRef.unary main_call0.call0.call0.v2 main_call0.v1 Host.sqrt,
    unary main_v3 main_v5 (broadcastInDim S8192x1024 ![0, 1] bcast_S1x1024_S8192x1024_0_1 : (⟨S1x1024, .f32⟩ : BufTy).Contents (Elt F) → (⟨S8192x1024, .f32⟩ : BufTy).Contents (Elt F)),
    binary main_arg0 main_v5 main_v6 (subf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x3727C5AC#32),
    unary main_cst_1 main_v7 (broadcastInDim S1x1024 ![] bcast_S_S1x1024 : (⟨S_, .f32⟩ : BufTy).Contents (Elt F) → (⟨S1x1024, .f32⟩ : BufTy).Contents (Elt F)),
    binary main_v4 main_v7 main_v8 (addf : (⟨S1x1024, .f32⟩ : BufTy).Contents (Elt F) → (⟨S1x1024, .f32⟩ : BufTy).Contents (Elt F) → (⟨S1x1024, .f32⟩ : BufTy).Contents (Elt F)),
    unary main_v8 main_v9 (broadcastInDim S8192x1024 ![0, 1] bcast_S1x1024_S8192x1024_0_1 : (⟨S1x1024, .f32⟩ : BufTy).Contents (Elt F) → (⟨S8192x1024, .f32⟩ : BufTy).Contents (Elt F)),
    binary main_v6 main_v9 main_v10 (Host.divf : (⟨S8192x1024, .f32⟩ : BufTy).Contents (Elt F) → (⟨S8192x1024, .f32⟩ : BufTy).Contents (Elt F) → (⟨S8192x1024, .f32⟩ : BufTy).Contents (Elt F)),
    unary main_v10 main_v11 ((transpose S1024x8192 [1, 0] · transposes_S8192x1024_S1024x8192_1_0) : (⟨S8192x1024, .f32⟩ : BufTy).Contents (Elt F) → (⟨S1024x8192, .f32⟩ : BufTy).Contents (Elt F)),
    binary main_v11 main_v10 main_v12 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    nullary main_cst_2 (constant S_ .f32 0x46000000#32),
    unary main_cst_2 main_v13 (broadcastInDim S1024x1024 ![] bcast_S_S1024x1024 : (⟨S_, .f32⟩ : BufTy).Contents (Elt F) → (⟨S1024x1024, .f32⟩ : BufTy).Contents (Elt F)),
    binary main_v12 main_v13 main_v14 (Host.divf : (⟨S1024x1024, .f32⟩ : BufTy).Contents (Elt F) → (⟨S1024x1024, .f32⟩ : BufTy).Contents (Elt F) → (⟨S1024x1024, .f32⟩ : BufTy).Contents (Elt F)) ]

/-- The operations that produce the correlation matrix of the second argument. -/
abbrev opsB : List (HloOp τ sig (Elt F)) :=
  [ nullary main_cst_3 (constant S_ .f32 0x00000000#32),
    binary main_arg1 main_cst_3 main_v15 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    unary main_v15 main_v16 (broadcastInDim S1x1024 ![1] bcast_S1024_S1x1024_1 : (⟨S1024, .f32⟩ : BufTy).Contents (Elt F) → (⟨S1x1024, .f32⟩ : BufTy).Contents (Elt F)),
    nullary main_cst_4 (constant S_ .f32 0x46000000#32),
    unary main_cst_4 main_v17 (broadcastInDim S1x1024 ![] bcast_S_S1x1024 : (⟨S_, .f32⟩ : BufTy).Contents (Elt F) → (⟨S1x1024, .f32⟩ : BufTy).Contents (Elt F)),
    binary main_v16 main_v17 main_v18 (Host.divf : (⟨S1x1024, .f32⟩ : BufTy).Contents (Elt F) → (⟨S1x1024, .f32⟩ : BufTy).Contents (Elt F) → (⟨S1x1024, .f32⟩ : BufTy).Contents (Elt F)),
    nullary main_c_5 (constantI S_ 32 1#32),
    TRef.nullary main_call1.call0.cst (constant S_ .f32 0x00000000#32),
    TRef.binary (TRef.of main_arg1 : TRef sig ⟨S8192x1024, .f32⟩) main_call1.call0.cst main_call1.call0.v0 (fun x v => Host.reduceAdd x v reducesTo_S8192x1024_S1024_d0 h_S_),
    TRef.unary main_call1.call0.v0 main_call1.call0.v1 (broadcastInDim S1x1024 ![1] bcast_S1024_S1x1024_1),
    TRef.nullary main_call1.call0.cst_0 (constant S_ .f32 0x46000000#32),
    TRef.unary main_call1.call0.cst_0 main_call1.call0.v2 (broadcastInDim S1x1024 ![] bcast_S_S1x1024),
    TRef.binary main_call1.call0.v1 main_call1.call0.v2 main_call1.call0.v3 Host.divf,
    TRef.unary main_call1.call0.v3 main_call1.call0.v4 (broadcastInDim S8192x1024 ![0, 1] bcast_S1x1024_S8192x1024_0_1),
    TRef.binary (TRef.of main_arg1 : TRef sig ⟨S8192x1024, .f32⟩) main_call1.call0.v4 main_call1.call0.v5 subf,
    TRef.binary main_call1.call0.v5 main_call1.call0.v5 main_call1.call0.v6 mulf,
    TRef.unary (TRef.of main_c_5 : TRef sig ⟨S_, .i32⟩) main_call1.call0.v7 (sitofp .f32),
    TRef.nullary main_call1.call0.cst_1 (constant S_ .f32 0x46000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8192x1024_S1024_d0 h_S_),
    TRef.unary main_call1.call0.v9 main_call1.call0.v10 (broadcastInDim S1x1024 ![1] bcast_S1024_S1x1024_1),
    TRef.unary main_call1.call0.v8 main_call1.call0.v11 (broadcastInDim S1x1024 ![] bcast_S_S1x1024),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S1x1024 ![] bcast_S_S1x1024),
    TRef.ternary main_call1.call0.v13 main_call1.call0.v12 main_call1.call0.call0.v1 main_call1.call0.call0.v2 (fun p a b => select (broadcastInDim S1x1024 ![] bcast_S_S1x1024 p) a b),
    TRef.unary main_call1.call0.call0.v2 main_call1.v1 Host.sqrt,
    unary main_v18 main_v20 (broadcastInDim S8192x1024 ![0, 1] bcast_S1x1024_S8192x1024_0_1 : (⟨S1x1024, .f32⟩ : BufTy).Contents (Elt F) → (⟨S8192x1024, .f32⟩ : BufTy).Contents (Elt F)),
    binary main_arg1 main_v20 main_v21 (subf : (⟨S8192x1024, .f32⟩ : BufTy).Contents (Elt F) → (⟨S8192x1024, .f32⟩ : BufTy).Contents (Elt F) → (⟨S8192x1024, .f32⟩ : BufTy).Contents (Elt F)),
    nullary main_cst_6 (constant S_ .f32 0x3727C5AC#32),
    unary main_cst_6 main_v22 (broadcastInDim S1x1024 ![] bcast_S_S1x1024 : (⟨S_, .f32⟩ : BufTy).Contents (Elt F) → (⟨S1x1024, .f32⟩ : BufTy).Contents (Elt F)),
    binary main_v19 main_v22 main_v23 (addf : (⟨S1x1024, .f32⟩ : BufTy).Contents (Elt F) → (⟨S1x1024, .f32⟩ : BufTy).Contents (Elt F) → (⟨S1x1024, .f32⟩ : BufTy).Contents (Elt F)),
    unary main_v23 main_v24 (broadcastInDim S8192x1024 ![0, 1] bcast_S1x1024_S8192x1024_0_1 : (⟨S1x1024, .f32⟩ : BufTy).Contents (Elt F) → (⟨S8192x1024, .f32⟩ : BufTy).Contents (Elt F)),
    binary main_v21 main_v24 main_v25 (Host.divf : (⟨S8192x1024, .f32⟩ : BufTy).Contents (Elt F) → (⟨S8192x1024, .f32⟩ : BufTy).Contents (Elt F) → (⟨S8192x1024, .f32⟩ : BufTy).Contents (Elt F)),
    unary main_v25 main_v26 ((transpose S1024x8192 [1, 0] · transposes_S8192x1024_S1024x8192_1_0) : (⟨S8192x1024, .f32⟩ : BufTy).Contents (Elt F) → (⟨S1024x8192, .f32⟩ : BufTy).Contents (Elt F)),
    binary main_v26 main_v25 main_v27 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    nullary main_cst_7 (constant S_ .f32 0x46000000#32),
    unary main_cst_7 main_v28 (broadcastInDim S1024x1024 ![] bcast_S_S1024x1024 : (⟨S_, .f32⟩ : BufTy).Contents (Elt F) → (⟨S1024x1024, .f32⟩ : BufTy).Contents (Elt F)),
    binary main_v27 main_v28 main_v29 (Host.divf : (⟨S1024x1024, .f32⟩ : BufTy).Contents (Elt F) → (⟨S1024x1024, .f32⟩ : BufTy).Contents (Elt F) → (⟨S1024x1024, .f32⟩ : BufTy).Contents (Elt F)) ]

/-- The operations that turn the two correlation matrices into the loss. -/
abbrev opsL : List (HloOp τ sig (Elt F)) :=
  [ binary main_v14 main_v29 main_v30 (subf : (⟨S1024x1024, .f32⟩ : BufTy).Contents (Elt F) → (⟨S1024x1024, .f32⟩ : BufTy).Contents (Elt F) → (⟨S1024x1024, .f32⟩ : BufTy).Contents (Elt F)),
    nullary main_cst_8 (constant S_ .f32 0x3F800000#32),
    unary main_cst_8 main_v31 (broadcastInDim S1024x1024 ![] bcast_S_S1024x1024 : (⟨S_, .f32⟩ : BufTy).Contents (Elt F) → (⟨S1024x1024, .f32⟩ : BufTy).Contents (Elt F)),
    TRef.nullary main_call2.v0 (iotaInDim S1024x1024 32 0),
    TRef.nullary main_call2.c (constantI S_ 32 0#32),
    TRef.unary main_call2.c main_call2.v1 (broadcastInDim S1024x1024 ![] bcast_S_S1024x1024),
    TRef.binary main_call2.v0 main_call2.v1 main_call2.v2 addi,
    TRef.nullary main_call2.v3 (iotaInDim S1024x1024 32 1),
    TRef.binary main_call2.v2 main_call2.v3 main_call2.v4 (cmpi .sge),
    TRef.nullary main_call2.cst (constant S_ .f32 0x00000000#32),
    TRef.unary main_call2.cst main_call2.v5 (broadcastInDim S1024x1024 ![] bcast_S_S1024x1024),
    TRef.ternary main_call2.v4 main_call2.v5 (TRef.of main_v31 : TRef sig ⟨S1024x1024, .f32⟩) main_call2.v6 select,
    binary main_v30 main_v30 main_v33 (mulf : (⟨S1024x1024, .f32⟩ : BufTy).Contents (Elt F) → (⟨S1024x1024, .f32⟩ : BufTy).Contents (Elt F) → (⟨S1024x1024, .f32⟩ : BufTy).Contents (Elt F)),
    binary main_v33 main_v32 main_v34 (mulf : (⟨S1024x1024, .f32⟩ : BufTy).Contents (Elt F) → (⟨S1024x1024, .f32⟩ : BufTy).Contents (Elt F) → (⟨S1024x1024, .f32⟩ : BufTy).Contents (Elt F)),
    nullary main_cst_9 (constant S_ .f32 0x00000000#32),
    binary main_v34 main_cst_9 main_v35 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_10 (constant S_ .f32 0x48FFC000#32),
    binary main_v35 main_cst_10 main_v36 (Host.divf : (⟨S_, .f32⟩ : BufTy).Contents (Elt F) → (⟨S_, .f32⟩ : BufTy).Contents (Elt F) → (⟨S_, .f32⟩ : BufTy).Contents (Elt F)) ]

/-- All of @main's operations, in order. -/
abbrev ops : List (HloOp τ sig (Elt F)) :=
  [ nullary main_cst (constant S_ .f32 0x00000000#32),
    binary main_arg0 main_cst main_v0 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    unary main_v0 main_v1 (broadcastInDim S1x1024 ![1] bcast_S1024_S1x1024_1 : (⟨S1024, .f32⟩ : BufTy).Contents (Elt F) → (⟨S1x1024, .f32⟩ : BufTy).Contents (Elt F)),
    nullary main_cst_0 (constant S_ .f32 0x46000000#32),
    unary main_cst_0 main_v2 (broadcastInDim S1x1024 ![] bcast_S_S1x1024 : (⟨S_, .f32⟩ : BufTy).Contents (Elt F) → (⟨S1x1024, .f32⟩ : BufTy).Contents (Elt F)),
    binary main_v1 main_v2 main_v3 (Host.divf : (⟨S1x1024, .f32⟩ : BufTy).Contents (Elt F) → (⟨S1x1024, .f32⟩ : BufTy).Contents (Elt F) → (⟨S1x1024, .f32⟩ : BufTy).Contents (Elt F)),
    nullary main_c (constantI S_ 32 1#32),
    TRef.nullary main_call0.call0.cst (constant S_ .f32 0x00000000#32),
    TRef.binary (TRef.of main_arg0 : TRef sig ⟨S8192x1024, .f32⟩) main_call0.call0.cst main_call0.call0.v0 (fun x v => Host.reduceAdd x v reducesTo_S8192x1024_S1024_d0 h_S_),
    TRef.unary main_call0.call0.v0 main_call0.call0.v1 (broadcastInDim S1x1024 ![1] bcast_S1024_S1x1024_1),
    TRef.nullary main_call0.call0.cst_0 (constant S_ .f32 0x46000000#32),
    TRef.unary main_call0.call0.cst_0 main_call0.call0.v2 (broadcastInDim S1x1024 ![] bcast_S_S1x1024),
    TRef.binary main_call0.call0.v1 main_call0.call0.v2 main_call0.call0.v3 Host.divf,
    TRef.unary main_call0.call0.v3 main_call0.call0.v4 (broadcastInDim S8192x1024 ![0, 1] bcast_S1x1024_S8192x1024_0_1),
    TRef.binary (TRef.of main_arg0 : TRef sig ⟨S8192x1024, .f32⟩) main_call0.call0.v4 main_call0.call0.v5 subf,
    TRef.binary main_call0.call0.v5 main_call0.call0.v5 main_call0.call0.v6 mulf,
    TRef.unary (TRef.of main_c : TRef sig ⟨S_, .i32⟩) main_call0.call0.v7 (sitofp .f32),
    TRef.nullary main_call0.call0.cst_1 (constant S_ .f32 0x46000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8192x1024_S1024_d0 h_S_),
    TRef.unary main_call0.call0.v9 main_call0.call0.v10 (broadcastInDim S1x1024 ![1] bcast_S1024_S1x1024_1),
    TRef.unary main_call0.call0.v8 main_call0.call0.v11 (broadcastInDim S1x1024 ![] bcast_S_S1x1024),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S1x1024 ![] bcast_S_S1x1024),
    TRef.ternary main_call0.call0.v13 main_call0.call0.v12 main_call0.call0.call0.v1 main_call0.call0.call0.v2 (fun p a b => select (broadcastInDim S1x1024 ![] bcast_S_S1x1024 p) a b),
    TRef.unary main_call0.call0.call0.v2 main_call0.v1 Host.sqrt,
    unary main_v3 main_v5 (broadcastInDim S8192x1024 ![0, 1] bcast_S1x1024_S8192x1024_0_1 : (⟨S1x1024, .f32⟩ : BufTy).Contents (Elt F) → (⟨S8192x1024, .f32⟩ : BufTy).Contents (Elt F)),
    binary main_arg0 main_v5 main_v6 (subf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x3727C5AC#32),
    unary main_cst_1 main_v7 (broadcastInDim S1x1024 ![] bcast_S_S1x1024 : (⟨S_, .f32⟩ : BufTy).Contents (Elt F) → (⟨S1x1024, .f32⟩ : BufTy).Contents (Elt F)),
    binary main_v4 main_v7 main_v8 (addf : (⟨S1x1024, .f32⟩ : BufTy).Contents (Elt F) → (⟨S1x1024, .f32⟩ : BufTy).Contents (Elt F) → (⟨S1x1024, .f32⟩ : BufTy).Contents (Elt F)),
    unary main_v8 main_v9 (broadcastInDim S8192x1024 ![0, 1] bcast_S1x1024_S8192x1024_0_1 : (⟨S1x1024, .f32⟩ : BufTy).Contents (Elt F) → (⟨S8192x1024, .f32⟩ : BufTy).Contents (Elt F)),
    binary main_v6 main_v9 main_v10 (Host.divf : (⟨S8192x1024, .f32⟩ : BufTy).Contents (Elt F) → (⟨S8192x1024, .f32⟩ : BufTy).Contents (Elt F) → (⟨S8192x1024, .f32⟩ : BufTy).Contents (Elt F)),
    unary main_v10 main_v11 ((transpose S1024x8192 [1, 0] · transposes_S8192x1024_S1024x8192_1_0) : (⟨S8192x1024, .f32⟩ : BufTy).Contents (Elt F) → (⟨S1024x8192, .f32⟩ : BufTy).Contents (Elt F)),
    binary main_v11 main_v10 main_v12 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    nullary main_cst_2 (constant S_ .f32 0x46000000#32),
    unary main_cst_2 main_v13 (broadcastInDim S1024x1024 ![] bcast_S_S1024x1024 : (⟨S_, .f32⟩ : BufTy).Contents (Elt F) → (⟨S1024x1024, .f32⟩ : BufTy).Contents (Elt F)),
    binary main_v12 main_v13 main_v14 (Host.divf : (⟨S1024x1024, .f32⟩ : BufTy).Contents (Elt F) → (⟨S1024x1024, .f32⟩ : BufTy).Contents (Elt F) → (⟨S1024x1024, .f32⟩ : BufTy).Contents (Elt F)),
    nullary main_cst_3 (constant S_ .f32 0x00000000#32),
    binary main_arg1 main_cst_3 main_v15 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    unary main_v15 main_v16 (broadcastInDim S1x1024 ![1] bcast_S1024_S1x1024_1 : (⟨S1024, .f32⟩ : BufTy).Contents (Elt F) → (⟨S1x1024, .f32⟩ : BufTy).Contents (Elt F)),
    nullary main_cst_4 (constant S_ .f32 0x46000000#32),
    unary main_cst_4 main_v17 (broadcastInDim S1x1024 ![] bcast_S_S1x1024 : (⟨S_, .f32⟩ : BufTy).Contents (Elt F) → (⟨S1x1024, .f32⟩ : BufTy).Contents (Elt F)),
    binary main_v16 main_v17 main_v18 (Host.divf : (⟨S1x1024, .f32⟩ : BufTy).Contents (Elt F) → (⟨S1x1024, .f32⟩ : BufTy).Contents (Elt F) → (⟨S1x1024, .f32⟩ : BufTy).Contents (Elt F)),
    nullary main_c_5 (constantI S_ 32 1#32),
    TRef.nullary main_call1.call0.cst (constant S_ .f32 0x00000000#32),
    TRef.binary (TRef.of main_arg1 : TRef sig ⟨S8192x1024, .f32⟩) main_call1.call0.cst main_call1.call0.v0 (fun x v => Host.reduceAdd x v reducesTo_S8192x1024_S1024_d0 h_S_),
    TRef.unary main_call1.call0.v0 main_call1.call0.v1 (broadcastInDim S1x1024 ![1] bcast_S1024_S1x1024_1),
    TRef.nullary main_call1.call0.cst_0 (constant S_ .f32 0x46000000#32),
    TRef.unary main_call1.call0.cst_0 main_call1.call0.v2 (broadcastInDim S1x1024 ![] bcast_S_S1x1024),
    TRef.binary main_call1.call0.v1 main_call1.call0.v2 main_call1.call0.v3 Host.divf,
    TRef.unary main_call1.call0.v3 main_call1.call0.v4 (broadcastInDim S8192x1024 ![0, 1] bcast_S1x1024_S8192x1024_0_1),
    TRef.binary (TRef.of main_arg1 : TRef sig ⟨S8192x1024, .f32⟩) main_call1.call0.v4 main_call1.call0.v5 subf,
    TRef.binary main_call1.call0.v5 main_call1.call0.v5 main_call1.call0.v6 mulf,
    TRef.unary (TRef.of main_c_5 : TRef sig ⟨S_, .i32⟩) main_call1.call0.v7 (sitofp .f32),
    TRef.nullary main_call1.call0.cst_1 (constant S_ .f32 0x46000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8192x1024_S1024_d0 h_S_),
    TRef.unary main_call1.call0.v9 main_call1.call0.v10 (broadcastInDim S1x1024 ![1] bcast_S1024_S1x1024_1),
    TRef.unary main_call1.call0.v8 main_call1.call0.v11 (broadcastInDim S1x1024 ![] bcast_S_S1x1024),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S1x1024 ![] bcast_S_S1x1024),
    TRef.ternary main_call1.call0.v13 main_call1.call0.v12 main_call1.call0.call0.v1 main_call1.call0.call0.v2 (fun p a b => select (broadcastInDim S1x1024 ![] bcast_S_S1x1024 p) a b),
    TRef.unary main_call1.call0.call0.v2 main_call1.v1 Host.sqrt,
    unary main_v18 main_v20 (broadcastInDim S8192x1024 ![0, 1] bcast_S1x1024_S8192x1024_0_1 : (⟨S1x1024, .f32⟩ : BufTy).Contents (Elt F) → (⟨S8192x1024, .f32⟩ : BufTy).Contents (Elt F)),
    binary main_arg1 main_v20 main_v21 (subf : (⟨S8192x1024, .f32⟩ : BufTy).Contents (Elt F) → (⟨S8192x1024, .f32⟩ : BufTy).Contents (Elt F) → (⟨S8192x1024, .f32⟩ : BufTy).Contents (Elt F)),
    nullary main_cst_6 (constant S_ .f32 0x3727C5AC#32),
    unary main_cst_6 main_v22 (broadcastInDim S1x1024 ![] bcast_S_S1x1024 : (⟨S_, .f32⟩ : BufTy).Contents (Elt F) → (⟨S1x1024, .f32⟩ : BufTy).Contents (Elt F)),
    binary main_v19 main_v22 main_v23 (addf : (⟨S1x1024, .f32⟩ : BufTy).Contents (Elt F) → (⟨S1x1024, .f32⟩ : BufTy).Contents (Elt F) → (⟨S1x1024, .f32⟩ : BufTy).Contents (Elt F)),
    unary main_v23 main_v24 (broadcastInDim S8192x1024 ![0, 1] bcast_S1x1024_S8192x1024_0_1 : (⟨S1x1024, .f32⟩ : BufTy).Contents (Elt F) → (⟨S8192x1024, .f32⟩ : BufTy).Contents (Elt F)),
    binary main_v21 main_v24 main_v25 (Host.divf : (⟨S8192x1024, .f32⟩ : BufTy).Contents (Elt F) → (⟨S8192x1024, .f32⟩ : BufTy).Contents (Elt F) → (⟨S8192x1024, .f32⟩ : BufTy).Contents (Elt F)),
    unary main_v25 main_v26 ((transpose S1024x8192 [1, 0] · transposes_S8192x1024_S1024x8192_1_0) : (⟨S8192x1024, .f32⟩ : BufTy).Contents (Elt F) → (⟨S1024x8192, .f32⟩ : BufTy).Contents (Elt F)),
    binary main_v26 main_v25 main_v27 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    nullary main_cst_7 (constant S_ .f32 0x46000000#32),
    unary main_cst_7 main_v28 (broadcastInDim S1024x1024 ![] bcast_S_S1024x1024 : (⟨S_, .f32⟩ : BufTy).Contents (Elt F) → (⟨S1024x1024, .f32⟩ : BufTy).Contents (Elt F)),
    binary main_v27 main_v28 main_v29 (Host.divf : (⟨S1024x1024, .f32⟩ : BufTy).Contents (Elt F) → (⟨S1024x1024, .f32⟩ : BufTy).Contents (Elt F) → (⟨S1024x1024, .f32⟩ : BufTy).Contents (Elt F)),
    binary main_v14 main_v29 main_v30 (subf : (⟨S1024x1024, .f32⟩ : BufTy).Contents (Elt F) → (⟨S1024x1024, .f32⟩ : BufTy).Contents (Elt F) → (⟨S1024x1024, .f32⟩ : BufTy).Contents (Elt F)),
    nullary main_cst_8 (constant S_ .f32 0x3F800000#32),
    unary main_cst_8 main_v31 (broadcastInDim S1024x1024 ![] bcast_S_S1024x1024 : (⟨S_, .f32⟩ : BufTy).Contents (Elt F) → (⟨S1024x1024, .f32⟩ : BufTy).Contents (Elt F)),
    TRef.nullary main_call2.v0 (iotaInDim S1024x1024 32 0),
    TRef.nullary main_call2.c (constantI S_ 32 0#32),
    TRef.unary main_call2.c main_call2.v1 (broadcastInDim S1024x1024 ![] bcast_S_S1024x1024),
    TRef.binary main_call2.v0 main_call2.v1 main_call2.v2 addi,
    TRef.nullary main_call2.v3 (iotaInDim S1024x1024 32 1),
    TRef.binary main_call2.v2 main_call2.v3 main_call2.v4 (cmpi .sge),
    TRef.nullary main_call2.cst (constant S_ .f32 0x00000000#32),
    TRef.unary main_call2.cst main_call2.v5 (broadcastInDim S1024x1024 ![] bcast_S_S1024x1024),
    TRef.ternary main_call2.v4 main_call2.v5 (TRef.of main_v31 : TRef sig ⟨S1024x1024, .f32⟩) main_call2.v6 select,
    binary main_v30 main_v30 main_v33 (mulf : (⟨S1024x1024, .f32⟩ : BufTy).Contents (Elt F) → (⟨S1024x1024, .f32⟩ : BufTy).Contents (Elt F) → (⟨S1024x1024, .f32⟩ : BufTy).Contents (Elt F)),
    binary main_v33 main_v32 main_v34 (mulf : (⟨S1024x1024, .f32⟩ : BufTy).Contents (Elt F) → (⟨S1024x1024, .f32⟩ : BufTy).Contents (Elt F) → (⟨S1024x1024, .f32⟩ : BufTy).Contents (Elt F)),
    nullary main_cst_9 (constant S_ .f32 0x00000000#32),
    binary main_v34 main_cst_9 main_v35 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_10 (constant S_ .f32 0x48FFC000#32),
    binary main_v35 main_cst_10 main_v36 (Host.divf : (⟨S_, .f32⟩ : BufTy).Contents (Elt F) → (⟨S_, .f32⟩ : BufTy).Contents (Elt F) → (⟨S_, .f32⟩ : BufTy).Contents (Elt F)) ]

/-- The line is its three parts end to end. -/
theorem ops_split : (ops : List (HloOp τ sig (Elt F))) = opsA ++ (opsB ++ opsL) := rfl

set_option maxRecDepth 4096 in
set_option maxHeartbeats 1000000 in
/-- @main is that straight line: the outlined functions unfolded at their calls, sequencing reassociated. -/
theorem main_eq (c : Dev nD) : main (F := F) c = seq ops := by
  simp only [main, fn_std.body, fn_var.body, fn_where.body, fn_triu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub ..⟩
theorem opsL_sub : (opsL : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., binary_bufs_sub .., binary_bufs_sub .., nullary_bufs_sub .., binary_bufs_sub .., nullary_bufs_sub .., binary_bufs_sub ..⟩

theorem ops_sub : (ops : List (HloOp τ sig (Elt F))).Forall fun op => op.bufs ⊆ tcRefs τ sig :=
  (ops_split (F := F)).symm ▸ List.forall_append.mpr ⟨opsA_sub, List.forall_append.mpr ⟨opsB_sub, opsL_sub⟩⟩

/-- From any memory with zero counters every weakly fair execution of @main terminates, and every buffer then holds
    what the straight line leaves in it from the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The value the reference program computes, as one term of its two argument arrays for any reading of the floats,
  cut at the stages of the mathematics: the row of column means, the centred array, the row of unbiased variances
  (guarded by the comparison n - 1 > 0), the row of standard deviations, the standardized array, the correlation
  matrix (the standardized array's transpose times itself, over n), the 0/1 mask of the strict upper triangle, and
  the masked mean of the squared difference of two correlation matrices.
-/
import proofs.«176689_j65489661329953_2_alg».proof.Proof.Gen.ReferenceIdeal

noncomputable section

namespace Cert.RefSide

open Cert.ReferenceIdeal Cert.ReferenceIdeal.Gen Idealize.ShloMosaic

variable {F : FTy → Type} [FloatOps F]

/-- The row of column means: the column sums from the zero word, over the word of n. -/
def meanT (A : FVec F S8192x1024 .f32) : FVec F S1x1024 .f32 :=
  Host.divf
    (broadcastInDim S1x1024 ![1] bcast_S1024_S1x1024_1
      (Host.reduceAdd A (constant S_ .f32 0x00000000#32) reducesTo_S8192x1024_S1024_d0 h_S_))
    (broadcastInDim S1x1024 ![] bcast_S_S1x1024 (constant S_ .f32 0x46000000#32))

/-- n - 1 as the program forms it: the word of n less the integer 1 converted. -/
def nm1T : FVec F S_ .f32 :=
  subf (constant S_ .f32 0x46000000#32) (sitofp .f32 (constantI S_ 32 1#32))

/-- The array with its column means subtracted. -/
def cenT (A : FVec F S8192x1024 .f32) : FVec F S8192x1024 .f32 :=
  subf A (broadcastInDim S8192x1024 ![0, 1] bcast_S1x1024_S8192x1024_0_1 (meanT A))

/-- The row of unbiased variances: the column sums of the squared centred entries over n - 1, kept where n - 1 > 0
    and replaced by the not-a-number word elsewhere. -/
def varT (A : FVec F S8192x1024 .f32) : FVec F S1x1024 .f32 :=
  select (broadcastInDim S1x1024 ![] bcast_S_S1x1024 (cmpf .ogt (nm1T (F := F)) (constant S_ .f32 0x00000000#32)))
    (Host.divf
      (broadcastInDim S1x1024 ![1] bcast_S1024_S1x1024_1
        (Host.reduceAdd (mulf (cenT A) (cenT A)) (constant S_ .f32 0x00000000#32) reducesTo_S8192x1024_S1024_d0 h_S_))
      (broadcastInDim S1x1024 ![] bcast_S_S1x1024 nm1T))
    (broadcastInDim S1x1024 ![] bcast_S_S1x1024 (id (constant S_ .f32 0x7FC00000#32)))

/-- The row of standard deviations. -/
def sdT (A : FVec F S8192x1024 .f32) : FVec F S1x1024 .f32 := Host.sqrt (varT A)

/-- The standardized array: centred entries over the standard deviation plus the regularizer. -/
def zT (A : FVec F S8192x1024 .f32) : FVec F S8192x1024 .f32 :=
  Host.divf (cenT A)
    (broadcastInDim S8192x1024 ![0, 1] bcast_S1x1024_S8192x1024_0_1
      (addf (sdT A) (broadcastInDim S1x1024 ![] bcast_S_S1x1024 (constant S_ .f32 0x3727C5AC#32))))

/-- The correlation matrix: the standardized array's transpose times the standardized array, over n. -/
def corrT (A : FVec F S8192x1024 .f32) : FVec F S1024x1024 .f32 :=
  Host.divf
    (Host.dotGeneral dot_S1024x8192_S8192x1024_S1024x1024_1_0_0_1_n_n none
      (transpose S1024x8192 [1, 0] (zT A) transposes_S8192x1024_S1024x8192_1_0) (zT A))
    (broadcastInDim S1024x1024 ![] bcast_S_S1024x1024 (constant S_ .f32 0x46000000#32))

/-- The mask: the zero word where the row number is at least the column number, the one word elsewhere. -/
def maskT : FVec F S1024x1024 .f32 :=
  select
    (cmpi .sge
      (addi (iotaInDim S1024x1024 32 0) (broadcastInDim S1024x1024 ![] bcast_S_S1024x1024 (constantI S_ 32 0#32)))
      (iotaInDim S1024x1024 32 1))
    (broadcastInDim S1024x1024 ![] bcast_S_S1024x1024 (constant S_ .f32 0x00000000#32))
    (broadcastInDim S1024x1024 ![] bcast_S_S1024x1024 (constant S_ .f32 0x3F800000#32))

/-- The loss from two correlation matrices: their difference squared, masked, summed from the zero word, over the
    word of the number of pairs. -/
def lossT (C D : FVec F S1024x1024 .f32) : FVec F S_ .f32 :=
  Host.divf
    (Host.reduceAdd (mulf (mulf (subf C D) (subf C D)) (maskT (F := F))) (constant S_ .f32 0x00000000#32)
      reducesTo_S1024x1024_S_d0_1 h_S_)
    (constant S_ .f32 0x48FFC000#32)

/-- The reference's value from its two argument arrays. -/
def refTerm (X Y : FVec F S8192x1024 .f32) : FVec F S_ .f32 := lossT (corrT X) (corrT Y)

end Cert.RefSide

end
-- ==== Proof.RefRunA.lean ====
/-
  What the first part of the reference's line leaves: the correlation matrix of the first argument in its result
  buffer, as the composed term of the argument's contents; both arguments untouched.
-/
import proofs.«176689_j65489661329953_2_alg».proof.Proof.RefOps
import proofs.«176689_j65489661329953_2_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The first part's result is the correlation term of the first argument. -/
theorem afterA_v14 (V : Valuation τ sig (Elt F)) :
    after opsA V (main_v14 : DevRef τ sig) = corrT (V (main_arg0 : DevRef τ sig)) := by
  after_results_simp
  rfl

theorem afterA_arg0 (V : Valuation τ sig (Elt F)) :
    after opsA V (main_arg0 : DevRef τ sig) = V (main_arg0 : DevRef τ sig) := by
  after_results_simp

theorem afterA_arg1 (V : Valuation τ sig (Elt F)) :
    after opsA V (main_arg1 : DevRef τ sig) = V (main_arg1 : DevRef τ sig) := by
  after_results_simp

end Cert.RefSide

end
-- ==== Proof.RefRunB.lean ====
/-
  What the second part of the reference's line leaves: the correlation matrix of the second argument in its result
  buffer, as the composed term of the argument's contents; the first part's result and both arguments untouched.
-/
import proofs.«176689_j65489661329953_2_alg».proof.Proof.RefOps
import proofs.«176689_j65489661329953_2_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The second part's result is the correlation term of the second argument. -/
theorem afterB_v29 (V : Valuation τ sig (Elt F)) :
    after opsB V (main_v29 : DevRef τ sig) = corrT (V (main_arg1 : DevRef τ sig)) := by
  after_results_simp
  rfl

theorem afterB_v14 (V : Valuation τ sig (Elt F)) :
    after opsB V (main_v14 : DevRef τ sig) = V (main_v14 : DevRef τ sig) := by
  after_results_simp

theorem afterB_arg0 (V : Valuation τ sig (Elt F)) :
    after opsB V (main_arg0 : DevRef τ sig) = V (main_arg0 : DevRef τ sig) := by
  after_results_simp

theorem afterB_arg1 (V : Valuation τ sig (Elt F)) :
    after opsB V (main_arg1 : DevRef τ sig) = V (main_arg1 : DevRef τ sig) := by
  after_results_simp

end Cert.RefSide

end
-- ==== Proof.RefRunL.lean ====
/-
  What the last part of the reference's line leaves: the loss in the result buffer, as the composed term of the two
  correlation matrices it finds; both arguments untouched.
-/
import proofs.«176689_j65489661329953_2_alg».proof.Proof.RefOps
import proofs.«176689_j65489661329953_2_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The last part's result is the loss term of the two correlation matrices. -/
theorem afterL_v36 (V : Valuation τ sig (Elt F)) :
    after opsL V (main_v36 : DevRef τ sig)
      = lossT (V (main_v14 : DevRef τ sig)) (V (main_v29 : DevRef τ sig)) := by
  after_results_simp
  rfl

theorem afterL_arg0 (V : Valuation τ sig (Elt F)) :
    after opsL V (main_arg0 : DevRef τ sig) = V (main_arg0 : DevRef τ sig) := by
  after_results_simp

theorem afterL_arg1 (V : Valuation τ sig (Elt F)) :
    after opsL V (main_arg1 : DevRef τ sig) = V (main_arg1 : DevRef τ sig) := by
  after_results_simp

end Cert.RefSide

end
-- ==== Proof.LibAfterAppend.lean ====
/-
  The contents after a line of host operations that is written as two lines end to end.

  `after l V` is the device's buffer contents after the operations `l`, in order, from contents `V`. Running
  `l₁ ++ l₂` is running `l₁` and then `l₂` from what `l₁` left: this lets a long line be read in two steps —
  its last operation alone, over the contents the operations before it leave, which stay one folded term.
-/
import Idealize.ShloMosaic.Lib.StableHlo.Run

namespace Cert.Lib

open Idealize.ShloMosaic Idealize.ShloMosaic.StableHlo

variable {τ : Topo} {sig : RefSig} {Val : EltTy → Type}

/-- The contents after two lines end to end are the contents after the second line from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.Lib
-- ==== Proof.RefRun.lean ====
/-
  The reference's run: every weakly fair execution of @main terminates with the result buffer at the composed term
  of the two arguments' launch contents and the arguments unchanged. The line is read in its three parts, each from
  what the part before leaves.
-/
import proofs.«176689_j65489661329953_2_alg».proof.Proof.RefRunA
import proofs.«176689_j65489661329953_2_alg».proof.Proof.RefRunB
import proofs.«176689_j65489661329953_2_alg».proof.Proof.RefRunL
import proofs.«176689_j65489661329953_2_alg».proof.Proof.LibAfterAppend

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The whole line's result is the reference term of the two arguments. -/
theorem after_ops_v36 (V : Valuation τ sig (Elt F)) :
    after ops V (main_v36 : DevRef τ sig)
      = refTerm (V (main_arg0 : DevRef τ sig)) (V (main_arg1 : DevRef τ sig)) := by
  rw [ops_split, Cert.Lib.after_append, Cert.Lib.after_append, afterL_v36, afterB_v29, afterB_v14, afterA_v14, afterA_arg1]
  rfl

theorem after_ops_arg0 (V : Valuation τ sig (Elt F)) :
    after ops V (main_arg0 : DevRef τ sig) = V (main_arg0 : DevRef τ sig) := by
  rw [ops_split, Cert.Lib.after_append, Cert.Lib.after_append, afterL_arg0, afterB_arg0, afterA_arg0]

theorem after_ops_arg1 (V : Valuation τ sig (Elt F)) :
    after ops V (main_arg1 : DevRef τ sig) = V (main_arg1 : DevRef τ sig) := by
  rw [ops_split, Cert.Lib.after_append, Cert.Lib.after_append, afterL_arg1, afterB_arg1, afterA_arg1]

/-- On every device, for any reading of the floats, from any memory with zero counters: every weakly fair execution
    of @main terminates with the result at the reference term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (after_ops_v36 _),
      (h c main_arg0).trans (after_ops_arg0 _),
      (h c main_arg1).trans (after_ops_arg1 _)⟩)
    (run_ops m ρ)

end Cert.RefSide

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.RefMean.lean ====
/-
  The first stages of the reference's value read at an index, on the extended reals: a column reduction from the zero
  word is the column's sum; the row of means holds the specification's mean of each column; the centred array holds each
  entry less its column's mean.
-/
import proofs.«176689_j65489661329953_2_alg».proof.Proof.RefTerm
import proofs.«176689_j65489661329953_2_alg».proof.Proof.SpecIdx
import proofs.«176689_j65489661329953_2_alg».proof.Proof.LibRowBroadcast
import proofs.«176689_j65489661329953_2_alg».proof.Proof.LibBroadcastInDim
import proofs.«176689_j65489661329953_2_alg».proof.Proof.LibColReduce
import Idealize.ShloMosaic.Lib.IdealHost

noncomputable section

namespace Cert.RefSide

open Cert.ReferenceIdeal Cert.ReferenceIdeal.Gen Idealize.ShloMosaic Idealize.ShloMosaic.ValueIdx Cert.Spec

/-- A reduction down the columns from the zero word: the column's sum. -/
theorem colReduce_apply (x : FVec Ideal S8192x1024 .f32) (i : Fin 1024) :
    Host.reduceAdd x (constant (F := Ideal) S_ .f32 0x00000000#32) reducesTo_S8192x1024_S1024_d0 h_S_ (ix1 i)
      = ∑ k : Fin 8192, x (ix2 k i) := by
  have h : S8192x1024.Reduces [0] S1024 := by decide
  rw [hostReduceAdd_apply, Ideal.hostReduceAdd_single reducesTo_S8192x1024_S1024_d0 h, constant_apply,
    Ideal.ofBits_zero_f32, zero_add]
  exact Finset.sum_congr rfl fun k _ => congrArg x (Cert.LibColReduce.lift_col h i k)

/-- The row of means at a column is the specification's mean of that column. -/
theorem meanT_apply (A : FVec Ideal S8192x1024 .f32) (u : Fin 1) (i : Fin 1024) :
    meanT A (ix2 u i) = meanR (toMat A) i := by
  unfold meanT meanR colSum cN
  rw [hostDivf_apply, Cert.LibRowBroadcast.vec_row_apply, Cert.LibBroadcastInDim.scalar_apply, colReduce_apply,
    constant_apply]
  rfl

/-- The centred array at (k, i) is the entry less its column's mean. -/
theorem cenT_apply (A : FVec Ideal S8192x1024 .f32) (k : Fin 8192) (i : Fin 1024) :
    cenT A (ix2 k i) = toMat A k i - meanR (toMat A) i := by
  unfold cenT
  rw [subf_apply, Cert.LibRowBroadcast.row_mat_apply, meanT_apply]
  rfl

end Cert.RefSide

end
-- ==== Proof.AlgConsts.lean ====
/-
  The single-precision words of the specification, as the extended reals they denote: 0, 1, 8192, 8191, and a
  positive real for the regularizer.
-/
import proofs.«176689_j65489661329953_2_alg».proof.Proof.Spec

noncomputable section

namespace Cert.Spec

open Idealize.ShloMosaic

/-- The word of 0 denotes 0. -/
theorem c0_eq : c0 = 0 := by
  unfold c0
  simp [Ideal.ofBits, Ideal.ieee]

/-- The word of 1 denotes 1. -/
theorem c1_eq : c1 = ((1 : ℝ) : EReal) := by
  unfold c1
  simp [Ideal.ofBits, Ideal.ieee, -EReal.coe_mul]; norm_num

/-- The word of the number of rows denotes 8192. -/
theorem cN_eq : cN = ((8192 : ℝ) : EReal) := by
  unfold cN
  simp [Ideal.ofBits, Ideal.ieee, -EReal.coe_mul]; norm_num

/-- The word of the number of rows less one denotes 8191. -/
theorem cN1_eq : cN1 = ((8191 : ℝ) : EReal) := by
  unfold cN1
  simp [Ideal.ofBits, Ideal.ieee, -EReal.coe_mul]; norm_num

/-- The regularizer's word denotes a positive real. -/
theorem cEps_eq : ∃ e : ℝ, 0 < e ∧ cEps = (e : EReal) := by
  unfold cEps
  refine ⟨(10995116 : ℝ) * (2 : ℝ) ^ (-40 : ℤ), by positivity, ?_⟩
  simp [Ideal.ofBits, Ideal.ieee, -EReal.coe_mul]

end Cert.Spec

end
-- ==== Proof.RefVar.lean ====
/-
  The variance, the standard deviation and the standardized entries of the reference's value read at an index, on the
  extended reals. The program guards the variance by the comparison n - 1 > 0, which holds: n is 8192.
-/
import proofs.«176689_j65489661329953_2_alg».proof.Proof.RefMean
import proofs.«176689_j65489661329953_2_alg».proof.Proof.AlgConsts

noncomputable section

namespace Cert.RefSide

open Cert.ReferenceIdeal Cert.ReferenceIdeal.Gen Idealize.ShloMosaic Idealize.ShloMosaic.ValueIdx Cert.Spec

/-- n - 1 as the program forms it is the specification's n - 1. -/
theorem nm1T_apply (j : S_.Idx) : nm1T (F := Ideal) j = cN - 1 := by
  unfold nm1T cN
  rw [subf_apply, constant_apply, sitofp_apply]
  show Ideal.ofBits .f32 0x46000000#32 - (((1#32 : BitVec 32).toInt : ℝ) : EReal) = _
  have h1 : (1#32 : BitVec 32).toInt = 1 := by decide
  rw [h1, Int.cast_one, EReal.coe_one]

/-- n - 1 is positive. -/
theorem nm1_pos : (0 : EReal) < cN - 1 := by
  rw [cN_eq]
  have h : ((8192 : ℝ) : EReal) - 1 = ((8191 : ℝ) : EReal) := by
    rw [← EReal.coe_one, ← EReal.coe_sub]; norm_num
  rw [h]
  exact_mod_cast (by norm_num : (0 : ℝ) < 8191)

/-- The comparison n - 1 > 0 gives the bit 1. -/
theorem nm1_cmp : FloatOps.cmpf (F := Ideal) (φ := .f32) .ogt (cN - 1) 0 = 1#1 := by
  rw [Ideal.cmpf_def]
  simp [Ideal.cmp, nm1_pos]

/-- The row of variances at a column is the specification's unbiased variance of that column. -/
theorem varT_apply (A : FVec Ideal S8192x1024 .f32) (u : Fin 1) (i : Fin 1024) :
    varT A (ix2 u i) = varR (toMat A) i := by
  unfold varT
  rw [select_apply, Cert.LibBroadcastInDim.scalar_apply, cmpf_apply, nm1T_apply, constant_apply, Ideal.ofBits_zero_f32,
    nm1_cmp, select_one, hostDivf_apply, Cert.LibRowBroadcast.vec_row_apply, Cert.LibBroadcastInDim.scalar_apply,
    colReduce_apply, nm1T_apply]
  unfold varR
  congr 1
  refine Finset.sum_congr rfl fun k _ => ?_
  rw [mulf_apply, cenT_apply]

/-- The row of standard deviations at a column is the specification's. -/
theorem sdT_apply (A : FVec Ideal S8192x1024 .f32) (u : Fin 1) (i : Fin 1024) :
    sdT A (ix2 u i) = sdR (toMat A) i := by
  unfold sdT sdR
  show Ideal.sqrt (varT A (ix2 u i)) = _
  rw [varT_apply]

/-- The standardized array at (k, i) is the specification's standardized entry. -/
theorem zT_apply (A : FVec Ideal S8192x1024 .f32) (k : Fin 8192) (i : Fin 1024) :
    zT A (ix2 k i) = zR (toMat A) k i := by
  unfold zT zR cEps
  rw [hostDivf_apply, cenT_apply, Cert.LibRowBroadcast.row_mat_apply, addf_apply, sdT_apply,
    Cert.LibBroadcastInDim.scalar_apply, constant_apply]

end Cert.RefSide

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibTransposeEntry.lean ====
/-
  A transposed matrix read at an entry.

  The transpose with permutation [1, 0] of a [d, k] matrix is the [k, d] matrix whose entry (j, o) is the operand's entry
  (o, j).  General in the extents and the element type: the form a weight matrix W takes where a program contracts
  against W transposed.
-/
import Idealize.ShloMosaic.Lib.Pipeline.Value
import Idealize.ShloMosaic.Lib.ValueIdx

noncomputable section

namespace Cert.LibTransposeEntry

open Idealize.ShloMosaic Idealize.ShloMosaic.ValueIdx

/-- Entry (j, o) of the transpose is entry (o, j) of the operand. -/
theorem transpose_apply_ix2 {α : Type} {d k : ℕ} (W : (⟨2, ![d, k]⟩ : Shape).Idx → α)
    (h : (⟨2, ![d, k]⟩ : Shape).Transposes [1, 0] ⟨2, ![k, d]⟩) (j : Fin k) (o : Fin d) :
    transpose ⟨2, ![k, d]⟩ [1, 0] W h (ix2 j o) = W (ix2 o j) :=
  transpose_apply [1, 0] W h (ix2 j o) (ix2 o j) (fun b => by
    match b with
    | ⟨0, _⟩ => rfl
    | ⟨1, _⟩ => rfl)

end Cert.LibTransposeEntry

end
-- ==== Proof.RefCorr.lean ====
/-
  The correlation matrix of the reference's value read at an entry, on the extended reals: the product of the
  standardized array's transpose with the standardized array sums, at (i, j), the products of the standardized
  entries of columns i and j over the rows; over n it is the specification's two-pass correlation.
-/
import proofs.«176689_j65489661329953_2_alg».proof.Proof.RefVar
import proofs.«176689_j65489661329953_2_alg».proof.Proof.LibPlainDot
import proofs.«176689_j65489661329953_2_alg».proof.Proof.LibTransposeEntry

noncomputable section

namespace Cert.RefSide

open Cert.ReferenceIdeal Cert.ReferenceIdeal.Gen Idealize.ShloMosaic Idealize.ShloMosaic.ValueIdx Cert.Spec

/-- The correlation term at (i, j) is the specification's two-pass correlation of columns i and j. -/
theorem corrT_apply (A : FVec Ideal S8192x1024 .f32) (i j : Fin 1024) :
    corrT A (ix2 i j) = corrR (toMat A) i j := by
  unfold corrT corrR cN Host.dotGeneral
  rw [hostDivf_apply, Cert.LibBroadcastInDim.scalar_apply, constant_apply,
    Cert.LibPlainDot.dotGeneral_apply dot_S1024x8192_S8192x1024_S1024x1024_1_0_0_1_n_n rfl rfl rfl rfl rfl rfl]
  congr 1
  refine Finset.sum_congr rfl fun k _ => ?_
  rw [Cert.LibTransposeEntry.transpose_apply_ix2, zT_apply, zT_apply]

end Cert.RefSide

end
-- ==== Proof.RefLoss.lean ====
/-
  The last stage of the reference's value on the extended reals: the mask is 0 on and below the diagonal and 1 above
  it, and the loss of two matrices is the sum over all (i, j) of their squared difference times the mask, over the
  number of pairs.
-/
import proofs.«176689_j65489661329953_2_alg».proof.Proof.RefTerm
import proofs.«176689_j65489661329953_2_alg».proof.Proof.SpecIdx
import proofs.«176689_j65489661329953_2_alg».proof.Proof.LibBroadcastInDim
import Idealize.ShloMosaic.Lib.IdealHost

noncomputable section

namespace Cert.RefSide

open Cert.ReferenceIdeal Cert.ReferenceIdeal.Gen Idealize.ShloMosaic Idealize.ShloMosaic.ValueIdx Cert.Spec

/-- The signed order of two small row or column numbers, as 32-bit words, is their order as numbers. -/
theorem sle_small (a b : ℕ) (ha : a < 1024) (hb : b < 1024) :
    (BitVec.ofNat 32 a).sle (BitVec.ofNat 32 b) = decide (a ≤ b) := by
  have ea : (BitVec.ofNat 32 a).toInt = (a : ℤ) := by
    rw [BitVec.toInt_eq_toNat_cond, BitVec.toNat_ofNat]
    have : a % 2 ^ 32 = a := Nat.mod_eq_of_lt (by omega)
    rw [this]; split <;> omega
  have eb : (BitVec.ofNat 32 b).toInt = (b : ℤ) := by
    rw [BitVec.toInt_eq_toNat_cond, BitVec.toNat_ofNat]
    have : b % 2 ^ 32 = b := Nat.mod_eq_of_lt (by omega)
    rw [this]; split <;> omega
  rw [BitVec.sle, ea, eb]
  simp

/-- The mask's comparison at (i, j): the bit of j ≤ i. -/
theorem maskCond_apply (i j : Fin 1024) :
    cmpi .sge
        (addi (iotaInDim S1024x1024 32 0) (broadcastInDim S1024x1024 ![] bcast_S_S1024x1024 (constantI S_ 32 0#32)))
        (iotaInDim S1024x1024 32 1) (ix2 i j)
      = BitVec.ofBool (decide (j ≤ i)) := by
  show BitVec.ofBool ((BitVec.ofNat 32 j.val).sle
      (BitVec.ofNat 32 i.val + broadcastInDim S1024x1024 ![] bcast_S_S1024x1024 (constantI S_ 32 0#32) (ix2 i j))) = _
  rw [Cert.LibBroadcastInDim.scalar_apply]
  show BitVec.ofBool ((BitVec.ofNat 32 j.val).sle (BitVec.ofNat 32 i.val + 0#32)) = _
  rw [BitVec.add_zero, sle_small j.val i.val j.isLt i.isLt]
  rfl

/-- The mask at (i, j) is the specification's: 0 where j ≤ i, 1 above the diagonal. -/
theorem maskT_apply (i j : Fin 1024) : maskT (F := Ideal) (ix2 i j) = maskR i j := by
  unfold maskT maskR c0 c1
  rw [select_apply, maskCond_apply, Cert.LibBroadcastInDim.scalar_apply, Cert.LibBroadcastInDim.scalar_apply,
    constant_apply, constant_apply]
  by_cases h : j ≤ i
  · rw [if_pos h, decide_eq_true h]; exact select_one _ _
  · rw [if_neg h, decide_eq_false h]; exact select_zero _ _

/-- The loss term of two matrices given entry by entry: the sum over all (i, j) of the squared difference times the
    mask, over the number of pairs. -/
theorem lossT_apply (C D : FVec Ideal S1024x1024 .f32) (cx cy : Fin 1024 → Fin 1024 → EReal)
    (hC : ∀ i j, C (ix2 i j) = cx i j) (hD : ∀ i j, D (ix2 i j) = cy i j) (q : S_.Idx) :
    lossT C D q
      = Ideal.div (∑ i : Fin 1024, ∑ j : Fin 1024, (cx i j - cy i j) * (cx i j - cy i j) * maskR i j) cCount := by
  unfold lossT cCount
  rw [hostDivf_apply, hostReduceAdd_apply, Ideal.hostReduceAdd_total reducesTo_S1024x1024_S_d0_1 (fun b => b.elim0),
    constant_apply, constant_apply, Ideal.ofBits_zero_f32, zero_add, sum_idx2]
  congr 1
  refine Finset.sum_congr rfl fun i _ => Finset.sum_congr rfl fun j _ => ?_
  rw [mulf_apply, mulf_apply, subf_apply, maskT_apply, hC, hD]

end Cert.RefSide

end
-- ==== Proof.RefValue.lean ====
/-
  The reference's side of the certificate on the extended reals: every weakly fair execution of the reference program
  terminates with its rank-0 result holding the specification's two-pass loss of the two argument arrays, read as
  matrices, and leaves the arguments unchanged.
-/
import proofs.«176689_j65489661329953_2_alg».proof.Proof.RefRun
import proofs.«176689_j65489661329953_2_alg».proof.Proof.RefCorr
import proofs.«176689_j65489661329953_2_alg».proof.Proof.RefLoss

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.Spec

/-- The reference term of two arrays is, at its one index, the specification's two-pass loss of the two matrices. -/
theorem refTerm_apply (X Y : FVec Ideal S8192x1024 .f32) (q : S_.Idx) :
    refTerm X Y q = lossR (toMat X) (toMat Y) := by
  unfold refTerm lossR
  exact lossT_apply (corrT X) (corrT Y) (corrR (toMat X)) (corrR (toMat Y)) (corrT_apply X) (corrT_apply Y) q

/-- The reference's run at the extended reals, with the result read as the specification's loss. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v36)
          = (fun _ => Cert.Spec.lossR (Cert.Spec.toMat (m ((c.tc : Thread Cert.ReferenceIdeal.nD Cert.ReferenceIdeal.τ).loc Cert.ReferenceIdeal.main_arg0)))
                                     (Cert.Spec.toMat (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (funext fun q => refTerm_apply _ _ q), (h c).2.1, (h c).2.2⟩)
    (run_term (F := Ideal) m ρ)

end Cert.RefSide

end
-- ==== Proof.AlgReal.lean ====
/-
  Identities over the real numbers about centred sums over a finite index set of n elements.  With the means
  a = (Σ u)/n and b = (Σ v)/n, the centred product sum Σ (u - a)(v - b) equals the raw one Σ u v - n a b; and a
  common pair of scale factors comes out of the sum.
-/
import Mathlib.Analysis.SpecialFunctions.Pow.Real
import Mathlib.Algebra.BigOperators.Group.Finset.Basic

noncomputable section

namespace Cert.AlgReal

open scoped BigOperators

variable {ι : Type*} [Fintype ι]

/-- Expanding a product of two shifted sequences and summing. -/
theorem sum_sub_mul_sub (u v : ι → ℝ) (a b : ℝ) :
    ∑ k, (u k - a) * (v k - b)
      = ∑ k, u k * v k - b * ∑ k, u k - a * ∑ k, v k + (Fintype.card ι : ℝ) * (a * b) := by
  have h : ∀ k, (u k - a) * (v k - b) = u k * v k - b * u k - a * v k + a * b := fun k => by ring
  simp only [h, Finset.sum_add_distrib, Finset.sum_sub_distrib, ← Finset.mul_sum, Finset.sum_const,
    Finset.card_univ, nsmul_eq_mul]
  ring

/-- Centred at the means, the product sum is the raw product sum less n times the product of the means. -/
theorem sum_centered (u v : ι → ℝ) (n : ℝ) (hn : (Fintype.card ι : ℝ) = n) (hn0 : n ≠ 0) :
    ∑ k, (u k - (∑ k, u k) / n) * (v k - (∑ k, v k) / n)
      = ∑ k, u k * v k - n * ((∑ k, u k) / n * ((∑ k, v k) / n)) := by
  rw [sum_sub_mul_sub, hn]
  field_simp
  ring

/-- The same with both factors divided by constants: the constants come out of the sum as reciprocals. -/
theorem sum_standardized (u v : ι → ℝ) (n : ℝ) (hn : (Fintype.card ι : ℝ) = n) (hn0 : n ≠ 0) (c d : ℝ) :
    ∑ k, (u k - (∑ k, u k) / n) / c * ((v k - (∑ k, v k) / n) / d)
      = 1 / c * (1 / d) * (∑ k, u k * v k - n * ((∑ k, u k) / n * ((∑ k, v k) / n))) := by
  have h : ∀ k, (u k - (∑ k, u k) / n) / c * ((v k - (∑ k, v k) / n) / d)
      = 1 / c * (1 / d) * ((u k - (∑ k, u k) / n) * (v k - (∑ k, v k) / n)) := fun k => by ring
  simp only [h, ← Finset.mul_sum]
  rw [sum_centered u v n hn hn0]

/-- A sum of squares divided by a positive number is nonnegative. -/
theorem sum_sq_div_nonneg (w : ι → ℝ) {m : ℝ} (hm : 0 < m) : 0 ≤ (∑ k, w k * w k) / m :=
  div_nonneg (Finset.sum_nonneg fun k _ => mul_self_nonneg (w k)) hm.le

end Cert.AlgReal

end
-- ==== Proof.LibUnitRow.lean ====
/-
  Scaling to unit length, on the extended reals. For a positive real s the reciprocal square root of s is the
  real number (√s)⁻¹, and dividing by √s is multiplying by that number: so x · rsqrt s and x / √s are one
  extended real, for every x. For a real s ≥ 0 the square root is nonzero exactly when s is positive. A finite
  sum of real numbers, read in the extended reals, is the sum of the terms read there.
-/
import Idealize.ShloMosaic.PureOps.Ideal

noncomputable section

namespace Cert.LibUnitRow

open Idealize.ShloMosaic

/-- The square root of a nonnegative real, on the extended reals, is the real square root. -/
theorem sqrt_coe_of_nonneg {s : ℝ} (hs : 0 ≤ s) : Ideal.sqrt (s : EReal) = ((Real.sqrt s : ℝ) : EReal) := by
  rw [Ideal.sqrt_coe, if_neg (not_lt.mpr hs)]

/-- A nonnegative real whose square root is not zero is positive. -/
theorem pos_of_sqrt_ne_zero {s : ℝ} (hs : 0 ≤ s) (h : Ideal.sqrt (s : EReal) ≠ 0) : 0 < s := by
  rcases hs.lt_or_eq with h0 | h0
  · exact h0
  · exfalso
    apply h
    rw [← h0, sqrt_coe_of_nonneg le_rfl, Real.sqrt_zero, EReal.coe_zero]

/-- For a positive real s: x · rsqrt s = x / √s, for every extended real x. -/
theorem mul_rsqrt_eq_div_sqrt (x : EReal) {s : ℝ} (hs : 0 < s) :
    x * Ideal.rsqrt (s : EReal) = Ideal.div x (Ideal.sqrt (s : EReal)) := by
  rw [Ideal.rsqrt_coe, if_neg (not_lt.mpr hs.le), if_neg hs.ne', sqrt_coe_of_nonneg hs.le,
    Ideal.div_coe (Real.sqrt_pos.mpr hs).ne', one_div]

/-- A finite sum of reals, read in the extended reals, is the sum of its terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of squares of reals, read in the extended reals, is a nonnegative real. -/
theorem sum_sq_real {ι : Type*} (s : Finset ι) (f : ι → ℝ) :
    ∑ i ∈ s, (f i : EReal) * (f i : EReal) = ((∑ i ∈ s, f i * f i : ℝ) : EReal)
      ∧ 0 ≤ ∑ i ∈ s, f i * f i := by
  refine ⟨?_, Finset.sum_nonneg fun i _ => mul_self_nonneg (f i)⟩
  rw [coe_sum]
  exact Finset.sum_congr rfl fun i _ => (EReal.coe_mul _ _).symm

end Cert.LibUnitRow

end
-- ==== Proof.AlgCoe.lean ====
/-
  Real matrices read in the extended reals: every quantity of the specification, computed from a matrix whose
  entries are reals, is the real number the textbook formula gives.  The one-pass and the two-pass correlations
  are then one real number.
-/
import proofs.«176689_j65489661329953_2_alg».proof.Proof.AlgConsts
import proofs.«176689_j65489661329953_2_alg».proof.Proof.AlgReal
import proofs.«176689_j65489661329953_2_alg».proof.Proof.LibUnitRow

noncomputable section

namespace Cert.Spec

open Idealize.ShloMosaic
open scoped BigOperators

/-- A quotient of two reals with nonzero divisor, taken in the extended reals, is the real quotient. -/
theorem div_coe_coe (a : ℝ) {y : ℝ} (h : y ≠ 0) :
    Ideal.div (a : EReal) (y : EReal) = ((a / y : ℝ) : EReal) := by
  rw [Ideal.div_coe h, ← EReal.coe_mul, mul_one_div]

/-- A real matrix read entrywise in the extended reals. -/
def cm (r : Fin 8192 → Fin 1024 → ℝ) : Mat := fun k i => ((r k i : ℝ) : EReal)

/-- The real mean of column i. -/
def rmean (r : Fin 8192 → Fin 1024 → ℝ) (i : Fin 1024) : ℝ := (∑ k, r k i) / 8192

/-- The real unbiased variance of column i, two-pass form. -/
def rvar (r : Fin 8192 → Fin 1024 → ℝ) (i : Fin 1024) : ℝ :=
  (∑ k, (r k i - rmean r i) * (r k i - rmean r i)) / 8191

/-- The real standard deviation plus the regularizer e. -/
def rsd (r : Fin 8192 → Fin 1024 → ℝ) (e : ℝ) (i : Fin 1024) : ℝ := Real.sqrt (rvar r i) + e

/-- The real correlation of columns i and j, two-pass form. -/
def rcorr (r : Fin 8192 → Fin 1024 → ℝ) (e : ℝ) (i j : Fin 1024) : ℝ :=
  (∑ k, (r k i - rmean r i) / rsd r e i * ((r k j - rmean r j) / rsd r e j)) / 8192

variable (r : Fin 8192 → Fin 1024 → ℝ)

theorem card_rows : (Fintype.card (Fin 8192) : ℝ) = 8192 := by
  rw [Fintype.card_fin]; norm_num

theorem colSum_cm (i : Fin 1024) : colSum (cm r) i = ((∑ k, r k i : ℝ) : EReal) := by
  unfold colSum cm
  rw [Cert.LibUnitRow.coe_sum]

theorem colSq_cm (i : Fin 1024) : colSq (cm r) i = ((∑ k, r k i * r k i : ℝ) : EReal) := by
  unfold colSq cm
  rw [Cert.LibUnitRow.coe_sum]
  exact Finset.sum_congr rfl fun k _ => (EReal.coe_mul _ _).symm

theorem gram_cm (i j : Fin 1024) : gram (cm r) i j = ((∑ k, r k i * r k j : ℝ) : EReal) := by
  unfold gram cm
  rw [Cert.LibUnitRow.coe_sum]
  exact Finset.sum_congr rfl fun k _ => (EReal.coe_mul _ _).symm

theorem meanK_cm (i : Fin 1024) : meanK (cm r) i = ((rmean r i : ℝ) : EReal) := by
  unfold meanK rmean
  rw [colSum_cm, cN_eq, div_coe_coe _ (by norm_num)]

theorem meanR_cm (i : Fin 1024) : meanR (cm r) i = ((rmean r i : ℝ) : EReal) := by
  unfold meanR rmean
  rw [colSum_cm, cN_eq, div_coe_coe _ (by norm_num)]

theorem rvar_nonneg (i : Fin 1024) : 0 ≤ rvar r i :=
  Cert.AlgReal.sum_sq_div_nonneg (fun k => r k i - rmean r i) (by norm_num)

/-- The one-pass variance numerator is the two-pass one. -/
theorem rvar_onepass (i : Fin 1024) :
    (∑ k, r k i * r k i - 8192 * rmean r i * rmean r i) / 8191 = rvar r i := by
  unfold rvar rmean
  rw [Cert.AlgReal.sum_centered (fun k => r k i) (fun k => r k i) 8192 card_rows (by norm_num)]
  ring

theorem varK_cm (i : Fin 1024) : varK (cm r) i = ((rvar r i : ℝ) : EReal) := by
  unfold varK
  rw [colSq_cm, meanK_cm, cN_eq, cN1_eq, ← EReal.coe_mul, ← EReal.coe_mul, ← EReal.coe_sub,
    div_coe_coe _ (by norm_num), rvar_onepass]

theorem varR_cm (i : Fin 1024) : varR (cm r) i = ((rvar r i : ℝ) : EReal) := by
  unfold varR
  have h : ∀ k : Fin 8192, (cm r k i - meanR (cm r) i) * (cm r k i - meanR (cm r) i)
      = (((r k i - rmean r i) * (r k i - rmean r i) : ℝ) : EReal) := fun k => by
    rw [meanR_cm]; unfold cm; rw [← EReal.coe_sub, ← EReal.coe_mul]
  simp only [h]
  rw [← Cert.LibUnitRow.coe_sum, cN_eq, ← EReal.coe_one, ← EReal.coe_sub, div_coe_coe _ (by norm_num)]
  unfold rvar
  norm_num

theorem sdK_cm (i : Fin 1024) : sdK (cm r) i = ((Real.sqrt (rvar r i) : ℝ) : EReal) := by
  unfold sdK
  rw [varK_cm, c0_eq, max_eq_left (EReal.coe_nonneg.mpr (rvar_nonneg r i)),
    Cert.LibUnitRow.sqrt_coe_of_nonneg (rvar_nonneg r i)]

theorem sdR_cm (i : Fin 1024) : sdR (cm r) i = ((Real.sqrt (rvar r i) : ℝ) : EReal) := by
  unfold sdR
  rw [varR_cm, Cert.LibUnitRow.sqrt_coe_of_nonneg (rvar_nonneg r i)]

theorem rsd_pos {e : ℝ} (he : 0 < e) (i : Fin 1024) : 0 < rsd r e i :=
  add_pos_of_nonneg_of_pos (Real.sqrt_nonneg _) he

theorem dK_cm {e : ℝ} (he : 0 < e) (hE : cEps = (e : EReal)) (i : Fin 1024) :
    dK (cm r) i = ((1 / rsd r e i : ℝ) : EReal) := by
  unfold dK
  rw [sdK_cm, hE, c1_eq, ← EReal.coe_add]
  exact div_coe_coe _ (rsd_pos r he i).ne'

theorem zR_cm {e : ℝ} (he : 0 < e) (hE : cEps = (e : EReal)) (k : Fin 8192) (i : Fin 1024) :
    zR (cm r) k i = (((r k i - rmean r i) / rsd r e i : ℝ) : EReal) := by
  unfold zR
  rw [sdR_cm, meanR_cm, hE, ← EReal.coe_add]
  unfold cm
  rw [← EReal.coe_sub]
  exact div_coe_coe _ (rsd_pos r he i).ne'

theorem corrR_cm {e : ℝ} (he : 0 < e) (hE : cEps = (e : EReal)) (i j : Fin 1024) :
    corrR (cm r) i j = ((rcorr r e i j : ℝ) : EReal) := by
  unfold corrR
  have h : ∀ k : Fin 8192, zR (cm r) k i * zR (cm r) k j
      = (((r k i - rmean r i) / rsd r e i * ((r k j - rmean r j) / rsd r e j) : ℝ) : EReal) := fun k => by
    rw [zR_cm r he hE, zR_cm r he hE, ← EReal.coe_mul]
  simp only [h]
  rw [← Cert.LibUnitRow.coe_sum, cN_eq, div_coe_coe _ (by norm_num)]
  rfl

theorem corrK_cm {e : ℝ} (he : 0 < e) (hE : cEps = (e : EReal)) (i j : Fin 1024) :
    corrK (cm r) i j = ((rcorr r e i j : ℝ) : EReal) := by
  unfold corrK
  rw [dK_cm r he hE, dK_cm r he hE, gram_cm, meanK_cm, meanK_cm, cN_eq, ← EReal.coe_mul, ← EReal.coe_mul,
    ← EReal.coe_mul, ← EReal.coe_sub, ← EReal.coe_mul, div_coe_coe _ (by norm_num)]
  unfold rcorr rmean
  rw [Cert.AlgReal.sum_standardized (fun k => r k i) (fun k => r k j) 8192 card_rows (by norm_num)]

end Cert.Spec

end
-- ==== Proof.Algebra.lean ====
/-
  The two losses agree on matrices of real numbers.  Both are the same division of a double sum over the column
  pairs; the sums agree term by term: the two correlation matrices are one real matrix, above the diagonal the
  squared difference does not depend on the order of the subtraction and the mask is one, and on or below the
  diagonal both terms are zero.
-/
import proofs.«176689_j65489661329953_2_alg».proof.Proof.AlgCoe

noncomputable section

namespace Cert.Spec

open Idealize.ShloMosaic
open scoped BigOperators

/-- A matrix all of whose entries are reals is a real matrix read in the extended reals. -/
theorem Finite.exists_cm {a : Mat} (h : Finite a) : ∃ r : Fin 8192 → Fin 1024 → ℝ, a = cm r := by
  choose r hr using h
  exact ⟨r, funext fun k => funext fun i => hr k i⟩

/-- The one-pass loss equals the two-pass loss on real inputs. -/
theorem lossK_eq_lossR (x y : Mat) (hx : Finite x) (hy : Finite y) : lossK x y = lossR x y := by
  obtain ⟨rx, rfl⟩ := hx.exists_cm
  obtain ⟨ry, rfl⟩ := hy.exists_cm
  obtain ⟨e, he, hE⟩ := cEps_eq
  unfold lossK lossR
  congr 1
  refine Finset.sum_congr rfl fun i _ => Finset.sum_congr rfl fun j _ => ?_
  rw [corrK_cm rx he hE, corrK_cm ry he hE, corrR_cm rx he hE, corrR_cm ry he hE]
  unfold maskR
  by_cases hij : i < j
  · rw [if_pos hij, if_neg (not_le.mpr hij), c1_eq, ← EReal.coe_sub, ← EReal.coe_sub, ← EReal.coe_mul,
      ← EReal.coe_mul, ← EReal.coe_mul]
    congr 1
    ring
  · rw [if_neg hij, if_pos (not_lt.mp hij), c0_eq, mul_zero]

end Cert.Spec

end
-- ==== Proof.PreFinite.lean ====
/-
  The precondition read back: it says that every entry of both input arrays, in absolute value, lies strictly
  below plus infinity.  An extended real whose absolute value max x (-x) is below the top element is neither
  infinity, so it is a real number: both inputs are matrices of reals.
-/
import proofs.«176689_j65489661329953_2_alg».proof.Defs
import proofs.«176689_j65489661329953_2_alg».proof.Proof.Gen.KernelIdeal
import proofs.«176689_j65489661329953_2_alg».proof.Proof.Gen.Pre_finite_inputs
import proofs.«176689_j65489661329953_2_alg».proof.Proof.SpecIdx
import Idealize.ShloMosaic.Lib.ReduceAll

noncomputable section

namespace Cert.PreFinite

open Idealize.ShloMosaic Idealize.SL.Sem

/-- The shape with no axes has one index. -/
instance : Subsingleton Cert.Pre_finite_inputs.S_.Idx := ⟨fun a b => funext fun d => d.elim0⟩

/-- The word the entries are compared against denotes plus infinity. -/
theorem ofBits_inf : Ideal.ofBits .f32 0x7F800000#32 = ⊤ := by
  simp [Ideal.ofBits, Ideal.ieee]

/-- An extended real with absolute value below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- A truth value as a one-bit word is 1 exactly when it is true. -/
theorem ofBool_eq_one {b : Bool} : BitVec.ofBool b = 1#1 ↔ b = true := by cases b <;> decide

/-- The element test of the precondition, passed, makes the element a real. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one, decide_eq_true_iff] at h
  exact real_of_abs_lt_top x h

/-- One conjunction over all entries of an array, equal to 1, makes the array a matrix of reals. -/
theorem finite_of_all (A : FVec Ideal Cert.Pre_finite_inputs.S8192x1024 .f32)
    [Cert.Pre_finite_inputs.Facts]
    (h : Host.reduce IntOp.andi
        (cmpf CmpFPredicate.olt (Host.absf A)
          (broadcastInDim Cert.Pre_finite_inputs.S8192x1024 ![] Cert.Pre_finite_inputs.Facts.bcast_S_S8192x1024
            (constant Cert.Pre_finite_inputs.S_ FTy.f32 0x7F800000#32)))
        (constantI Cert.Pre_finite_inputs.S_ 1 1#1) Cert.Pre_finite_inputs.Facts.reducesTo_S8192x1024_S_d0_1
          Cert.Pre_finite_inputs.Facts.h_S_ ValueIdx.ix0 = 1#1) :
    Cert.Spec.Finite (Cert.Spec.toMat A) := by
  intro k i
  have hk := Host.reduce_andi_all _ _ _ _ _ h (ValueIdx.ix2 k i)
  exact real_of_cmp (A (ValueIdx.ix2 k i)) hk

/-- The printed predicate, all ones on two arrays, makes both matrices of reals. -/
theorem finite_of_fn (A B : FVec Ideal Cert.Pre_finite_inputs.S8192x1024 .f32)
    (h : Cert.Pre_finite_inputs.fn (F := Ideal) A B = fun _ => 1#1) :
    Cert.Spec.Finite (Cert.Spec.toMat A) ∧ Cert.Spec.Finite (Cert.Spec.toMat B) := by
  have h0 := congrFun h ValueIdx.ix0
  dsimp only [Cert.Pre_finite_inputs.fn] at h0
  obtain ⟨ha, hb⟩ := IntOp.andi_eq_one.1 h0
  exact ⟨finite_of_all A ha, finite_of_all B hb⟩

/-- Under the precondition both argument arrays of every device are matrices of reals. -/
theorem finite_of_pre (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.Finite (Cert.Spec.toMat (m ((c.tc : Thread Cert.KernelIdeal.nD Cert.KernelIdeal.τ).loc Cert.KernelIdeal.main_arg0)))
    ∧ Cert.Spec.Finite (Cert.Spec.toMat (m ((c.tc : Thread Cert.KernelIdeal.nD Cert.KernelIdeal.τ).loc Cert.KernelIdeal.main_arg1))) :=
  finite_of_fn _ _ (h c)

end Cert.PreFinite

end
-- ==== Proof.lean ====
/-
  The certificate of a correlation-difference loss computed two ways.

  Both programs take two [8192, 1024] matrices X and Y (8192 samples, 1024 features), form for each the correlation
  matrix of its columns — every column centred by its mean and scaled by its unbiased standard deviation plus a small
  regularizer, then all pairs of columns correlated — and return the mean, over the pairs i < j, of the squared
  difference of the two correlation matrices.

  The reference does this in two passes over each matrix: first the column means and deviations, then the
  standardized matrix Z and the product Zᵀ Z / n.  The kernel does it in one pass: sweeping the rows in sixteen
  blocks it accumulates the raw Gram matrix AᵀA, the column sums and the column sums of squares, and closes with
  D (AᵀA − n μμᵀ) D / n, D the diagonal of the reciprocal regularized deviations; the second sweep also folds in the
  masked squared difference against the first sweep's matrix and the final division.

  Over the extended reals, for finite inputs, the two are one function: the one-pass variance Σa² − n μ² is the
  two-pass Σ(a − μ)² (so it is nonnegative and the kernel's floor at zero is idle), and expanding
  Σ_k (a_ki − μ_i)(a_kj − μ_j) gives the raw Gram entry minus n μ_i μ_j; selecting the pairs i < j is multiplying by the
  0/1 mask, and the difference may be taken in either order under the square.  These laws need the entries to be
  real numbers (they fail at infinities), which is what the precondition provides.

  The parts: both kernel programs run to the end with their arguments unchanged (the two sweeps' bodies run at every
  grid point with the three running values carried in scratch from point to point); the idealized kernel's result is
  the one-pass loss; the reference's result is the two-pass loss; the two losses agree on finite matrices.
-/
import proofs.«176689_j65489661329953_2_alg».proof.Defs
import proofs.«176689_j65489661329953_2_alg».proof.Proof.Gen.Kernel
import proofs.«176689_j65489661329953_2_alg».proof.Proof.Gen.KernelIdeal
import proofs.«176689_j65489661329953_2_alg».proof.Proof.Gen.ReferenceIdeal
import proofs.«176689_j65489661329953_2_alg».proof.Proof.Gen.Pre_finite_inputs
import proofs.«176689_j65489661329953_2_alg».proof.Proof.K.Kept
import proofs.«176689_j65489661329953_2_alg».proof.Proof.KI.Value
import proofs.«176689_j65489661329953_2_alg».proof.Proof.RefValue
import proofs.«176689_j65489661329953_2_alg».proof.Proof.Algebra
import proofs.«176689_j65489661329953_2_alg».proof.Proof.PreFinite

noncomputable section

namespace Cert.Proof

open Idealize.ShloMosaic Idealize.SL.Sem

/-- The word-level kernel runs to the end and leaves both arguments as launched. -/
theorem frame_k : @Cert.frame_Kernel Cert.Kernel.Gen.facts Cert.Pre_finite_inputs.Gen.facts :=
  fun m ρ _ => Cert.Kernel.Body.frame (F := Bits) m ρ

/-- So does the idealized kernel. -/
theorem frame_ki : @Cert.frame_KernelIdeal Cert.KernelIdeal.Gen.facts Cert.Pre_finite_inputs.Gen.facts :=
  fun m ρ _ => Cert.KernelIdeal.Body.frame (F := Ideal) m ρ

/-- The reference runs to the end and leaves both arguments as launched: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.RefSide.run m ρ)

/-- The idealization rewrote nothing. -/
theorem preserves : Cert.preserves_Kernel_KernelIdeal := trivial

/-- From memories agreeing on the two arguments, all of whose entries are real numbers, the idealized kernel ends at the
    one-pass loss and the reference at the two-pass loss of the same two matrices: one extended real. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Body.run_ideal m ρ, ?_⟩
  refine (θ_run Cert.ReferenceIdeal.defs _ _).mono (fun _ h c => ⟨(h c).1.trans ?_, (h c).2⟩) (Cert.RefSide.run m' ρ')
  rw [(hagree c).1, (hagree c).2]
  obtain ⟨hx, hy⟩ := Cert.PreFinite.finite_of_pre m hpre c
  exact funext fun _ => (Cert.Spec.lossK_eq_lossR _ _ hx hy).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
